-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x384 : Shape := ⟨2, ![128, 384]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S64x128 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S64x128 .f32) (main_arg12 : FVec F S64 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S128x384 .f32) (main_arg4 : FVec F S128 .f32) (main_arg5 : FVec F S128x384 .f32) (main_arg6 : FVec F S128 .f32) (main_arg7 : FVec F S128 .f32) (main_arg8 : FVec F S128 .f32) (main_arg9 : FVec F S128x128 .f32) (main_arg10 : FVec F S128 .f32) (main_arg11 : FVec F S64x128 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg3
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x384 .f32 := Host.absf main_arg5
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x384 : Shape := ⟨2, ![128, 384]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S384x128 : Shape := ⟨2, ![384, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 182
  | .vmem => 36
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x384, .f32⟩
  | 4 => ⟨S128, .f32⟩
  | 5 => ⟨S128x384, .f32⟩
  | 6 => ⟨S128, .f32⟩
  | 7 => ⟨S128, .f32⟩
  | 8 => ⟨S128, .f32⟩
  | 9 => ⟨S128x128, .f32⟩
  | 10 => ⟨S128, .f32⟩
  | 11 => ⟨S64x128, .f32⟩
  | 12 => ⟨S64, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000x128, .f32⟩
  | 76 => ⟨S384x128, .f32⟩
  | 77 => ⟨S128x128, .f32⟩
  | 78 => ⟨S128x128, .f32⟩
  | 79 => ⟨S128x128, .f32⟩
  | 80 => ⟨S1x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S_, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S128, .f32⟩
  | 119 => ⟨S128, .f32⟩
  | 120 => ⟨S1x128, .f32⟩
  | 121 => ⟨S1x128, .f32⟩
  | 122 => ⟨S50000x128, .f32⟩
  | 123 => ⟨S50000x128, .f32⟩
  | 124 => ⟨S50000x128, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x128, .f32⟩
  | 6 => ⟨S_, .f32⟩
  | 7 => ⟨S50000x128, .f32⟩
  | 8 => ⟨S800000x1, .i32⟩
  | 9 => ⟨S50000x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S50000x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x128, .f32⟩
  | 44 => ⟨S384x128, .f32⟩
  | 45 => ⟨S128x128, .f32⟩
  | 46 => ⟨S128x128, .f32⟩
  | 47 => ⟨S128x128, .f32⟩
  | 48 => ⟨S1x128, .f32⟩
  | 49 => ⟨S128x128, .f32⟩
  | 50 => ⟨S128x64, .f32⟩
  | 51 => ⟨S1x128, .f32⟩
  | 52 => ⟨S1x64, .f32⟩
  | 53 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_cst_13 : Ref sig .tc := ⟨.hbm, 84, rfl⟩
abbrev main_v54 : Ref sig .tc := ⟨.hbm, 85, rfl⟩
abbrev main_v55 : Ref sig .tc := ⟨.hbm, 86, rfl⟩
abbrev main_c_14 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v56 : Ref sig .tc := ⟨.hbm, 109, rfl⟩
abbrev main_cst_15 : Ref sig .tc := ⟨.hbm, 110, rfl⟩
abbrev main_v57 : Ref sig .tc := ⟨.hbm, 111, rfl⟩
abbrev main_v58 : Ref sig .tc := ⟨.hbm, 112, rfl⟩
abbrev main_cst_16 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_c_17 : Ref sig .tc := ⟨.hbm, 125, rfl⟩
abbrev main_v70 : Ref sig .tc := ⟨.hbm, 126, rfl⟩
abbrev main_v71 : Ref sig .tc := ⟨.hbm, 127, rfl⟩
abbrev main_c_18 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_19 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_20 : Ref sig .tc := ⟨.hbm, 140, rfl⟩
abbrev main_v82 : Ref sig .tc := ⟨.hbm, 141, rfl⟩
abbrev main_v83 : Ref sig .tc := ⟨.hbm, 142, rfl⟩
abbrev main_cst_21 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_22 : Ref sig .tc := ⟨.hbm, 149, rfl⟩
abbrev main_v89 : Ref sig .tc := ⟨.hbm, 150, rfl⟩
abbrev main_v90 : Ref sig .tc := ⟨.hbm, 151, rfl⟩
abbrev main_c_23 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_24 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_25 : Ref sig .tc := ⟨.hbm, 164, rfl⟩
abbrev main_v101 : Ref sig .tc := ⟨.hbm, 165, rfl⟩
abbrev main_v102 : Ref sig .tc := ⟨.hbm, 166, rfl⟩
abbrev main_cst_26 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg10_0 : Ref sig .tc := ⟨.vmem, 32, rfl⟩
abbrev cc2_stg11_0 : Ref sig .tc := ⟨.vmem, 33, rfl⟩
abbrev cc2_stg12_0 : Ref sig .tc := ⟨.vmem, 34, rfl⟩
abbrev cc2_stg12_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem9_0 : DmaSem sig := 31
abbrev cc2_sem10_0 : DmaSem sig := 32
abbrev cc2_sem11_0 : DmaSem sig := 33
abbrev cc2_sem12_0 : DmaSem sig := 34
abbrev cc2_sem12_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S5000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x384_S384x128_1_0 : S128x384.Transposes [1, 0] S384x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  transposes_S128x128_S128x128_1_0 : S128x128.Transposes [1, 0] S128x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x64.size a ≤ S128x64.size a
  hwx2_10 : ∀ i : grid2.Coords, EltTy.bits .f32 = 32 ∨ (Rect.block (s := S128x64) S128x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x64.size a ≤ S50000x64.size a
  hwx2_12 : ∀ i : grid2.Coords, EltTy.bits .f32 = 32 ∨ (Rect.block (s := S50000x64) S5000x64.size (cc2_transform_12 i) (hinb2_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v52) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v66) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v86) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v106) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v108) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v109) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v110) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v111) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S5000x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v112) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v114) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v113) S128x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v115) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v116) S5000x64.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x384 : Shape := ⟨2, ![128, 384]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S384x128 : Shape := ⟨2, ![384, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 201
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x384, .f32⟩
  | 4 => ⟨S128, .f32⟩
  | 5 => ⟨S128x384, .f32⟩
  | 6 => ⟨S128, .f32⟩
  | 7 => ⟨S128, .f32⟩
  | 8 => ⟨S128, .f32⟩
  | 9 => ⟨S128x128, .f32⟩
  | 10 => ⟨S128, .f32⟩
  | 11 => ⟨S64x128, .f32⟩
  | 12 => ⟨S64, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S50000x128, .f32⟩
  | 76 => ⟨S50000x384, .f32⟩
  | 77 => ⟨S384x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x128, .f32⟩
  | 25 => ⟨S50000x128, .f32⟩
  | 26 => ⟨S50000x128, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S50000x128, .f32⟩
  | 50 => ⟨S50000x384, .f32⟩
  | 51 => ⟨S384x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S128x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S128x64, .f32⟩
  | 69 => ⟨S50000x64, .f32⟩
  | 70 => ⟨S1x64, .f32⟩
  | 71 => ⟨S50000x64, .f32⟩
  | 72 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_cst_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_cst : Ref sig .tc := ⟨.hbm, 82, rfl⟩
abbrev main_call1_v0 : Ref sig .tc := ⟨.hbm, 83, rfl⟩
abbrev main_v53 : Ref sig .tc := ⟨.hbm, 84, rfl⟩
abbrev main_cst_12 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_c_14 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_15 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_c_16 : Ref sig .tc := ⟨.hbm, 131, rfl⟩
abbrev main_v75 : Ref sig .tc := ⟨.hbm, 132, rfl⟩
abbrev main_v76 : Ref sig .tc := ⟨.hbm, 133, rfl⟩
abbrev main_c_17 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_18 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_cst_19 : Ref sig .tc := ⟨.hbm, 146, rfl⟩
abbrev main_v87 : Ref sig .tc := ⟨.hbm, 147, rfl⟩
abbrev main_v88 : Ref sig .tc := ⟨.hbm, 148, rfl⟩
abbrev main_cst_20 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_c_21 : Ref sig .tc := ⟨.hbm, 155, rfl⟩
abbrev main_v94 : Ref sig .tc := ⟨.hbm, 156, rfl⟩
abbrev main_v95 : Ref sig .tc := ⟨.hbm, 157, rfl⟩
abbrev main_c_22 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_23 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_24 : Ref sig .tc := ⟨.hbm, 170, rfl⟩
abbrev main_v106 : Ref sig .tc := ⟨.hbm, 171, rfl⟩
abbrev main_v107 : Ref sig .tc := ⟨.hbm, 172, rfl⟩
abbrev main_cst_25 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_call3_cst : Ref sig .tc := ⟨.hbm, 184, rfl⟩
abbrev main_call3_v0 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_call4_cst : Ref sig .tc := ⟨.hbm, 193, rfl⟩
abbrev main_call4_v0 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KFold.lean ====
/-
  The contents of the TensorCore's unscoped buffers at each boundary of @main, as a fold from the launch memory:
  a stretch of host operations applies them in order (`StableHlo.after`), a kernel region replaces the contents of
  its one output array and leaves every other buffer as it found it. The three output contents are parameters here
  (`o52`, `o67`, `o116`); the run instantiates them with what each pipeline's write-backs leave. No boundary
  changes an argument array: no host operation writes one and no region's output is one.
-/
import proofs.«181888_j53283364274269_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)
variable (o52 : (c : Dev nD) → Buf (Elt F) ((c : Thread nD τ).loc main_v52))
variable (o67 : (c : Dev nD) → Buf (Elt F) ((c : Thread nD τ).loc main_v67))
variable (o116 : (c : Dev nD) → Buf (Elt F) ((c : Thread nD τ).loc main_v116))

/-- At the first region's entry: the launch memory after the first three stretches of host operations. -/
abbrev B3 (c : Dev nD) : Valuation τ sig (Elt F) :=
  StableHlo.after hostOps0_2 (StableHlo.after hostOps0_1 (StableHlo.after hostOps0 (fun b => m (c, b))))
/-- At the first region's exit: its output array replaced. -/
abbrev B4 (c : Dev nD) : Valuation τ sig (Elt F) := Function.update (B3 m c) main_v52 (o52 c)
/-- At the second region's entry. -/
abbrev B7 (c : Dev nD) : Valuation τ sig (Elt F) :=
  StableHlo.after hostOps1_2 (StableHlo.after hostOps1_1 (StableHlo.after hostOps1 (B4 m o52 c)))
/-- At the second region's exit. -/
abbrev B8 (c : Dev nD) : Valuation τ sig (Elt F) := Function.update (B7 m o52 c) main_v67 (o67 c)
/-- At the third region's entry. -/
abbrev B9 (c : Dev nD) : Valuation τ sig (Elt F) := StableHlo.after hostOps2 (B8 m o52 o67 c)
/-- At the return. -/
abbrev B10 (c : Dev nD) : Valuation τ sig (Elt F) := Function.update (B9 m o52 o67 c) main_v116 (o116 c)

/-- A reference that no host operation writes and that is no region's output holds at the return what it held at
    launch. -/
theorem B10_of (c : Dev nD) (r : Ref sig .tc)
    (h0 : r ∉ hostOps0_W) (h1 : r ∉ hostOps0_1_W) (h2 : r ∉ hostOps0_2_W) (h3 : r ∉ ([main_v52] : List (Ref sig .tc)))
    (h4 : r ∉ hostOps1_W) (h5 : r ∉ hostOps1_1_W) (h6 : r ∉ hostOps1_2_W) (h7 : r ∉ ([main_v67] : List (Ref sig .tc)))
    (h8 : r ∉ hostOps2_W) (h9 : r ∉ ([main_v116] : List (Ref sig .tc))) :
    B10 m o52 o67 o116 c r = m ((c : Thread nD τ).loc r) := by
  have ne (x : Ref sig .tc) (h : r ∉ ([x] : List (Ref sig .tc))) : (Proc.devRef .tc r : DevRef τ sig) ≠ Proc.devRef .tc x :=
    StableHlo.devRef_ne_of_ne (List.ne_of_not_mem_cons h)
  refine (Function.update_of_ne (ne _ h9) _ _).trans ?_
  refine (StableHlo.after_of_writes_sub hostOps2 _ hostOps2_writes h8).trans ?_
  refine (Function.update_of_ne (ne _ h7) _ _).trans ?_
  refine (StableHlo.after_of_writes_sub hostOps1_2 _ hostOps1_2_writes h6).trans ?_
  refine (StableHlo.after_of_writes_sub hostOps1_1 _ hostOps1_1_writes h5).trans ?_
  refine (StableHlo.after_of_writes_sub hostOps1 _ hostOps1_writes h4).trans ?_
  refine (Function.update_of_ne (ne _ h3) _ _).trans ?_
  refine (StableHlo.after_of_writes_sub hostOps0_2 _ hostOps0_2_writes h2).trans ?_
  refine (StableHlo.after_of_writes_sub hostOps0_1 _ hostOps0_1_writes h1).trans ?_
  exact (StableHlo.after_of_writes_sub hostOps0 _ hostOps0_writes h0).trans rfl

/-- The result array holds at the return what the third region left in it. -/
theorem B10_out (c : Dev nD) : B10 m o52 o67 o116 c main_v116 = o116 c := Function.update_self ..

end Cert.Kernel.Hand

end
-- ==== Proof.KBodies0.lean ====
/- The kernel body of pallas region 0, on whole staging buffers, and the per-core proof data of its
   pipeline at a parameter `V` (the TensorCore's buffer contents when the region is entered): each window's
   block at a grid point, what the body leaves in the output window's buffer as a function of the input blocks,
   the body's triple, and the library's body obligation at every point. -/
import proofs.«181888_j53283364274269_2_alg».proof.Proof.Gen.Kernel.Launch
import proofs.«181888_j53283364274269_2_alg».proof.Proof.Gen.Kernel.Skeleton
import proofs.«181888_j53283364274269_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched its block index has not moved), for any proof data whose array is `V`'s and whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched its block index has not moved), for any proof data whose array is `V`'s and whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when it is not
    fetched its block index has not moved), for any proof data whose array is `V`'s and whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when it is not
    fetched its block index has not moved), for any proof data whose array is `V`'s and whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (when it is not
    fetched its block index has not moved), for any proof data whose array is `V`'s and whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (when it is not
    fetched its block index has not moved), for any proof data whose array is `V`'s and whose body leaves the
    block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output window's staging buffer after the body, from the input windows' blocks: the one whole-buffer store of
    `max (x0 · w0 + x1 · w1 + x2 · w2 + b) 0`, every matrix operand rounded to bf16, the products accumulated from zero in
    f32, the bias row broadcast down the tile. -/
def out0_7 (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) : Vec F S5000x128 .f32 :=
  View.canon [⟨r0_0, k0_pay1 (View.ld x0 r0_0) (View.ld x1 r0_0) (View.ld x2 r0_0) (View.ld x3 r0_1) (View.ld x4 r0_1) (View.ld x5 r0_1) (View.ld x6 r0_2)⟩]

/-- The body's stores tile the buffer (checked by evaluation), so they cover it. -/
theorem cover0_7 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__cheb_dense_relu_kernel i arg1 harg1 arg2 harg2 arg3 harg3 arg4 harg4 arg5 harg5 arg6 harg6 arg7 harg7 arg8 harg8) K := by
  simp only [cc0__cheb_dense_relu_kernel_eq_skeleton]; unfold cc0__cheb_dense_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBodies1.lean ====
/- The kernel body of pallas region 1, on whole staging buffers, and the per-core proof data of its
   pipeline at a parameter `V` (the TensorCore's buffer contents when the region is entered): each window's
   block at a grid point, what the body leaves in the output window's buffer as a function of the input blocks,
   the body's triple, and the library's body obligation at every point. -/
import proofs.«181888_j53283364274269_2_alg».proof.Proof.Gen.Kernel.Launch
import proofs.«181888_j53283364274269_2_alg».proof.Proof.Gen.Kernel.Skeleton
import proofs.«181888_j53283364274269_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (when it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (when it is not
    fetched its block index has not moved), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (when it is not
    fetched its block index has not moved), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- The output window's staging buffer after the body, from the input windows' blocks: the one whole-buffer store of
    `x * scale + shift` (scale and shift rows broadcast down the tile). -/
def out1_3 (x0 : Vec F S5000x128 .f32) (x1 : Vec F S1x128 .f32) (x2 : Vec F S1x128 .f32) : Vec F S5000x128 .f32 :=
  View.canon [⟨r1_0, k1_pay1 (View.ld x0 r1_0) (View.ld x1 r1_1) (View.ld x2 r1_1)⟩]

/-- The body's stores tile the buffer (checked by evaluation), so they cover it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_affine_kernel i arg1 harg1 arg2 harg2 arg3 harg3 arg4 harg4) K := by
  simp only [cc1__bn_affine_kernel_eq_skeleton]; unfold cc1__bn_affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBodies2.lean ====
/- The kernel body of pallas region 2, on whole staging buffers, and the per-core proof data of its
   pipeline at a parameter `V` (the TensorCore's buffer contents when the region is entered): each window's
   block at a grid point, what the body leaves in the output window's buffer as a function of the input blocks,
   the body's triple, and the library's body obligation at every point. -/
import proofs.«181888_j53283364274269_2_alg».proof.Proof.Gen.Kernel.Launch
import proofs.«181888_j53283364274269_2_alg».proof.Proof.Gen.Kernel.Skeleton
import proofs.«181888_j53283364274269_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data whose array is `V`'s and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data whose array is `V`'s and whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data whose array is `V`'s and whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (when it is not
    fetched its block index has not moved), for any proof data whose array is `V`'s and whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (when it is not
    fetched its block index has not moved), for any proof data whose array is `V`'s and whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (when it is not
    fetched its block index has not moved), for any proof data whose array is `V`'s and whose body leaves the
    block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (when it is not
    fetched its block index has not moved), for any proof data whose array is `V`'s and whose body leaves the
    block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (when it is not
    fetched its block index has not moved), for any proof data whose array is `V`'s and whose body leaves the
    block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (when it is not
    fetched its block index has not moved), for any proof data whose array is `V`'s and whose body leaves the
    block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not (when it is not
    fetched its block index has not moved), for any proof data whose array is `V`'s and whose body leaves the
    block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, fetched there or not (when it is not
    fetched its block index has not moved), for any proof data whose array is `V`'s and whose body leaves the
    block in place. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, fetched there or not (when it is not
    fetched its block index has not moved), for any proof data whose array is `V`'s and whose body leaves the
    block in place. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-! ## What the body leaves in the output window's buffer -/

/-- The output window's staging buffer after the body, from the input windows' blocks: the one whole-buffer store of
    `max (h · w8 + b9) 0 · w10 + b11`, where `h = max (x0 · w3 + x1 · w4 + x2 · w5 + b6) 0 + x7` is the first layer with
    its residual; every matrix operand is rounded to bf16, the products are accumulated from zero in f32, and the bias
    rows are broadcast down the tile. -/
def out2_12 (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (x7 : Vec F S5000x128 .f32) (x8 : Vec F S128x128 .f32) (x9 : Vec F S1x128 .f32) (x10 : Vec F S128x64 .f32) (x11 : Vec F S1x64 .f32) : Vec F S5000x64 .f32 :=
  View.canon [⟨r2_5, k2_pay1 (k2_pay2 (View.ld x0 r2_0) (View.ld x1 r2_0) (View.ld x2 r2_0) (View.ld x3 r2_1) (View.ld x4 r2_1) (View.ld x5 r2_1) (View.ld x6 r2_2) (View.ld x7 r2_0)) (k2_pay3 (View.ld x8 r2_1)) (constant S5000x128 .f32 0x00000000#32) (View.ld x9 r2_2) (View.ld x10 r2_3) (View.ld x11 r2_4)⟩]

/-- The body's stores tile the buffer (checked by evaluation), so they cover it. -/
theorem cover2_12 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

/-! ## The body's triple -/

set_option maxHeartbeats 1000000 in
/-- The kernel body on whole staging memrefs, the inputs' at read contents `xW` and the output's at anything, runs to
    the continuation holding the inputs' as they were and the output's at `out2_12` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S5000x64 .f32) (harg13 : arg13.IsWhole)
    (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (x7 : Vec F S5000x128 .f32) (x8 : Vec F S128x128 .f32) (x9 : Vec F S1x128 .f32) (x10 : Vec F S128x64 .f32) (x11 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x0 x1 x2 x3 x4 x5 x6 x7 x8 x9 x10 x11)) -∗ K ⟨⟩))
      ⊢ wp frame (wpE (defs₀ (F := F)) Variants.none c none) E (cc2__cheb_relu_res_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__cheb_relu_res_mlp_kernel_eq_skeleton]; unfold cc2__cheb_relu_res_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover2_12 _)

/-! ## The pipeline's proof data -/

/-- The proof data of pipeline 2 on core `c`: the arrays as the region finds them (`V`); after the body at
    point `t` each input's buffer at its block and the output's at `out2_12` of the input blocks; the invariant
    the scoped rest and the generator register, untouched; nothing owed; the shares a parameter. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) : (dat2 V q c).after 5 t = iblk2 V c 5 t := by dsimp only [dat2]
theorem after2_6 (q : Fin cfg2.W → PosShare TreeShare) (c : Dev nD) (t : Fin cfg2.N) : (dat2 V q c).after 6 t = iblk2 V c 6 t := by dsimp only [dat2]
theorem after2_7 (q : Fin cfg2.W → PosShare TreeShare) (c : Dev nD) (t : Fin cfg2.N) : (dat2 V q c).after 7 t = iblk2 V c 7 t := by dsimp only [dat2]
theorem after2_8 (q : Fin cfg2.W → PosShare TreeShare) (c : Dev nD) (t : Fin cfg2.N) : (dat2 V q c).after 8 t = iblk2 V c 8 t := by dsimp only [dat2]
theorem after2_9 (q : Fin cfg2.W → PosShare TreeShare) (c : Dev nD) (t : Fin cfg2.N) : (dat2 V q c).after 9 t = iblk2 V c 9 t := by dsimp only [dat2]
theorem after2_10 (q : Fin cfg2.W → PosShare TreeShare) (c : Dev nD) (t : Fin cfg2.N) : (dat2 V q c).after 10 t = iblk2 V c 10 t := by dsimp only [dat2]
theorem after2_11 (q : Fin cfg2.W → PosShare TreeShare) (c : Dev nD) (t : Fin cfg2.N) : (dat2 V q c).after 11 t = iblk2 V c 11 t := by dsimp only [dat2]
theorem after2_12 (q : Fin cfg2.W → PosShare TreeShare) (c : Dev nD) (t : Fin cfg2.N) : (dat2 V q c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d
theorem before2_5 (q : Fin cfg2.W → PosShare TreeShare) (c : Dev nD) (t : Fin cfg2.N) (d) : (dat2 V q c).before 5 t d = iblk2 V c 5 t :=
  before2_5_of V (dat2 V q c) (A_eq2 V q c 5) (after2_5 V q c) t d
theorem before2_6 (q : Fin cfg2.W → PosShare TreeShare) (c : Dev nD) (t : Fin cfg2.N) (d) : (dat2 V q c).before 6 t d = iblk2 V c 6 t :=
  before2_6_of V (dat2 V q c) (A_eq2 V q c 6) (after2_6 V q c) t d
theorem before2_7 (q : Fin cfg2.W → PosShare TreeShare) (c : Dev nD) (t : Fin cfg2.N) (d) : (dat2 V q c).before 7 t d = iblk2 V c 7 t :=
  before2_7_of V (dat2 V q c) (A_eq2 V q c 7) (after2_7 V q c) t d
theorem before2_8 (q : Fin cfg2.W → PosShare TreeShare) (c : Dev nD) (t : Fin cfg2.N) (d) : (dat2 V q c).before 8 t d = iblk2 V c 8 t :=
  before2_8_of V (dat2 V q c) (A_eq2 V q c 8) (after2_8 V q c) t d
theorem before2_9 (q : Fin cfg2.W → PosShare TreeShare) (c : Dev nD) (t : Fin cfg2.N) (d) : (dat2 V q c).before 9 t d = iblk2 V c 9 t :=
  before2_9_of V (dat2 V q c) (A_eq2 V q c 9) (after2_9 V q c) t d
theorem before2_10 (q : Fin cfg2.W → PosShare TreeShare) (c : Dev nD) (t : Fin cfg2.N) (d) : (dat2 V q c).before 10 t d = iblk2 V c 10 t :=
  before2_10_of V (dat2 V q c) (A_eq2 V q c 10) (after2_10 V q c) t d
theorem before2_11 (q : Fin cfg2.W → PosShare TreeShare) (c : Dev nD) (t : Fin cfg2.N) (d) : (dat2 V q c).before 11 t d = iblk2 V c 11 t :=
  before2_11_of V (dat2 V q c) (A_eq2 V q c 11) (after2_11 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d))
    ∗ (∃ d, owns (c : Thread nD τ) (st2_8 t) fullShare ((dat2 V q c).before 8 t d))
    ∗ (∃ d, owns (c : Thread nD τ) (st2_9 t) fullShare ((dat2 V q c).before 9 t d))
    ∗ (∃ d, owns (c : Thread nD τ) (st2_10 t) fullShare ((dat2 V q c).before 10 t d))
    ∗ (∃ d, owns (c : Thread nD τ) (st2_11 t) fullShare ((dat2 V q c).before 11 t d))
    ∗ (∃ d, owns (c : Thread nD τ) (st2_12 t) fullShare ((dat2 V q c).before 12 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t)
    ∗ owns (c : Thread nD τ) (st2_8 t) fullShare ((dat2 V q c).after 8 t)
    ∗ owns (c : Thread nD τ) (st2_9 t) fullShare ((dat2 V q c).after 9 t)
    ∗ owns (c : Thread nD τ) (st2_10 t) fullShare ((dat2 V q c).after 10 t)
    ∗ owns (c : Thread nD τ) (st2_11 t) fullShare ((dat2 V q c).after 11 t)
    ∗ owns (c : Thread nD τ) (st2_12 t) fullShare ((dat2 V q c).after 12 t))

/-- The body at any point: the inputs' memrefs hold their blocks, so the body's triple applies; the invariant and
    the core's obligations pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7, before2_8, before2_9, before2_10, before2_11]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Cert.Kernel.Hand

end
-- ==== Proof.KRun.lean ====
/-
  The run of the three-region program: @main is ten items — seven stretches of host operations and three kernel
  regions. Between two items each TensorCore holds every unscoped buffer whole at the fold's contents (KFold) beside its
  generator register and an empty debt. A region takes its windows' arrays out of that state, runs the pipelined body
  at every grid point and puts the arrays back, the one output array at what the write-backs of all points leave.
  The third region reads one array through two input windows: that array's points-to is split into two half shares at
  entry, one per window, and joined again at exit (both halves still hold the entry contents: input arrays are never
  written).
-/
import proofs.«181888_j53283364274269_2_alg».proof.Proof.KFold
import proofs.«181888_j53283364274269_2_alg».proof.Proof.KBodies0
import proofs.«181888_j53283364274269_2_alg».proof.Proof.KBodies1
import proofs.«181888_j53283364274269_2_alg».proof.Proof.KBodies2
import Idealize.ShloMosaic.Lib.Pipeline.FrameBody
import Idealize.ShloMosaic.Lib.Pipeline.RegionsLoop
import Idealize.ShloMosaic.Lib.Pipeline.FrameSuffix
import Idealize.ShloMosaic.Lib.Pipeline.Cells
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region finds and leaves -/

/-- The shares of the third region's input arrays: the array read through windows 0 and 7 is held half and half. -/
def q2 : Fin cfg2.W → PosShare TreeShare
  | ⟨0, _⟩ => fullShare.left | ⟨1, _⟩ => fullShare | ⟨2, _⟩ => fullShare | ⟨3, _⟩ => fullShare | ⟨4, _⟩ => fullShare
  | ⟨5, _⟩ => fullShare | ⟨6, _⟩ => fullShare | ⟨7, _⟩ => fullShare.right | ⟨8, _⟩ => fullShare | ⟨9, _⟩ => fullShare
  | ⟨10, _⟩ => fullShare | ⟨11, _⟩ => fullShare | ⟨12, _⟩ => fullShare
  | ⟨n + 13, h⟩ => absurd h (by have : cfg2.W = 13 := rfl; omega)

/-- The array behind each window of the third region. -/
def ar2 : Fin cfg2.W → Ref sig .tc
  | ⟨0, _⟩ => main_v67 | ⟨1, _⟩ => main_v86 | ⟨2, _⟩ => main_v106 | ⟨3, _⟩ => main_v108 | ⟨4, _⟩ => main_v109
  | ⟨5, _⟩ => main_v110 | ⟨6, _⟩ => main_v111 | ⟨7, _⟩ => main_v67 | ⟨8, _⟩ => main_v112 | ⟨9, _⟩ => main_v114
  | ⟨10, _⟩ => main_v113 | ⟨11, _⟩ => main_v115 | ⟨12, _⟩ => main_v116
  | ⟨n + 13, h⟩ => absurd h (by have : cfg2.W = 13 := rfl; omega)
theorem ar2_eq : ∀ w : Fin cfg2.W, Pipeline.arrRef spec2 w = ar2 w := by decide
/-- The share each window's array is held at: `q2` for the inputs, whole for the output. -/
theorem sh2_eq : ∀ w : Fin cfg2.W, (if (cfg2.win w).isOut then fullShare else q2 w) = q2 w := by decide

/-- The buffers behind the third region's arrays, each whole at contents `V`, are its windows' arrays at `V` with the
    array of windows 0 and 7 split into its two halves; and back. -/
theorem arrays2_bufs (c : Dev nD) (dat : Dat τ (Elt F) Unit ℕ (UR sig nD τ) ℕ cfg2 c) (hq : dat.q = q2)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (Pipeline.arrBufs (Ix := Unit) (Name := ℕ) (U := UR sig nD τ) (Lvl := ℕ) spec2 c V : sProp 𝕄) ⊣⊢ dat.arrays G := by
  unfold Pipeline.arrBufs Pipeline.Dat.arrays
  rw [bigSep_W2, bigSep_eq_bigSepL_of_eq [main_v67, main_v86, main_v106, main_v108, main_v109, main_v110, main_v111, main_v112, main_v114, main_v113, main_v115, main_v116] (by decide) (by decide)]
  have hs : ∀ w, dat.share w = (if (cfg2.win w).isOut then fullShare else q2 w) := fun w => by unfold Pipeline.Dat.share; rw [hq]
  have e : ∀ w : Fin cfg2.W, (View.loc c.tc (cfg2.win w).arr.view ↦[(cfg2.win w).arr.view.set]{dat.share w} G w : sProp 𝕄)
       = ((c.tc : Thread nD τ).loc (ar2 w) ↦{q2 w} V (ar2 w)) := fun w => by
    rw [(arr_whole2 w).set_eq_univ, hs, hG, sh2_eq, ← ar2_eq w]
  show (iprop(((c.tc : Thread nD τ).loc main_v67 ↦{fullShare} V main_v67)
      ∗ ((c.tc : Thread nD τ).loc main_v86 ↦{fullShare} V main_v86)
      ∗ ((c.tc : Thread nD τ).loc main_v106 ↦{fullShare} V main_v106)
      ∗ ((c.tc : Thread nD τ).loc main_v108 ↦{fullShare} V main_v108)
      ∗ ((c.tc : Thread nD τ).loc main_v109 ↦{fullShare} V main_v109)
      ∗ ((c.tc : Thread nD τ).loc main_v110 ↦{fullShare} V main_v110)
      ∗ ((c.tc : Thread nD τ).loc main_v111 ↦{fullShare} V main_v111)
      ∗ ((c.tc : Thread nD τ).loc main_v112 ↦{fullShare} V main_v112)
      ∗ ((c.tc : Thread nD τ).loc main_v114 ↦{fullShare} V main_v114)
      ∗ ((c.tc : Thread nD τ).loc main_v113 ↦{fullShare} V main_v113)
      ∗ ((c.tc : Thread nD τ).loc main_v115 ↦{fullShare} V main_v115)
      ∗ ((c.tc : Thread nD τ).loc main_v116 ↦{fullShare} V main_v116)) : sProp 𝕄) ⊣⊢ _
  refine ⟨?_, ?_⟩
  · iintro ⟨H67, H86, H106, H108, H109, H110, H111, H112, H114, H113, H115, H116⟩
    ihave H := (pointsTo_share (PosShare.mem_left_op_right fullShare)).1 $$ H67
    icases H with ⟨Ha, Hb⟩
    isplitl [Ha]; · iapply (Entails.of_eq (e 0).symm); iexact Ha
    isplitl [H86]; · iapply (Entails.of_eq (e 1).symm); iexact H86
    isplitl [H106]; · iapply (Entails.of_eq (e 2).symm); iexact H106
    isplitl [H108]; · iapply (Entails.of_eq (e 3).symm); iexact H108
    isplitl [H109]; · iapply (Entails.of_eq (e 4).symm); iexact H109
    isplitl [H110]; · iapply (Entails.of_eq (e 5).symm); iexact H110
    isplitl [H111]; · iapply (Entails.of_eq (e 6).symm); iexact H111
    isplitl [Hb]; · iapply (Entails.of_eq (e 7).symm); iexact Hb
    isplitl [H112]; · iapply (Entails.of_eq (e 8).symm); iexact H112
    isplitl [H114]; · iapply (Entails.of_eq (e 9).symm); iexact H114
    isplitl [H113]; · iapply (Entails.of_eq (e 10).symm); iexact H113
    isplitl [H115]; · iapply (Entails.of_eq (e 11).symm); iexact H115
    iapply (Entails.of_eq (e 12).symm); iexact H116
  · iintro ⟨H0, H1, H2, H3, H4, H5, H6, H7, H8, H9, H10, H11, H12⟩
    ihave Ha := (Entails.of_eq (e 0)) $$ H0
    ihave Hb := (Entails.of_eq (e 7)) $$ H7
    ihave H67 := (pointsTo_share (PosShare.mem_left_op_right fullShare)).2 $$ [Ha Hb]
    · isplitl [Ha]; · iexact Ha
      iexact Hb
    isplitl [H67]; · iexact H67
    isplitl [H1]; · iapply (Entails.of_eq (e 1)); iexact H1
    isplitl [H2]; · iapply (Entails.of_eq (e 2)); iexact H2
    isplitl [H3]; · iapply (Entails.of_eq (e 3)); iexact H3
    isplitl [H4]; · iapply (Entails.of_eq (e 4)); iexact H4
    isplitl [H5]; · iapply (Entails.of_eq (e 5)); iexact H5
    isplitl [H6]; · iapply (Entails.of_eq (e 6)); iexact H6
    isplitl [H8]; · iapply (Entails.of_eq (e 8)); iexact H8
    isplitl [H9]; · iapply (Entails.of_eq (e 9)); iexact H9
    isplitl [H10]; · iapply (Entails.of_eq (e 10)); iexact H10
    isplitl [H11]; · iapply (Entails.of_eq (e 11)); iexact H11
    ihave H12' := (Entails.of_eq (e 12)) $$ H12
    iexact H12'

/-- What the first region finds, at the TensorCore's references. -/
abbrev E3 : (c : Dev nD) → (b : Ref sig .tc) → Buf (Elt F) ((c : Thread nD τ).loc b) := fun c b => B3 m c b
/-- What the first region leaves in its output array: every point's block written back. -/
def o52 (c : Dev nD) : Buf (Elt F) ((c : Thread nD τ).loc main_v52) := (dat0 (E3 m) c).arrAt 7 cfg0.N
abbrev E4 : (c : Dev nD) → (b : Ref sig .tc) → Buf (Elt F) ((c : Thread nD τ).loc b) := fun c b => B4 m (o52 m) c b
/-- What the second region finds. -/
abbrev E7 : (c : Dev nD) → (b : Ref sig .tc) → Buf (Elt F) ((c : Thread nD τ).loc b) := fun c b => B7 m (o52 m) c b
def o67 (c : Dev nD) : Buf (Elt F) ((c : Thread nD τ).loc main_v67) := (dat1 (E7 m) c).arrAt 3 cfg1.N
abbrev E8 : (c : Dev nD) → (b : Ref sig .tc) → Buf (Elt F) ((c : Thread nD τ).loc b) := fun c b => B8 m (o52 m) (o67 m) c b
/-- What the third region finds. -/
abbrev E9 : (c : Dev nD) → (b : Ref sig .tc) → Buf (Elt F) ((c : Thread nD τ).loc b) := fun c b => B9 m (o52 m) (o67 m) c b
def o116 (c : Dev nD) : Buf (Elt F) ((c : Thread nD τ).loc main_v116) := (dat2 (E9 m) q2 c).arrAt 12 cfg2.N
abbrev E10 : (c : Dev nD) → (b : Ref sig .tc) → Buf (Elt F) ((c : Thread nD τ).loc b) := fun c b => B10 m (o52 m) (o67 m) (o116 m) c b

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E7 m) c
  | ⟨2, _⟩ => fun c => dat2 (E9 m) q2 c
abbrev 𝒱₀ : Variants := Variants.none
abbrev L : GSem nD τ sig → Finset Unit := fun _ => ∅
abbrev lv : GSem nD τ sig → Unit → ℕ := fun _ _ => 0
/-- What rides beside the buffers through every item: the generator register at some state and an empty debt. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem dne {r x : Ref sig .tc} (h : r ≠ x) : (Proc.devRef .tc r : DevRef τ sig) ≠ Proc.devRef .tc x := StableHlo.devRef_ne_of_ne h

/-! ## The regions as items -/

set_option backward.isDefEq.respectTransparency.types false in
/-- The first region: entered from the contents `B3`, left at `B4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m (o52 m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hin : ∀ w : Fin cfg0.W, (cfg0.win w).isOut = false → Pipeline.arrRef spec0 w ≠ main_v52 →
        (pdats m 0 c).arrAt w cfg0.N = E4 m c (Pipeline.arrRef spec0 w) := fun w hw hne =>
      ((pdats m 0 c).arrAt_in w hw cfg0.N).trans ((A_eq0 (E3 m) c w).trans (Function.update_of_ne (dne hne) _ _).symm)
    have hF : ∀ w, (pdats m 0 c).arrAt w cfg0.N = E4 m c (Pipeline.arrRef spec0 w) := fun w => by
      by_cases h : w = 7
      · subst h; exact (Function.update_self (β := fun b : DevRef τ sig => b.ty.Contents (Elt F)) _ _ _).symm
      · exact hin w ((by decide : ∀ w : Fin cfg0.W, w ≠ 7 → (cfg0.win w).isOut = false) w h)
          ((by decide : ∀ w : Fin cfg0.W, w ≠ 7 → Pipeline.arrRef spec0 w ≠ main_v52) w h)
    have hrest : ∀ b, b ∉ Finset.univ.image (Pipeline.arrRef spec0) → E4 m c b = E3 m c b := fun b hb =>
      Function.update_of_ne (dne fun e => hb (Finset.mem_image.mpr ⟨7, Finset.mem_univ _, e.symm⟩)) _ _
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents `B7`, left at `B8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (B7 m (o52 m) c) ∗ R c)
  post c := iprop(StableHlo.held (c : Thread nD τ) (Pipeline.ucRefs τ sig) (B8 m (o52 m) (o67 m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hin : ∀ w : Fin cfg1.W, (cfg1.win w).isOut = false → Pipeline.arrRef spec1 w ≠ main_v67 →
        (pdats m 1 c).arrAt w cfg1.N = E8 m c (Pipeline.arrRef spec1 w) := fun w hw hne =>
      ((pdats m 1 c).arrAt_in w hw cfg1.N).trans ((A_eq1 (E7 m) c w).trans (Function.update_of_ne (dne hne) _ _).symm)
    have hF : ∀ w, (pdats m 1 c).arrAt w cfg1.N = E8 m c (Pipeline.arrRef spec1 w) := fun w => by
      by_cases h : w = 3
      · subst h; exact (Function.update_self (β := fun b : DevRef τ sig => b.ty.Contents (Elt F)) _ _ _).symm
      · exact hin w ((by decide : ∀ w : Fin cfg1.W, w ≠ 3 → (cfg1.win w).isOut = false) w h)
          ((by decide : ∀ w : Fin cfg1.W, w ≠ 3 → Pipeline.arrRef spec1 w ≠ main_v67) w h)
    have hrest : ∀ b, b ∉ Finset.univ.image (Pipeline.arrRef spec1) → E8 m c b = E7 m c b := fun b hb =>
      Function.update_of_ne (dne fun e => hb (Finset.mem_image.mpr ⟨3, Finset.mem_univ _, e.symm⟩)) _ _
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The third region: entered from the contents `B9`, left at `B10`. Two of its input windows read one array. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E9 m) q2 c).loose
  hwaits := Pipeline.hwaits_of_owed_zero _ _ _ _ L lv 2 fun _ _ => rfl
  pre c := iprop(StableHlo.held (c : Thread nD τ) (Pipeline.ucRefs τ sig) (B9 m (o52 m) (o67 m) c) ∗ R c)
  post c := iprop(StableHlo.held (c : Thread nD τ) (Pipeline.ucRefs τ sig) (B10 m (o52 m) (o67 m) (o116 m) c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit : (StableHlo.held (c : Thread nD τ) (Pipeline.ucRefs τ sig) (B9 m (o52 m) (o67 m) c) : sProp 𝕄)
        ⊢ iprop((pdats m 2 c).arrays ((pdats m 2 c).arrAt · 0)
            ∗ Pipeline.unscopedRest (Ix := Unit) (Name := ℕ) (U := UR sig nD τ) (Lvl := ℕ) spec2 c (E9 m c)) := by
      rw [← Pipeline.unscopedBufs_held, Pipeline.unscopedBufs_split₀ cfgs 2 winFacts₀2.arr_unscoped c (E9 m c)]
      exact sep_mono (arrays2_bufs c (pdats m 2 c) rfl (E9 m c) _ (fun w => A_eq2 (E9 m) q2 c w)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hin : ∀ w : Fin cfg2.W, (cfg2.win w).isOut = false → Pipeline.arrRef spec2 w ≠ main_v116 →
        (pdats m 2 c).arrAt w cfg2.N = E10 m c (Pipeline.arrRef spec2 w) := fun w hw hne =>
      ((pdats m 2 c).arrAt_in w hw cfg2.N).trans ((A_eq2 (E9 m) q2 c w).trans (Function.update_of_ne (dne hne) _ _).symm)
    have hF : ∀ w, (pdats m 2 c).arrAt w cfg2.N = E10 m c (Pipeline.arrRef spec2 w) := fun w => by
      by_cases h : w = 12
      · subst h; exact (Function.update_self (β := fun b : DevRef τ sig => b.ty.Contents (Elt F)) _ _ _).symm
      · exact hin w ((by decide : ∀ w : Fin cfg2.W, w ≠ 12 → (cfg2.win w).isOut = false) w h)
          ((by decide : ∀ w : Fin cfg2.W, w ≠ 12 → Pipeline.arrRef spec2 w ≠ main_v116) w h)
    have hrest : ∀ b, b ∉ Finset.univ.image (Pipeline.arrRef spec2) → E10 m c b = E9 m c b := fun b hb =>
      Function.update_of_ne (dne fun e => hb (Finset.mem_image.mpr ⟨12, Finset.mem_univ _, e.symm⟩)) _ _
    have hjoin : iprop((pdats m 2 c).arrays ((pdats m 2 c).arrAt · cfg2.N)
          ∗ Pipeline.unscopedRest (Ix := Unit) (Name := ℕ) (U := UR sig nD τ) (Lvl := ℕ) spec2 c (E9 m c))
        ⊢ (StableHlo.held (c : Thread nD τ) (Pipeline.ucRefs τ sig) (B10 m (o52 m) (o67 m) (o116 m) c) : sProp 𝕄) := by
      rw [← Pipeline.unscopedBufs_held, Pipeline.unscopedBufs_split₀ cfgs 2 winFacts₀2.arr_unscoped c (E10 m c)]
      refine sep_mono (arrays2_bufs c (pdats m 2 c) rfl (E10 m c) _ hF).2 (Entails.of_eq ?_)
      unfold Pipeline.unscopedRest
      exact bigSep_congr fun b hb => by rw [hrest b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its ten items, and the run -/

/-- @main's items in order. -/
abbrev segs : List (Pipeline.Seg (pcfgs (F := F)) adm (pdats m) () defs₀ 𝒱₀ L lv) :=
  [ .host (hseg hostOps0 hostOps0_sub hostOps0_fresh (fun c b => m (c, b))),
    .host (hseg hostOps0_1 hostOps0_1_sub hostOps0_1_fresh (fun c => StableHlo.after hostOps0 (fun b => m (c, b)))),
    .host (hseg hostOps0_2 hostOps0_2_sub hostOps0_2_fresh (fun c => StableHlo.after hostOps0_1 (StableHlo.after hostOps0 (fun b => m (c, b))))),
    .region (reg0 m),
    .host (hseg hostOps1 hostOps1_sub hostOps1_fresh (B4 m (o52 m))),
    .host (hseg hostOps1_1 hostOps1_1_sub hostOps1_1_fresh (fun c => StableHlo.after hostOps1 (B4 m (o52 m) c))),
    .host (hseg hostOps1_2 hostOps1_2_sub hostOps1_2_fresh (fun c => StableHlo.after hostOps1_1 (StableHlo.after hostOps1 (B4 m (o52 m) c)))),
    .region (reg1 m),
    .host (hseg hostOps2 hostOps2_sub hostOps2_fresh (B8 m (o52 m) (o67 m))),
    .region (reg2 m) ]

set_option backward.isDefEq.respectTransparency.types false in
/-- THE RUN, at any `F`: from any memory with zero counters every weakly fair execution of @main terminates, nothing
    faulting, and in every final state the result array holds what the third region's write-backs leave (`o116`) and
    every argument array what it held at launch. -/
theorem run_main : θ_run defs (onTc (τ := τ) (main (F := F))) ⟨m, fun _ => 0, ρ⟩ (fun r => ∀ c : Dev nD,
      r.2.mem ((c.tc : Thread nD τ).loc main_v116) = o116 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (B10 m (o52 m) (o67 m) (o116 m) c) ∗ ∃ r, prngReg c r))
    (hch := fun c => ⟨.rfl, .rfl, .rfl, .rfl, .rfl, .rfl, .rfl, .rfl, .rfl, .rfl,
      (show (iprop(StableHlo.held (c : Thread nD τ) (Pipeline.ucRefs τ sig) (B10 m (o52 m) (o67 m) (o116 m) c) ∗ R c) : sProp 𝕄)
          ⊢ iprop((StableHlo.held (c : Thread nD τ) (Pipeline.ucRefs τ sig) (B10 m (o52 m) (o67 m) (o116 m) c) ∗ ∃ r, prngReg c r)
            ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m (o52 m) (o67 m) (o116 m) c b)
    (hfin := fun c s' => by
      iintro ⟨⟨Hh, -⟩, HSI⟩
      unfold StableHlo.held
      imodintro
      iapply (pointsTo_read_all (Pipeline.ucRefs τ sig) (fun b => (((c : Thread nD τ)).1, b)) (B10 m (o52 m) (o67 m) (o116 m) c) s')
      isplitl [Hh] <;> iassumption)
    (hQ := fun s h c =>
      ⟨(h c _ (mem_uc main_v116 (by decide))).trans (B10_out m (o52 m) (o67 m) (o116 m) c),
        (h c _ (mem_uc main_arg0 (by decide))).trans (B10_of m (o52 m) (o67 m) (o116 m) c main_arg0 (by decide) (by decide) (by decide) (by decide) (by decide) (by decide) (by decide) (by decide) (by decide) (by decide)),
        (h c _ (mem_uc main_arg1 (by decide))).trans (B10_of m (o52 m) (o67 m) (o116 m) c main_arg1 (by decide) (by decide) (by decide) (by decide) (by decide) (by decide) (by decide) (by decide) (by decide) (by decide)),
        (h c _ (mem_uc main_arg2 (by decide))).trans (B10_of m (o52 m) (o67 m) (o116 m) c main_arg2 (by decide) (by decide) (by decide) (by decide) (by decide) (by decide) (by decide) (by decide) (by decide) (by decide)),
        (h c _ (mem_uc main_arg3 (by decide))).trans (B10_of m (o52 m) (o67 m) (o116 m) c main_arg3 (by decide) (by decide) (by decide) (by decide) (by decide) (by decide) (by decide) (by decide) (by decide) (by decide)),
        (h c _ (mem_uc main_arg4 (by decide))).trans (B10_of m (o52 m) (o67 m) (o116 m) c main_arg4 (by decide) (by decide) (by decide) (by decide) (by decide) (by decide) (by decide) (by decide) (by decide) (by decide)),
        (h c _ (mem_uc main_arg5 (by decide))).trans (B10_of m (o52 m) (o67 m) (o116 m) c main_arg5 (by decide) (by decide) (by decide) (by decide) (by decide) (by decide) (by decide) (by decide) (by decide) (by decide)),
        (h c _ (mem_uc main_arg6 (by decide))).trans (B10_of m (o52 m) (o67 m) (o116 m) c main_arg6 (by decide) (by decide) (by decide) (by decide) (by decide) (by decide) (by decide) (by decide) (by decide) (by decide)),
        (h c _ (mem_uc main_arg7 (by decide))).trans (B10_of m (o52 m) (o67 m) (o116 m) c main_arg7 (by decide) (by decide) (by decide) (by decide) (by decide) (by decide) (by decide) (by decide) (by decide) (by decide)),
        (h c _ (mem_uc main_arg8 (by decide))).trans (B10_of m (o52 m) (o67 m) (o116 m) c main_arg8 (by decide) (by decide) (by decide) (by decide) (by decide) (by decide) (by decide) (by decide) (by decide) (by decide)),
        (h c _ (mem_uc main_arg9 (by decide))).trans (B10_of m (o52 m) (o67 m) (o116 m) c main_arg9 (by decide) (by decide) (by decide) (by decide) (by decide) (by decide) (by decide) (by decide) (by decide) (by decide)),
        (h c _ (mem_uc main_arg10 (by decide))).trans (B10_of m (o52 m) (o67 m) (o116 m) c main_arg10 (by decide) (by decide) (by decide) (by decide) (by decide) (by decide) (by decide) (by decide) (by decide) (by decide)),
        (h c _ (mem_uc main_arg11 (by decide))).trans (B10_of m (o52 m) (o67 m) (o116 m) c main_arg11 (by decide) (by decide) (by decide) (by decide) (by decide) (by decide) (by decide) (by decide) (by decide) (by decide)),
        (h c _ (mem_uc main_arg12 (by decide))).trans (B10_of m (o52 m) (o67 m) (o116 m) c main_arg12 (by decide) (by decide) (by decide) (by decide) (by decide) (by decide) (by decide) (by decide) (by decide) (by decide))⟩)

end Cert.Kernel.Hand

end
-- ==== Proof.KIFold.lean ====
/-
  The contents of the TensorCore's unscoped buffers at each boundary of @main, as a fold from the launch memory:
  a stretch of host operations applies them in order (`StableHlo.after`), a kernel region replaces the contents of
  its one output array and leaves every other buffer as it found it. The three output contents are parameters here
  (`o52`, `o67`, `o116`); the run instantiates them with what each pipeline's write-backs leave. No boundary
  changes an argument array: no host operation writes one and no region's output is one.
-/
import proofs.«181888_j53283364274269_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
variable (o52 : (c : Dev nD) → Buf (Elt F) ((c : Thread nD τ).loc main_v52))
variable (o67 : (c : Dev nD) → Buf (Elt F) ((c : Thread nD τ).loc main_v67))
variable (o116 : (c : Dev nD) → Buf (Elt F) ((c : Thread nD τ).loc main_v116))

/-- At the first region's entry: the launch memory after the first three stretches of host operations. -/
abbrev B3 (c : Dev nD) : Valuation τ sig (Elt F) :=
  StableHlo.after hostOps0_2 (StableHlo.after hostOps0_1 (StableHlo.after hostOps0 (fun b => m (c, b))))
/-- At the first region's exit: its output array replaced. -/
abbrev B4 (c : Dev nD) : Valuation τ sig (Elt F) := Function.update (B3 m c) main_v52 (o52 c)
/-- At the second region's entry. -/
abbrev B7 (c : Dev nD) : Valuation τ sig (Elt F) :=
  StableHlo.after hostOps1_2 (StableHlo.after hostOps1_1 (StableHlo.after hostOps1 (B4 m o52 c)))
/-- At the second region's exit. -/
abbrev B8 (c : Dev nD) : Valuation τ sig (Elt F) := Function.update (B7 m o52 c) main_v67 (o67 c)
/-- At the third region's entry. -/
abbrev B9 (c : Dev nD) : Valuation τ sig (Elt F) := StableHlo.after hostOps2 (B8 m o52 o67 c)
/-- At the return. -/
abbrev B10 (c : Dev nD) : Valuation τ sig (Elt F) := Function.update (B9 m o52 o67 c) main_v116 (o116 c)

/-- A reference that no host operation writes and that is no region's output holds at the return what it held at
    launch. -/
theorem B10_of (c : Dev nD) (r : Ref sig .tc)
    (h0 : r ∉ hostOps0_W) (h1 : r ∉ hostOps0_1_W) (h2 : r ∉ hostOps0_2_W) (h3 : r ∉ ([main_v52] : List (Ref sig .tc)))
    (h4 : r ∉ hostOps1_W) (h5 : r ∉ hostOps1_1_W) (h6 : r ∉ hostOps1_2_W) (h7 : r ∉ ([main_v67] : List (Ref sig .tc)))
    (h8 : r ∉ hostOps2_W) (h9 : r ∉ ([main_v116] : List (Ref sig .tc))) :
    B10 m o52 o67 o116 c r = m ((c : Thread nD τ).loc r) := by
  have ne (x : Ref sig .tc) (h : r ∉ ([x] : List (Ref sig .tc))) : (Proc.devRef .tc r : DevRef τ sig) ≠ Proc.devRef .tc x :=
    StableHlo.devRef_ne_of_ne (List.ne_of_not_mem_cons h)
  refine (Function.update_of_ne (ne _ h9) _ _).trans ?_
  refine (StableHlo.after_of_writes_sub hostOps2 _ hostOps2_writes h8).trans ?_
  refine (Function.update_of_ne (ne _ h7) _ _).trans ?_
  refine (StableHlo.after_of_writes_sub hostOps1_2 _ hostOps1_2_writes h6).trans ?_
  refine (StableHlo.after_of_writes_sub hostOps1_1 _ hostOps1_1_writes h5).trans ?_
  refine (StableHlo.after_of_writes_sub hostOps1 _ hostOps1_writes h4).trans ?_
  refine (Function.update_of_ne (ne _ h3) _ _).trans ?_
  refine (StableHlo.after_of_writes_sub hostOps0_2 _ hostOps0_2_writes h2).trans ?_
  refine (StableHlo.after_of_writes_sub hostOps0_1 _ hostOps0_1_writes h1).trans ?_
  exact (StableHlo.after_of_writes_sub hostOps0 _ hostOps0_writes h0).trans rfl

/-- The result array holds at the return what the third region left in it. -/
theorem B10_out (c : Dev nD) : B10 m o52 o67 o116 c main_v116 = o116 c := Function.update_self ..

end Cert.KernelIdeal.Hand

end
-- ==== Proof.KIBodies0.lean ====
/- The kernel body of pallas region 0, on whole staging buffers, and the per-core proof data of its
   pipeline at a parameter `V` (the TensorCore's buffer contents when the region is entered): each window's
   block at a grid point, what the body leaves in the output window's buffer as a function of the input blocks,
   the body's triple, and the library's body obligation at every point. -/
import proofs.«181888_j53283364274269_2_alg».proof.Proof.Gen.KernelIdeal.Launch
import proofs.«181888_j53283364274269_2_alg».proof.Proof.Gen.KernelIdeal.Skeleton
import proofs.«181888_j53283364274269_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched its block index has not moved), for any proof data whose array is `V`'s and whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched its block index has not moved), for any proof data whose array is `V`'s and whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when it is not
    fetched its block index has not moved), for any proof data whose array is `V`'s and whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when it is not
    fetched its block index has not moved), for any proof data whose array is `V`'s and whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (when it is not
    fetched its block index has not moved), for any proof data whose array is `V`'s and whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (when it is not
    fetched its block index has not moved), for any proof data whose array is `V`'s and whose body leaves the
    block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output window's staging buffer after the body, from the input windows' blocks: the one whole-buffer store of
    `max (x0 · w0 + x1 · w1 + x2 · w2 + b) 0`, every matrix operand rounded to bf16, the products accumulated from zero in
    f32, the bias row broadcast down the tile. -/
def out0_7 (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) : Vec F S5000x128 .f32 :=
  View.canon [⟨r0_0, k0_pay1 (View.ld x0 r0_0) (View.ld x1 r0_0) (View.ld x2 r0_0) (View.ld x3 r0_1) (View.ld x4 r0_1) (View.ld x5 r0_1) (View.ld x6 r0_2)⟩]

/-- The body's stores tile the buffer (checked by evaluation), so they cover it. -/
theorem cover0_7 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__cheb_dense_relu_kernel i arg1 harg1 arg2 harg2 arg3 harg3 arg4 harg4 arg5 harg5 arg6 harg6 arg7 harg7 arg8 harg8) K := by
  simp only [cc0__cheb_dense_relu_kernel_eq_skeleton]; unfold cc0__cheb_dense_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at
    point `t` each input's buffer at its block and the output's at `out0_7` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBodies1.lean ====
/- The kernel body of pallas region 1, on whole staging buffers, and the per-core proof data of its
   pipeline at a parameter `V` (the TensorCore's buffer contents when the region is entered): each window's
   block at a grid point, what the body leaves in the output window's buffer as a function of the input blocks,
   the body's triple, and the library's body obligation at every point. -/
import proofs.«181888_j53283364274269_2_alg».proof.Proof.Gen.KernelIdeal.Launch
import proofs.«181888_j53283364274269_2_alg».proof.Proof.Gen.KernelIdeal.Skeleton
import proofs.«181888_j53283364274269_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (when it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (when it is not
    fetched its block index has not moved), for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (when it is not
    fetched its block index has not moved), for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in the output window's buffer -/

/-- The output window's staging buffer after the body, from the input windows' blocks: the one whole-buffer store of
    `x * scale + shift` (scale and shift rows broadcast down the tile). -/
def out1_3 (x0 : Vec F S5000x128 .f32) (x1 : Vec F S1x128 .f32) (x2 : Vec F S1x128 .f32) : Vec F S5000x128 .f32 :=
  View.canon [⟨r1_0, k1_pay1 (View.ld x0 r1_0) (View.ld x1 r1_1) (View.ld x2 r1_1)⟩]

/-- The body's stores tile the buffer (checked by evaluation), so they cover it. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_3` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__bn_affine_kernel i arg1 harg1 arg2 harg2 arg3 harg3 arg4 harg4) K := by
  simp only [cc1__bn_affine_kernel_eq_skeleton]; unfold cc1__bn_affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBodies2.lean ====
/- The kernel body of pallas region 2, on whole staging buffers, and the per-core proof data of its
   pipeline at a parameter `V` (the TensorCore's buffer contents when the region is entered): each window's
   block at a grid point, what the body leaves in the output window's buffer as a function of the input blocks,
   the body's triple, and the library's body obligation at every point. -/
import proofs.«181888_j53283364274269_2_alg».proof.Proof.Gen.KernelIdeal.Launch
import proofs.«181888_j53283364274269_2_alg».proof.Proof.Gen.KernelIdeal.Skeleton
import proofs.«181888_j53283364274269_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data whose array is `V`'s and whose body leaves the
    block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data whose array is `V`'s and whose body leaves the
    block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data whose array is `V`'s and whose body leaves the
    block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (when it is not
    fetched its block index has not moved), for any proof data whose array is `V`'s and whose body leaves the
    block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (when it is not
    fetched its block index has not moved), for any proof data whose array is `V`'s and whose body leaves the
    block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (when it is not
    fetched its block index has not moved), for any proof data whose array is `V`'s and whose body leaves the
    block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not (when it is not
    fetched its block index has not moved), for any proof data whose array is `V`'s and whose body leaves the
    block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (when it is not
    fetched its block index has not moved), for any proof data whose array is `V`'s and whose body leaves the
    block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (when it is not
    fetched its block index has not moved), for any proof data whose array is `V`'s and whose body leaves the
    block in place. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not (when it is not
    fetched its block index has not moved), for any proof data whose array is `V`'s and whose body leaves the
    block in place. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10's current staging buffer holds its block at every point, fetched there or not (when it is not
    fetched its block index has not moved), for any proof data whose array is `V`'s and whose body leaves the
    block in place. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- Input window 11's current staging buffer holds its block at every point, fetched there or not (when it is not
    fetched its block index has not moved), for any proof data whose array is `V`'s and whose body leaves the
    block in place. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-! ## What the body leaves in the output window's buffer -/

/-- The output window's staging buffer after the body, from the input windows' blocks: the one whole-buffer store of
    `max (h · w8 + b9) 0 · w10 + b11`, where `h = max (x0 · w3 + x1 · w4 + x2 · w5 + b6) 0 + x7` is the first layer with
    its residual; every matrix operand is rounded to bf16, the products are accumulated from zero in f32, and the bias
    rows are broadcast down the tile. -/
def out2_12 (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (x7 : Vec F S5000x128 .f32) (x8 : Vec F S128x128 .f32) (x9 : Vec F S1x128 .f32) (x10 : Vec F S128x64 .f32) (x11 : Vec F S1x64 .f32) : Vec F S5000x64 .f32 :=
  View.canon [⟨r2_5, k2_pay1 (k2_pay2 (View.ld x0 r2_0) (View.ld x1 r2_0) (View.ld x2 r2_0) (View.ld x3 r2_1) (View.ld x4 r2_1) (View.ld x5 r2_1) (View.ld x6 r2_2) (View.ld x7 r2_0)) (k2_pay3 (View.ld x8 r2_1)) (constant S5000x128 .f32 0x00000000#32) (View.ld x9 r2_2) (View.ld x10 r2_3) (View.ld x11 r2_4)⟩]

/-- The body's stores tile the buffer (checked by evaluation), so they cover it. -/
theorem cover2_12 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

/-! ## The body's triple -/

set_option maxHeartbeats 1000000 in
/-- The kernel body on whole staging memrefs, the inputs' at read contents `xW` and the output's at anything, runs to
    the continuation holding the inputs' as they were and the output's at `out2_12` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x64 .f32) (harg11 : arg11.IsWhole) (arg12 : Memref sig .tc .vmem S1x64 .f32) (harg12 : arg12.IsWhole) (arg13 : Memref sig .tc .vmem S5000x64 .f32) (harg13 : arg13.IsWhole)
    (x0 : Vec F S5000x128 .f32) (x1 : Vec F S5000x128 .f32) (x2 : Vec F S5000x128 .f32) (x3 : Vec F S128x128 .f32) (x4 : Vec F S128x128 .f32) (x5 : Vec F S128x128 .f32) (x6 : Vec F S1x128 .f32) (x7 : Vec F S5000x128 .f32) (x8 : Vec F S128x128 .f32) (x9 : Vec F S1x128 .f32) (x10 : Vec F S128x64 .f32) (x11 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out2_12 x0 x1 x2 x3 x4 x5 x6 x7 x8 x9 x10 x11)) -∗ K ⟨⟩))
      ⊢ wp frame (wpE (defs₀ (F := F)) Variants.none c none) E (cc2__cheb_relu_res_mlp_kernel i arg1 harg1 arg2 harg2 arg3 harg3 arg4 harg4 arg5 harg5 arg6 harg6 arg7 harg7 arg8 harg8 arg9 harg9 arg10 harg10 arg11 harg11 arg12 harg12 arg13 harg13) K := by
  simp only [cc2__cheb_relu_res_mlp_kernel_eq_skeleton]; unfold cc2__cheb_relu_res_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  try dsimp only
  exact View.read_writes_eq_canon _ _ _ (cover2_12 _)

/-! ## The pipeline's proof data -/

/-- The proof data of pipeline 2 on core `c`: the arrays as the region finds them (`V`); after the body at
    point `t` each input's buffer at its block and the output's at `out2_12` of the input blocks; the invariant
    the scoped rest and the generator register, untouched; nothing owed; the shares a parameter. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) : (dat2 V q c).after 5 t = iblk2 V c 5 t := by dsimp only [dat2]
theorem after2_6 (q : Fin cfg2.W → PosShare TreeShare) (c : Dev nD) (t : Fin cfg2.N) : (dat2 V q c).after 6 t = iblk2 V c 6 t := by dsimp only [dat2]
theorem after2_7 (q : Fin cfg2.W → PosShare TreeShare) (c : Dev nD) (t : Fin cfg2.N) : (dat2 V q c).after 7 t = iblk2 V c 7 t := by dsimp only [dat2]
theorem after2_8 (q : Fin cfg2.W → PosShare TreeShare) (c : Dev nD) (t : Fin cfg2.N) : (dat2 V q c).after 8 t = iblk2 V c 8 t := by dsimp only [dat2]
theorem after2_9 (q : Fin cfg2.W → PosShare TreeShare) (c : Dev nD) (t : Fin cfg2.N) : (dat2 V q c).after 9 t = iblk2 V c 9 t := by dsimp only [dat2]
theorem after2_10 (q : Fin cfg2.W → PosShare TreeShare) (c : Dev nD) (t : Fin cfg2.N) : (dat2 V q c).after 10 t = iblk2 V c 10 t := by dsimp only [dat2]
theorem after2_11 (q : Fin cfg2.W → PosShare TreeShare) (c : Dev nD) (t : Fin cfg2.N) : (dat2 V q c).after 11 t = iblk2 V c 11 t := by dsimp only [dat2]
theorem after2_12 (q : Fin cfg2.W → PosShare TreeShare) (c : Dev nD) (t : Fin cfg2.N) : (dat2 V q c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d
theorem before2_5 (q : Fin cfg2.W → PosShare TreeShare) (c : Dev nD) (t : Fin cfg2.N) (d) : (dat2 V q c).before 5 t d = iblk2 V c 5 t :=
  before2_5_of V (dat2 V q c) (A_eq2 V q c 5) (after2_5 V q c) t d
theorem before2_6 (q : Fin cfg2.W → PosShare TreeShare) (c : Dev nD) (t : Fin cfg2.N) (d) : (dat2 V q c).before 6 t d = iblk2 V c 6 t :=
  before2_6_of V (dat2 V q c) (A_eq2 V q c 6) (after2_6 V q c) t d
theorem before2_7 (q : Fin cfg2.W → PosShare TreeShare) (c : Dev nD) (t : Fin cfg2.N) (d) : (dat2 V q c).before 7 t d = iblk2 V c 7 t :=
  before2_7_of V (dat2 V q c) (A_eq2 V q c 7) (after2_7 V q c) t d
theorem before2_8 (q : Fin cfg2.W → PosShare TreeShare) (c : Dev nD) (t : Fin cfg2.N) (d) : (dat2 V q c).before 8 t d = iblk2 V c 8 t :=
  before2_8_of V (dat2 V q c) (A_eq2 V q c 8) (after2_8 V q c) t d
theorem before2_9 (q : Fin cfg2.W → PosShare TreeShare) (c : Dev nD) (t : Fin cfg2.N) (d) : (dat2 V q c).before 9 t d = iblk2 V c 9 t :=
  before2_9_of V (dat2 V q c) (A_eq2 V q c 9) (after2_9 V q c) t d
theorem before2_10 (q : Fin cfg2.W → PosShare TreeShare) (c : Dev nD) (t : Fin cfg2.N) (d) : (dat2 V q c).before 10 t d = iblk2 V c 10 t :=
  before2_10_of V (dat2 V q c) (A_eq2 V q c 10) (after2_10 V q c) t d
theorem before2_11 (q : Fin cfg2.W → PosShare TreeShare) (c : Dev nD) (t : Fin cfg2.N) (d) : (dat2 V q c).before 11 t d = iblk2 V c 11 t :=
  before2_11_of V (dat2 V q c) (A_eq2 V q c 11) (after2_11 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d))
    ∗ (∃ d, owns (c : Thread nD τ) (st2_8 t) fullShare ((dat2 V q c).before 8 t d))
    ∗ (∃ d, owns (c : Thread nD τ) (st2_9 t) fullShare ((dat2 V q c).before 9 t d))
    ∗ (∃ d, owns (c : Thread nD τ) (st2_10 t) fullShare ((dat2 V q c).before 10 t d))
    ∗ (∃ d, owns (c : Thread nD τ) (st2_11 t) fullShare ((dat2 V q c).before 11 t d))
    ∗ (∃ d, owns (c : Thread nD τ) (st2_12 t) fullShare ((dat2 V q c).before 12 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t)
    ∗ owns (c : Thread nD τ) (st2_8 t) fullShare ((dat2 V q c).after 8 t)
    ∗ owns (c : Thread nD τ) (st2_9 t) fullShare ((dat2 V q c).after 9 t)
    ∗ owns (c : Thread nD τ) (st2_10 t) fullShare ((dat2 V q c).after 10 t)
    ∗ owns (c : Thread nD τ) (st2_11 t) fullShare ((dat2 V q c).after 11 t)
    ∗ owns (c : Thread nD τ) (st2_12 t) fullShare ((dat2 V q c).after 12 t))

/-- The body at any point: the inputs' memrefs hold their blocks, so the body's triple applies; the invariant and
    the core's obligations pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6, before2_7, before2_8, before2_9, before2_10, before2_11]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Cert.KernelIdeal.Hand

end
-- ==== Proof.KIRun.lean ====
/-
  The run of the three-region program: @main is ten items — seven stretches of host operations and three kernel
  regions. Between two items each TensorCore holds every unscoped buffer whole at the fold's contents (KIFold) beside its
  generator register and an empty debt. A region takes its windows' arrays out of that state, runs the pipelined body
  at every grid point and puts the arrays back, the one output array at what the write-backs of all points leave.
  The third region reads one array through two input windows: that array's points-to is split into two half shares at
  entry, one per window, and joined again at exit (both halves still hold the entry contents: input arrays are never
  written).
-/
import proofs.«181888_j53283364274269_2_alg».proof.Proof.KIFold
import proofs.«181888_j53283364274269_2_alg».proof.Proof.KIBodies0
import proofs.«181888_j53283364274269_2_alg».proof.Proof.KIBodies1
import proofs.«181888_j53283364274269_2_alg».proof.Proof.KIBodies2
import Idealize.ShloMosaic.Lib.Pipeline.FrameBody
import Idealize.ShloMosaic.Lib.Pipeline.RegionsLoop
import Idealize.ShloMosaic.Lib.Pipeline.FrameSuffix
import Idealize.ShloMosaic.Lib.Pipeline.Cells
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each region finds and leaves -/

/-- The shares of the third region's input arrays: the array read through windows 0 and 7 is held half and half. -/
def q2 : Fin cfg2.W → PosShare TreeShare
  | ⟨0, _⟩ => fullShare.left | ⟨1, _⟩ => fullShare | ⟨2, _⟩ => fullShare | ⟨3, _⟩ => fullShare | ⟨4, _⟩ => fullShare
  | ⟨5, _⟩ => fullShare | ⟨6, _⟩ => fullShare | ⟨7, _⟩ => fullShare.right | ⟨8, _⟩ => fullShare | ⟨9, _⟩ => fullShare
  | ⟨10, _⟩ => fullShare | ⟨11, _⟩ => fullShare | ⟨12, _⟩ => fullShare
  | ⟨n + 13, h⟩ => absurd h (by have : cfg2.W = 13 := rfl; omega)

/-- The array behind each window of the third region. -/
def ar2 : Fin cfg2.W → Ref sig .tc
  | ⟨0, _⟩ => main_v67 | ⟨1, _⟩ => main_v86 | ⟨2, _⟩ => main_v106 | ⟨3, _⟩ => main_v108 | ⟨4, _⟩ => main_v109
  | ⟨5, _⟩ => main_v110 | ⟨6, _⟩ => main_v111 | ⟨7, _⟩ => main_v67 | ⟨8, _⟩ => main_v112 | ⟨9, _⟩ => main_v114
  | ⟨10, _⟩ => main_v113 | ⟨11, _⟩ => main_v115 | ⟨12, _⟩ => main_v116
  | ⟨n + 13, h⟩ => absurd h (by have : cfg2.W = 13 := rfl; omega)
theorem ar2_eq : ∀ w : Fin cfg2.W, Pipeline.arrRef spec2 w = ar2 w := by decide
/-- The share each window's array is held at: `q2` for the inputs, whole for the output. -/
theorem sh2_eq : ∀ w : Fin cfg2.W, (if (cfg2.win w).isOut then fullShare else q2 w) = q2 w := by decide

/-- The buffers behind the third region's arrays, each whole at contents `V`, are its windows' arrays at `V` with the
    array of windows 0 and 7 split into its two halves; and back. -/
theorem arrays2_bufs (c : Dev nD) (dat : Dat τ (Elt F) Unit ℕ (UR sig nD τ) ℕ cfg2 c) (hq : dat.q = q2)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (Pipeline.arrBufs (Ix := Unit) (Name := ℕ) (U := UR sig nD τ) (Lvl := ℕ) spec2 c V : sProp 𝕄) ⊣⊢ dat.arrays G := by
  unfold Pipeline.arrBufs Pipeline.Dat.arrays
  rw [bigSep_W2, bigSep_eq_bigSepL_of_eq [main_v67, main_v86, main_v106, main_v108, main_v109, main_v110, main_v111, main_v112, main_v114, main_v113, main_v115, main_v116] (by decide) (by decide)]
  have hs : ∀ w, dat.share w = (if (cfg2.win w).isOut then fullShare else q2 w) := fun w => by unfold Pipeline.Dat.share; rw [hq]
  have e : ∀ w : Fin cfg2.W, (View.loc c.tc (cfg2.win w).arr.view ↦[(cfg2.win w).arr.view.set]{dat.share w} G w : sProp 𝕄)
       = ((c.tc : Thread nD τ).loc (ar2 w) ↦{q2 w} V (ar2 w)) := fun w => by
    rw [(arr_whole2 w).set_eq_univ, hs, hG, sh2_eq, ← ar2_eq w]
  show (iprop(((c.tc : Thread nD τ).loc main_v67 ↦{fullShare} V main_v67)
      ∗ ((c.tc : Thread nD τ).loc main_v86 ↦{fullShare} V main_v86)
      ∗ ((c.tc : Thread nD τ).loc main_v106 ↦{fullShare} V main_v106)
      ∗ ((c.tc : Thread nD τ).loc main_v108 ↦{fullShare} V main_v108)
      ∗ ((c.tc : Thread nD τ).loc main_v109 ↦{fullShare} V main_v109)
      ∗ ((c.tc : Thread nD τ).loc main_v110 ↦{fullShare} V main_v110)
      ∗ ((c.tc : Thread nD τ).loc main_v111 ↦{fullShare} V main_v111)
      ∗ ((c.tc : Thread nD τ).loc main_v112 ↦{fullShare} V main_v112)
      ∗ ((c.tc : Thread nD τ).loc main_v114 ↦{fullShare} V main_v114)
      ∗ ((c.tc : Thread nD τ).loc main_v113 ↦{fullShare} V main_v113)
      ∗ ((c.tc : Thread nD τ).loc main_v115 ↦{fullShare} V main_v115)
      ∗ ((c.tc : Thread nD τ).loc main_v116 ↦{fullShare} V main_v116)) : sProp 𝕄) ⊣⊢ _
  refine ⟨?_, ?_⟩
  · iintro ⟨H67, H86, H106, H108, H109, H110, H111, H112, H114, H113, H115, H116⟩
    ihave H := (pointsTo_share (PosShare.mem_left_op_right fullShare)).1 $$ H67
    icases H with ⟨Ha, Hb⟩
    isplitl [Ha]; · iapply (Entails.of_eq (e 0).symm); iexact Ha
    isplitl [H86]; · iapply (Entails.of_eq (e 1).symm); iexact H86
    isplitl [H106]; · iapply (Entails.of_eq (e 2).symm); iexact H106
    isplitl [H108]; · iapply (Entails.of_eq (e 3).symm); iexact H108
    isplitl [H109]; · iapply (Entails.of_eq (e 4).symm); iexact H109
    isplitl [H110]; · iapply (Entails.of_eq (e 5).symm); iexact H110
    isplitl [H111]; · iapply (Entails.of_eq (e 6).symm); iexact H111
    isplitl [Hb]; · iapply (Entails.of_eq (e 7).symm); iexact Hb
    isplitl [H112]; · iapply (Entails.of_eq (e 8).symm); iexact H112
    isplitl [H114]; · iapply (Entails.of_eq (e 9).symm); iexact H114
    isplitl [H113]; · iapply (Entails.of_eq (e 10).symm); iexact H113
    isplitl [H115]; · iapply (Entails.of_eq (e 11).symm); iexact H115
    iapply (Entails.of_eq (e 12).symm); iexact H116
  · iintro ⟨H0, H1, H2, H3, H4, H5, H6, H7, H8, H9, H10, H11, H12⟩
    ihave Ha := (Entails.of_eq (e 0)) $$ H0
    ihave Hb := (Entails.of_eq (e 7)) $$ H7
    ihave H67 := (pointsTo_share (PosShare.mem_left_op_right fullShare)).2 $$ [Ha Hb]
    · isplitl [Ha]; · iexact Ha
      iexact Hb
    isplitl [H67]; · iexact H67
    isplitl [H1]; · iapply (Entails.of_eq (e 1)); iexact H1
    isplitl [H2]; · iapply (Entails.of_eq (e 2)); iexact H2
    isplitl [H3]; · iapply (Entails.of_eq (e 3)); iexact H3
    isplitl [H4]; · iapply (Entails.of_eq (e 4)); iexact H4
    isplitl [H5]; · iapply (Entails.of_eq (e 5)); iexact H5
    isplitl [H6]; · iapply (Entails.of_eq (e 6)); iexact H6
    isplitl [H8]; · iapply (Entails.of_eq (e 8)); iexact H8
    isplitl [H9]; · iapply (Entails.of_eq (e 9)); iexact H9
    isplitl [H10]; · iapply (Entails.of_eq (e 10)); iexact H10
    isplitl [H11]; · iapply (Entails.of_eq (e 11)); iexact H11
    ihave H12' := (Entails.of_eq (e 12)) $$ H12
    iexact H12'

/-- What the first region finds, at the TensorCore's references. -/
abbrev E3 : (c : Dev nD) → (b : Ref sig .tc) → Buf (Elt F) ((c : Thread nD τ).loc b) := fun c b => B3 m c b
/-- What the first region leaves in its output array: every point's block written back. -/
def o52 (c : Dev nD) : Buf (Elt F) ((c : Thread nD τ).loc main_v52) := (dat0 (E3 m) c).arrAt 7 cfg0.N
abbrev E4 : (c : Dev nD) → (b : Ref sig .tc) → Buf (Elt F) ((c : Thread nD τ).loc b) := fun c b => B4 m (o52 m) c b
/-- What the second region finds. -/
abbrev E7 : (c : Dev nD) → (b : Ref sig .tc) → Buf (Elt F) ((c : Thread nD τ).loc b) := fun c b => B7 m (o52 m) c b
def o67 (c : Dev nD) : Buf (Elt F) ((c : Thread nD τ).loc main_v67) := (dat1 (E7 m) c).arrAt 3 cfg1.N
abbrev E8 : (c : Dev nD) → (b : Ref sig .tc) → Buf (Elt F) ((c : Thread nD τ).loc b) := fun c b => B8 m (o52 m) (o67 m) c b
/-- What the third region finds. -/
abbrev E9 : (c : Dev nD) → (b : Ref sig .tc) → Buf (Elt F) ((c : Thread nD τ).loc b) := fun c b => B9 m (o52 m) (o67 m) c b
def o116 (c : Dev nD) : Buf (Elt F) ((c : Thread nD τ).loc main_v116) := (dat2 (E9 m) q2 c).arrAt 12 cfg2.N
abbrev E10 : (c : Dev nD) → (b : Ref sig .tc) → Buf (Elt F) ((c : Thread nD τ).loc b) := fun c b => B10 m (o52 m) (o67 m) (o116 m) c b

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E7 m) c
  | ⟨2, _⟩ => fun c => dat2 (E9 m) q2 c
abbrev 𝒱₀ : Variants := Variants.none
abbrev L : GSem nD τ sig → Finset Unit := fun _ => ∅
abbrev lv : GSem nD τ sig → Unit → ℕ := fun _ _ => 0
/-- What rides beside the buffers through every item: the generator register at some state and an empty debt. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem dne {r x : Ref sig .tc} (h : r ≠ x) : (Proc.devRef .tc r : DevRef τ sig) ≠ Proc.devRef .tc x := StableHlo.devRef_ne_of_ne h

/-! ## The regions as items -/

set_option backward.isDefEq.respectTransparency.types false in
/-- The first region: entered from the contents `B3`, left at `B4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (B3 m c) ∗ R c)
  post c := iprop(StableHlo.held (c : Thread nD τ) (Pipeline.ucRefs τ sig) (B4 m (o52 m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hin : ∀ w : Fin cfg0.W, (cfg0.win w).isOut = false → Pipeline.arrRef spec0 w ≠ main_v52 →
        (pdats m 0 c).arrAt w cfg0.N = E4 m c (Pipeline.arrRef spec0 w) := fun w hw hne =>
      ((pdats m 0 c).arrAt_in w hw cfg0.N).trans ((A_eq0 (E3 m) c w).trans (Function.update_of_ne (dne hne) _ _).symm)
    have hF : ∀ w, (pdats m 0 c).arrAt w cfg0.N = E4 m c (Pipeline.arrRef spec0 w) := fun w => by
      by_cases h : w = 7
      · subst h; exact (Function.update_self (β := fun b : DevRef τ sig => b.ty.Contents (Elt F)) _ _ _).symm
      · exact hin w ((by decide : ∀ w : Fin cfg0.W, w ≠ 7 → (cfg0.win w).isOut = false) w h)
          ((by decide : ∀ w : Fin cfg0.W, w ≠ 7 → Pipeline.arrRef spec0 w ≠ main_v52) w h)
    have hrest : ∀ b, b ∉ Finset.univ.image (Pipeline.arrRef spec0) → E4 m c b = E3 m c b := fun b hb =>
      Function.update_of_ne (dne fun e => hb (Finset.mem_image.mpr ⟨7, Finset.mem_univ _, e.symm⟩)) _ _
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the contents `B7`, left at `B8`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E7 m) c).loose
  hwaits := Pipeline.hwaits_of_owed_zero _ _ _ _ L lv 1 fun _ _ => rfl
  pre c := iprop(StableHlo.held (c : Thread nD τ) (Pipeline.ucRefs τ sig) (B7 m (o52 m) c) ∗ R c)
  post c := iprop(StableHlo.held (c : Thread nD τ) (Pipeline.ucRefs τ sig) (B8 m (o52 m) (o67 m) c) ∗ R c)
  X c := iprop(∃ r, prngReg c r)
  Y c := iprop(∃ r, prngReg c r)
  Z c := Pipeline.unscopedRest (Ix := Unit) (Name := ℕ) (U := UR sig nD τ) (Lvl := ℕ) spec1 c (E7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hin : ∀ w : Fin cfg1.W, (cfg1.win w).isOut = false → Pipeline.arrRef spec1 w ≠ main_v67 →
        (pdats m 1 c).arrAt w cfg1.N = E8 m c (Pipeline.arrRef spec1 w) := fun w hw hne =>
      ((pdats m 1 c).arrAt_in w hw cfg1.N).trans ((A_eq1 (E7 m) c w).trans (Function.update_of_ne (dne hne) _ _).symm)
    have hF : ∀ w, (pdats m 1 c).arrAt w cfg1.N = E8 m c (Pipeline.arrRef spec1 w) := fun w => by
      by_cases h : w = 3
      · subst h; exact (Function.update_self (β := fun b : DevRef τ sig => b.ty.Contents (Elt F)) _ _ _).symm
      · exact hin w ((by decide : ∀ w : Fin cfg1.W, w ≠ 3 → (cfg1.win w).isOut = false) w h)
          ((by decide : ∀ w : Fin cfg1.W, w ≠ 3 → Pipeline.arrRef spec1 w ≠ main_v67) w h)
    have hrest : ∀ b, b ∉ Finset.univ.image (Pipeline.arrRef spec1) → E8 m c b = E7 m c b := fun b hb =>
      Function.update_of_ne (dne fun e => hb (Finset.mem_image.mpr ⟨3, Finset.mem_univ _, e.symm⟩)) _ _
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E7 m c) (E8 m c) ((pdats m 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The third region: entered from the contents `B9`, left at `B10`. Two of its input windows read one array. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (E9 m) q2 c).loose
  hwaits := Pipeline.hwaits_of_owed_zero _ _ _ _ L lv 2 fun _ _ => rfl
  pre c := iprop(StableHlo.held (c : Thread nD τ) (Pipeline.ucRefs τ sig) (B9 m (o52 m) (o67 m) c) ∗ R c)
  post c := iprop(StableHlo.held (c : Thread nD τ) (Pipeline.ucRefs τ sig) (B10 m (o52 m) (o67 m) (o116 m) c) ∗ R c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit : (StableHlo.held (c : Thread nD τ) (Pipeline.ucRefs τ sig) (B9 m (o52 m) (o67 m) c) : sProp 𝕄)
        ⊢ iprop((pdats m 2 c).arrays ((pdats m 2 c).arrAt · 0)
            ∗ Pipeline.unscopedRest (Ix := Unit) (Name := ℕ) (U := UR sig nD τ) (Lvl := ℕ) spec2 c (E9 m c)) := by
      rw [← Pipeline.unscopedBufs_held, Pipeline.unscopedBufs_split₀ cfgs 2 winFacts₀2.arr_unscoped c (E9 m c)]
      exact sep_mono (arrays2_bufs c (pdats m 2 c) rfl (E9 m c) _ (fun w => A_eq2 (E9 m) q2 c w)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hin : ∀ w : Fin cfg2.W, (cfg2.win w).isOut = false → Pipeline.arrRef spec2 w ≠ main_v116 →
        (pdats m 2 c).arrAt w cfg2.N = E10 m c (Pipeline.arrRef spec2 w) := fun w hw hne =>
      ((pdats m 2 c).arrAt_in w hw cfg2.N).trans ((A_eq2 (E9 m) q2 c w).trans (Function.update_of_ne (dne hne) _ _).symm)
    have hF : ∀ w, (pdats m 2 c).arrAt w cfg2.N = E10 m c (Pipeline.arrRef spec2 w) := fun w => by
      by_cases h : w = 12
      · subst h; exact (Function.update_self (β := fun b : DevRef τ sig => b.ty.Contents (Elt F)) _ _ _).symm
      · exact hin w ((by decide : ∀ w : Fin cfg2.W, w ≠ 12 → (cfg2.win w).isOut = false) w h)
          ((by decide : ∀ w : Fin cfg2.W, w ≠ 12 → Pipeline.arrRef spec2 w ≠ main_v116) w h)
    have hrest : ∀ b, b ∉ Finset.univ.image (Pipeline.arrRef spec2) → E10 m c b = E9 m c b := fun b hb =>
      Function.update_of_ne (dne fun e => hb (Finset.mem_image.mpr ⟨12, Finset.mem_univ _, e.symm⟩)) _ _
    have hjoin : iprop((pdats m 2 c).arrays ((pdats m 2 c).arrAt · cfg2.N)
          ∗ Pipeline.unscopedRest (Ix := Unit) (Name := ℕ) (U := UR sig nD τ) (Lvl := ℕ) spec2 c (E9 m c))
        ⊢ (StableHlo.held (c : Thread nD τ) (Pipeline.ucRefs τ sig) (B10 m (o52 m) (o67 m) (o116 m) c) : sProp 𝕄) := by
      rw [← Pipeline.unscopedBufs_held, Pipeline.unscopedBufs_split₀ cfgs 2 winFacts₀2.arr_unscoped c (E10 m c)]
      refine sep_mono (arrays2_bufs c (pdats m 2 c) rfl (E10 m c) _ hF).2 (Entails.of_eq ?_)
      unfold Pipeline.unscopedRest
      exact bigSep_congr fun b hb => by rw [hrest b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its ten items, and the run -/

/-- @main's items in order. -/
abbrev segs : List (Pipeline.Seg (pcfgs (F := F)) adm (pdats m) () defs₀ 𝒱₀ L lv) :=
  [ .host (hseg hostOps0 hostOps0_sub hostOps0_fresh (fun c b => m (c, b))),
    .host (hseg hostOps0_1 hostOps0_1_sub hostOps0_1_fresh (fun c => StableHlo.after hostOps0 (fun b => m (c, b)))),
    .host (hseg hostOps0_2 hostOps0_2_sub hostOps0_2_fresh (fun c => StableHlo.after hostOps0_1 (StableHlo.after hostOps0 (fun b => m (c, b))))),
    .region (reg0 m),
    .host (hseg hostOps1 hostOps1_sub hostOps1_fresh (B4 m (o52 m))),
    .host (hseg hostOps1_1 hostOps1_1_sub hostOps1_1_fresh (fun c => StableHlo.after hostOps1 (B4 m (o52 m) c))),
    .host (hseg hostOps1_2 hostOps1_2_sub hostOps1_2_fresh (fun c => StableHlo.after hostOps1_1 (StableHlo.after hostOps1 (B4 m (o52 m) c)))),
    .region (reg1 m),
    .host (hseg hostOps2 hostOps2_sub hostOps2_fresh (B8 m (o52 m) (o67 m))),
    .region (reg2 m) ]

set_option backward.isDefEq.respectTransparency.types false in
/-- THE RUN, at any `F`: from any memory with zero counters every weakly fair execution of @main terminates, nothing
    faulting, and in every final state the result array holds what the third region's write-backs leave (`o116`) and
    every argument array what it held at launch. -/
theorem run_main : θ_run defs (onTc (τ := τ) (main (F := F))) ⟨m, fun _ => 0, ρ⟩ (fun r => ∀ c : Dev nD,
      r.2.mem ((c.tc : Thread nD τ).loc main_v116) = o116 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (B10 m (o52 m) (o67 m) (o116 m) c) ∗ ∃ r, prngReg c r))
    (hch := fun c => ⟨.rfl, .rfl, .rfl, .rfl, .rfl, .rfl, .rfl, .rfl, .rfl, .rfl,
      (show (iprop(StableHlo.held (c : Thread nD τ) (Pipeline.ucRefs τ sig) (B10 m (o52 m) (o67 m) (o116 m) c) ∗ R c) : sProp 𝕄)
          ⊢ iprop((StableHlo.held (c : Thread nD τ) (Pipeline.ucRefs τ sig) (B10 m (o52 m) (o67 m) (o116 m) c) ∗ ∃ r, prngReg c r)
            ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m (o52 m) (o67 m) (o116 m) c b)
    (hfin := fun c s' => by
      iintro ⟨⟨Hh, -⟩, HSI⟩
      unfold StableHlo.held
      imodintro
      iapply (pointsTo_read_all (Pipeline.ucRefs τ sig) (fun b => (((c : Thread nD τ)).1, b)) (B10 m (o52 m) (o67 m) (o116 m) c) s')
      isplitl [Hh] <;> iassumption)
    (hQ := fun s h c =>
      ⟨(h c _ (mem_uc main_v116 (by decide))).trans (B10_out m (o52 m) (o67 m) (o116 m) c),
        (h c _ (mem_uc main_arg0 (by decide))).trans (B10_of m (o52 m) (o67 m) (o116 m) c main_arg0 (by decide) (by decide) (by decide) (by decide) (by decide) (by decide) (by decide) (by decide) (by decide) (by decide)),
        (h c _ (mem_uc main_arg1 (by decide))).trans (B10_of m (o52 m) (o67 m) (o116 m) c main_arg1 (by decide) (by decide) (by decide) (by decide) (by decide) (by decide) (by decide) (by decide) (by decide) (by decide)),
        (h c _ (mem_uc main_arg2 (by decide))).trans (B10_of m (o52 m) (o67 m) (o116 m) c main_arg2 (by decide) (by decide) (by decide) (by decide) (by decide) (by decide) (by decide) (by decide) (by decide) (by decide)),
        (h c _ (mem_uc main_arg3 (by decide))).trans (B10_of m (o52 m) (o67 m) (o116 m) c main_arg3 (by decide) (by decide) (by decide) (by decide) (by decide) (by decide) (by decide) (by decide) (by decide) (by decide)),
        (h c _ (mem_uc main_arg4 (by decide))).trans (B10_of m (o52 m) (o67 m) (o116 m) c main_arg4 (by decide) (by decide) (by decide) (by decide) (by decide) (by decide) (by decide) (by decide) (by decide) (by decide)),
        (h c _ (mem_uc main_arg5 (by decide))).trans (B10_of m (o52 m) (o67 m) (o116 m) c main_arg5 (by decide) (by decide) (by decide) (by decide) (by decide) (by decide) (by decide) (by decide) (by decide) (by decide)),
        (h c _ (mem_uc main_arg6 (by decide))).trans (B10_of m (o52 m) (o67 m) (o116 m) c main_arg6 (by decide) (by decide) (by decide) (by decide) (by decide) (by decide) (by decide) (by decide) (by decide) (by decide)),
        (h c _ (mem_uc main_arg7 (by decide))).trans (B10_of m (o52 m) (o67 m) (o116 m) c main_arg7 (by decide) (by decide) (by decide) (by decide) (by decide) (by decide) (by decide) (by decide) (by decide) (by decide)),
        (h c _ (mem_uc main_arg8 (by decide))).trans (B10_of m (o52 m) (o67 m) (o116 m) c main_arg8 (by decide) (by decide) (by decide) (by decide) (by decide) (by decide) (by decide) (by decide) (by decide) (by decide)),
        (h c _ (mem_uc main_arg9 (by decide))).trans (B10_of m (o52 m) (o67 m) (o116 m) c main_arg9 (by decide) (by decide) (by decide) (by decide) (by decide) (by decide) (by decide) (by decide) (by decide) (by decide)),
        (h c _ (mem_uc main_arg10 (by decide))).trans (B10_of m (o52 m) (o67 m) (o116 m) c main_arg10 (by decide) (by decide) (by decide) (by decide) (by decide) (by decide) (by decide) (by decide) (by decide) (by decide)),
        (h c _ (mem_uc main_arg11 (by decide))).trans (B10_of m (o52 m) (o67 m) (o116 m) c main_arg11 (by decide) (by decide) (by decide) (by decide) (by decide) (by decide) (by decide) (by decide) (by decide) (by decide)),
        (h c _ (mem_uc main_arg12 (by decide))).trans (B10_of m (o52 m) (o67 m) (o116 m) c main_arg12 (by decide) (by decide) (by decide) (by decide) (by decide) (by decide) (by decide) (by decide) (by decide) (by decide))⟩)

end Cert.KernelIdeal.Hand

end
-- ==== Proof.KIKeep.lean ====
/-
  What each boundary's contents keep: a reference no operation of a stretch writes holds after the stretch what it held
  before it, and a region changes nothing but its one output array.
-/
import proofs.«181888_j53283364274269_2_alg».proof.Proof.KIFold

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)
variable (o52 : (c : Dev nD) → Buf (Elt F) ((c : Thread nD τ).loc main_v52))
variable (o67 : (c : Dev nD) → Buf (Elt F) ((c : Thread nD τ).loc main_v67))

theorem dne' {r x : Ref sig .tc} (h : r ∉ ([x] : List (Ref sig .tc))) : (Proc.devRef .tc r : DevRef τ sig) ≠ Proc.devRef .tc x :=
  StableHlo.devRef_ne_of_ne (List.ne_of_not_mem_cons h)

theorem B3_of (c : Dev nD) (r : Ref sig .tc) (h0 : r ∉ hostOps0_W) (h1 : r ∉ hostOps0_1_W) (h2 : r ∉ hostOps0_2_W) :
    B3 m c r = m ((c : Thread nD τ).loc r) := by
  refine (StableHlo.after_of_writes_sub hostOps0_2 _ hostOps0_2_writes h2).trans ?_
  refine (StableHlo.after_of_writes_sub hostOps0_1 _ hostOps0_1_writes h1).trans ?_
  exact (StableHlo.after_of_writes_sub hostOps0 _ hostOps0_writes h0).trans rfl

theorem B4_of (c : Dev nD) (r : Ref sig .tc) (h : r ∉ ([main_v52] : List (Ref sig .tc))) : B4 m o52 c r = B3 m c r :=
  Function.update_of_ne (dne' h) _ _
theorem B4_out (c : Dev nD) : B4 m o52 c main_v52 = o52 c := Function.update_self ..

theorem B7_of (c : Dev nD) (r : Ref sig .tc) (h4 : r ∉ hostOps1_W) (h5 : r ∉ hostOps1_1_W) (h6 : r ∉ hostOps1_2_W) :
    B7 m o52 c r = B4 m o52 c r := by
  refine (StableHlo.after_of_writes_sub hostOps1_2 _ hostOps1_2_writes h6).trans ?_
  refine (StableHlo.after_of_writes_sub hostOps1_1 _ hostOps1_1_writes h5).trans ?_
  exact StableHlo.after_of_writes_sub hostOps1 _ hostOps1_writes h4

theorem B8_of (c : Dev nD) (r : Ref sig .tc) (h : r ∉ ([main_v67] : List (Ref sig .tc))) : B8 m o52 o67 c r = B7 m o52 c r :=
  Function.update_of_ne (dne' h) _ _
theorem B8_out (c : Dev nD) : B8 m o52 o67 c main_v67 = o67 c := Function.update_self ..

theorem B9_of (c : Dev nD) (r : Ref sig .tc) (h8 : r ∉ hostOps2_W) : B9 m o52 o67 c r = B8 m o52 o67 c r :=
  StableHlo.after_of_writes_sub hostOps2 _ hostOps2_writes h8

end Cert.KernelIdeal.Hand

end
-- ==== Proof.KIHost.lean ====
/- The kernel program's host stretches as functions of the contents they read.

   Between its three kernel launches the program runs seven straight lines of host operations. Each line is the
   transcription of a few mathematical steps — the degree normalisation and the two Chebyshev recurrence steps
   of a graph layer, the three row blocks of a transposed weight matrix, the batch statistics folded into a
   scale and a shift —, each step a small named function of the contents it reads. For an arbitrary valuation
   at a line's start, the buffers the line leaves are those functions of the contents it started from, and the
   buffers it does not write are unchanged. -/
import proofs.«181888_j53283364274269_2_alg».proof.Proof.Gen.KernelIdeal.Regions
import Idealize.ShloMosaic.Lib.StableHlo.Run
import Idealize.ShloMosaic.Lib.Pipeline.Frame

set_option Elab.async false

noncomputable section

namespace Cert.KernelIdeal.HandHost

open Cert.KernelIdeal Cert.KernelIdeal.Gen Idealize.ShloMosaic Idealize.ShloMosaic.TcCoe Idealize.SL.Sem Idealize.ShloMosaic.StableHlo

variable {F : FTy → Type} [FloatOps F]

/-- The contents of a tensor of shape `S` and element type `e`. -/
local notation "𝕋[" S ", " e "]" => BufTy.Contents (Elt F) (BufTy.mk S e)

/-! ## The steps, as functions of the contents they read -/

/-- In-degree: one scattered into a zero vector at every edge's destination. -/
def deg (dst : 𝕋[S800000, .i32]) : 𝕋[S50000, .f32] :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- `max lo x`, the bound a scalar broadcast over the vector. -/
def clipLo (x : 𝕋[S50000, .f32]) (lo : 𝕋[S_, .f32]) : 𝕋[S50000, .f32] :=
  maximumf (broadcastInDim S50000 ![] bcast_S_S50000 (id lo)) x

/-- A clipped degree raised to `-1/2`, as a column. -/
def dinvOf (c : 𝕋[S50000, .f32]) : 𝕋[S50000x1, .f32] :=
  broadcastInDim S50000x1 ![0] bcast_S50000_S50000x1_0
    (Host.powf c (broadcastInDim S50000 ![] bcast_S_S50000 (constant S_ .f32 0xBF000000#32)))

/-- `max(deg, 1) ^ (-1/2)`, as a column. -/
def dinv (dst : 𝕋[S800000, .i32]) : 𝕋[S50000x1, .f32] :=
  broadcastInDim S50000x1 ![0] bcast_S50000_S50000x1_0
    (Host.powf (clipLo (deg dst) (constant S_ .f32 0x3F800000#32))
      (broadcastInDim S50000 ![] bcast_S_S50000 (constant S_ .f32 0xBF000000#32)))

theorem dinv_eq (dst : 𝕋[S800000, .i32]) :
    dinv (F := F) dst = dinvOf (clipLo (deg dst) (constant S_ .f32 0x3F800000#32)) := rfl

/-- A negative index counts from the end: `i < 0 ? i + 50000 : i`. -/
def wrapIdx (src : 𝕋[S800000, .i32]) : 𝕋[S800000, .i32] :=
  select (cmpi .slt src (broadcastInDim S800000 ![] bcast_S_S800000 (constantI S_ 32 0#32)))
    (addi src (broadcastInDim S800000 ![] bcast_S_S800000 (constantI S_ 32 50000#32))) src

/-- The column `d` across the 128 features. -/
def colB (d : 𝕋[S50000x1, .f32]) : 𝕋[S50000x128, .f32] :=
  broadcastInDim S50000x128 ![0, 1] bcast_S50000x1_S50000x128_0_1 d

/-- A scalar word across the `[50000, 128]` tensor. -/
def fill (w : BitVec 32) : 𝕋[S50000x128, .f32] :=
  broadcastInDim S50000x128 ![] bcast_S_S50000x128 (constant S_ .f32 w)

/-- The normalised adjacency applied: scale by `d`, gather the rows at the edges' sources, add them up at the
    edges' destinations, scale by `d` again. -/
def spmv (d : 𝕋[S50000x1, .f32]) (src dst : 𝕋[S800000, .i32]) (x : 𝕋[S50000x128, .f32]) : 𝕋[S50000x128, .f32] :=
  mulf
    (Host.scatterAdd scatter_S50000x128_S800000x1_S800000x128_1_0_0_1
      (fill 0x00000000#32)
      (broadcastInDim S800000x1 ![0] bcast_S800000_S800000x1_0 dst)
      (Host.gather gather_S50000x128_S800000x1_S800000x128_1_0_n_n_0_1_1128
        (mulf x (colB d))
        (broadcastInDim S800000x1 ![0] bcast_S800000_S800000x1_0 (wrapIdx src))))
    (colB d)

/-- The first recurrence step: `-1 · (A x) + x · 0`. -/
def cheb1 (d : 𝕋[S50000x1, .f32]) (src dst : 𝕋[S800000, .i32]) (x : 𝕋[S50000x128, .f32]) : 𝕋[S50000x128, .f32] :=
  addf (mulf (fill 0xBF800000#32) (spmv d src dst x)) (mulf x (fill 0x00000000#32))

/-- The second recurrence step: `(-2 · (A x₁) + x₁ · 0) - x₀`. -/
def cheb2 (d : 𝕋[S50000x1, .f32]) (src dst : 𝕋[S800000, .i32]) (x0 x1 : 𝕋[S50000x128, .f32]) : 𝕋[S50000x128, .f32] :=
  subf (addf (mulf (fill 0xC0000000#32) (spmv d src dst x1)) (mulf x1 (fill 0x00000000#32))) x0

/-- The weight matrix transposed. -/
def wT (w : 𝕋[S128x384, .f32]) : 𝕋[S384x128, .f32] :=
  transpose S384x128 [1, 0] w transposes_S128x384_S384x128_1_0
/-- Its rows 0..127, 128..255, 256..383. -/
def wBlk0 (w : 𝕋[S128x384, .f32]) : 𝕋[S128x128, .f32] :=
  extractStridedSlice S128x128 ![0, 0] (wT w) slices_S384x128_S128x128_0_0
def wBlk1 (w : 𝕋[S128x384, .f32]) : 𝕋[S128x128, .f32] :=
  extractStridedSlice S128x128 ![128, 0] (wT w) slices_S384x128_S128x128_128_0
def wBlk2 (w : 𝕋[S128x384, .f32]) : 𝕋[S128x128, .f32] :=
  extractStridedSlice S128x128 ![256, 0] (wT w) slices_S384x128_S128x128_256_0

/-- A vector of 128 as one row. -/
def asRow (b : 𝕋[S128, .f32]) : 𝕋[S1x128, .f32] := shapeCast S1x128 b shapeCasts_S128_S1x128
/-- A vector of 64 as one row. -/
def asRow64 (b : 𝕋[S64, .f32]) : 𝕋[S1x64, .f32] := shapeCast S1x64 b shapeCasts_S64_S1x64

/-- The column means: the sum down the rows over 50000. -/
def mean (x : 𝕋[S50000x128, .f32]) : 𝕋[S128, .f32] :=
  Host.divf (Host.reduceAdd x (constant S_ .f32 0x00000000#32) reducesTo_S50000x128_S128_d0 h_S_)
    (broadcastInDim S128 ![] bcast_S_S128 (constant S_ .f32 0x47435000#32))

/-- The variance's divisor for a correction `k`: `50000 - k`, the integer converted. -/
def nMinus (k : 𝕋[S_, .i32]) : 𝕋[S_, .f32] :=
  subf (constant S_ .f32 0x47435000#32) (sitofp .f32 k)
/-- The variance's divisor: `50000 - 0`. -/
def nMinusDdof : 𝕋[S_, .f32] :=
  subf (constant S_ .f32 0x47435000#32) (sitofp .f32 (constantI S_ 32 0#32))

/-- The column means as the variance computes them, a row. -/
def varMean (x : 𝕋[S50000x128, .f32]) : 𝕋[S1x128, .f32] :=
  Host.divf
    (broadcastInDim S1x128 ![1] bcast_S128_S1x128_1 (Host.reduceAdd x (constant S_ .f32 0x00000000#32) reducesTo_S50000x128_S128_d0 h_S_))
    (broadcastInDim S1x128 ![] bcast_S_S1x128 (constant S_ .f32 0x47435000#32))

/-- The tensor less its column means. -/
def centered (x : 𝕋[S50000x128, .f32]) : 𝕋[S50000x128, .f32] :=
  subf x (broadcastInDim S50000x128 ![0, 1] bcast_S1x128_S50000x128_0_1 (varMean x))

/-- The column variances at a correction `k`. -/
def varAt (x : 𝕋[S50000x128, .f32]) (k : 𝕋[S_, .i32]) : 𝕋[S128, .f32] :=
  select (broadcastInDim S128 ![] bcast_S_S128 (cmpf .ogt (nMinus (F := F) k) (constant S_ .f32 0x00000000#32)))
    (Host.divf
      (Host.reduceAdd (mulf (centered x) (centered x)) (constant S_ .f32 0x00000000#32) reducesTo_S50000x128_S128_d0 h_S_)
      (broadcastInDim S128 ![] bcast_S_S128 (nMinus (F := F) k)))
    (broadcastInDim S128 ![] bcast_S_S128 (id (constant S_ .f32 0x7FC00000#32)))

/-- The column variances: the squared deviations summed down the rows over the divisor, where the divisor is
    positive, and the quiet NaN elsewhere. -/
def var (x : 𝕋[S50000x128, .f32]) : 𝕋[S128, .f32] :=
  select (broadcastInDim S128 ![] bcast_S_S128 (cmpf .ogt (nMinusDdof (F := F)) (constant S_ .f32 0x00000000#32)))
    (Host.divf
      (Host.reduceAdd (mulf (centered x) (centered x)) (constant S_ .f32 0x00000000#32) reducesTo_S50000x128_S128_d0 h_S_)
      (broadcastInDim S128 ![] bcast_S_S128 (nMinusDdof (F := F))))
    (broadcastInDim S128 ![] bcast_S_S128 (id (constant S_ .f32 0x7FC00000#32)))

theorem var_eq (x : 𝕋[S50000x128, .f32]) : var x = varAt x (constantI S_ 32 0#32) := rfl

/-- The folded scale: `rsqrt(max(σ², 0) + ε) · g`. -/
def scaleOf (sig2 g : 𝕋[S128, .f32]) : 𝕋[S128, .f32] :=
  mulf
    (Host.rsqrt
      (addf (maximumf sig2 (broadcastInDim S128 ![] bcast_S_S128 (constant S_ .f32 0x00000000#32)))
        (broadcastInDim S128 ![] bcast_S_S128 (constant S_ .f32 0x3727C5AC#32))))
    g
/-- The folded shift: `b - μ · scale`. -/
def shiftOf (mu sc b : 𝕋[S128, .f32]) : 𝕋[S128, .f32] :=
  subf b (mulf mu sc)

/-! ## Line by line: what each keeps, what each leaves -/

/-- A buffer the line does not write keeps its contents through it. -/
theorem hostOps0_keep (W : Valuation τ sig (Elt F)) (r : Ref sig .tc) (h : r ∉ hostOps0_W) :
    after hostOps0 W (no_index (Proc.devRef .tc r)) = W (Proc.devRef .tc r) :=
  after_of_writes_sub hostOps0 _ hostOps0_writes h
/-- A buffer the line does not write keeps its contents through it. -/
theorem hostOps0_1_keep (W : Valuation τ sig (Elt F)) (r : Ref sig .tc) (h : r ∉ hostOps0_1_W) :
    after hostOps0_1 W (no_index (Proc.devRef .tc r)) = W (Proc.devRef .tc r) :=
  after_of_writes_sub hostOps0_1 _ hostOps0_1_writes h
/-- A buffer the line does not write keeps its contents through it. -/
theorem hostOps0_2_keep (W : Valuation τ sig (Elt F)) (r : Ref sig .tc) (h : r ∉ hostOps0_2_W) :
    after hostOps0_2 W (no_index (Proc.devRef .tc r)) = W (Proc.devRef .tc r) :=
  after_of_writes_sub hostOps0_2 _ hostOps0_2_writes h
/-- A buffer the line does not write keeps its contents through it. -/
theorem hostOps1_keep (W : Valuation τ sig (Elt F)) (r : Ref sig .tc) (h : r ∉ hostOps1_W) :
    after hostOps1 W (no_index (Proc.devRef .tc r)) = W (Proc.devRef .tc r) :=
  after_of_writes_sub hostOps1 _ hostOps1_writes h
/-- A buffer the line does not write keeps its contents through it. -/
theorem hostOps1_1_keep (W : Valuation τ sig (Elt F)) (r : Ref sig .tc) (h : r ∉ hostOps1_1_W) :
    after hostOps1_1 W (no_index (Proc.devRef .tc r)) = W (Proc.devRef .tc r) :=
  after_of_writes_sub hostOps1_1 _ hostOps1_1_writes h
/-- A buffer the line does not write keeps its contents through it. -/
theorem hostOps1_2_keep (W : Valuation τ sig (Elt F)) (r : Ref sig .tc) (h : r ∉ hostOps1_2_W) :
    after hostOps1_2 W (no_index (Proc.devRef .tc r)) = W (Proc.devRef .tc r) :=
  after_of_writes_sub hostOps1_2 _ hostOps1_2_writes h
/-- A buffer the line does not write keeps its contents through it. -/
theorem hostOps2_keep (W : Valuation τ sig (Elt F)) (r : Ref sig .tc) (h : r ∉ hostOps2_W) :
    after hostOps2 W (no_index (Proc.devRef .tc r)) = W (Proc.devRef .tc r) :=
  after_of_writes_sub hostOps2 _ hostOps2_writes h

/-! ### Before the first launch -/

set_option maxRecDepth 16384 in
set_option maxHeartbeats 4000000 in
/-- The first line leaves the in-degree. -/
theorem hostOps0_main_v3 (W : Valuation τ sig (Elt F)) :
    after hostOps0 W (no_index (Proc.devRef .tc main_v3)) = deg (W (Proc.devRef .tc main_arg2)) := by
  simp only [hostOps0]
  after_results_simp
  rfl

set_option maxRecDepth 16384 in
set_option maxHeartbeats 4000000 in
/-- … and the clip's bound, one. -/
theorem hostOps0_main_cst_1 (W : Valuation τ sig (Elt F)) :
    after hostOps0 W (no_index (Proc.devRef .tc main_cst_1)) = (constant S_ .f32 0x3F800000#32 : 𝕋[S_, .f32]) := by
  simp only [hostOps0]
  after_results_simp

set_option maxRecDepth 16384 in
set_option maxHeartbeats 4000000 in
/-- The clip's line leaves the clipped degree. -/
theorem hostOps0_1_main_v4 (W : Valuation τ sig (Elt F)) :
    after hostOps0_1 W (no_index (Proc.devRef .tc main_v4)) = clipLo (W (Proc.devRef .tc main_v3)) (W (Proc.devRef .tc main_cst_1)) := by
  simp only [hostOps0_1]
  after_results_simp
  rfl

set_option maxRecDepth 16384 in
set_option maxHeartbeats 4000000 in
/-- The long line leaves the normalising column … -/
theorem hostOps0_2_main_v7 (W : Valuation τ sig (Elt F)) :
    after hostOps0_2 W (no_index (Proc.devRef .tc main_v7)) = dinvOf (W (Proc.devRef .tc main_v4)) := by
  simp only [hostOps0_2]
  after_results_simp
  rfl

set_option maxRecDepth 16384 in
set_option maxHeartbeats 4000000 in
/-- … the first recurrence term … -/
theorem hostOps0_2_main_v26 (W : Valuation τ sig (Elt F)) :
    after hostOps0_2 W (no_index (Proc.devRef .tc main_v26)) = cheb1 (dinvOf (W (Proc.devRef .tc main_v4))) (W (Proc.devRef .tc main_arg1)) (W (Proc.devRef .tc main_arg2)) (W (Proc.devRef .tc main_arg0)) := by
  simp only [hostOps0_2]
  after_results_simp
  rfl

set_option maxRecDepth 16384 in
set_option maxHeartbeats 4000000 in
/-- … the second recurrence term … -/
theorem hostOps0_2_main_v46 (W : Valuation τ sig (Elt F)) :
    after hostOps0_2 W (no_index (Proc.devRef .tc main_v46)) = cheb2 (dinvOf (W (Proc.devRef .tc main_v4))) (W (Proc.devRef .tc main_arg1)) (W (Proc.devRef .tc main_arg2)) (W (Proc.devRef .tc main_arg0))
        (cheb1 (dinvOf (W (Proc.devRef .tc main_v4))) (W (Proc.devRef .tc main_arg1)) (W (Proc.devRef .tc main_arg2)) (W (Proc.devRef .tc main_arg0))) := by
  simp only [hostOps0_2]
  after_results_simp
  rfl

set_option maxRecDepth 16384 in
set_option maxHeartbeats 4000000 in
/-- … the three row blocks of the transposed weights … -/
theorem hostOps0_2_main_v48 (W : Valuation τ sig (Elt F)) :
    after hostOps0_2 W (no_index (Proc.devRef .tc main_v48)) = wBlk0 (W (Proc.devRef .tc main_arg3)) := by
  simp only [hostOps0_2]
  after_results_simp
  rfl

set_option maxRecDepth 16384 in
set_option maxHeartbeats 4000000 in
/-- (rows 128..255) -/
theorem hostOps0_2_main_v49 (W : Valuation τ sig (Elt F)) :
    after hostOps0_2 W (no_index (Proc.devRef .tc main_v49)) = wBlk1 (W (Proc.devRef .tc main_arg3)) := by
  simp only [hostOps0_2]
  after_results_simp
  rfl

set_option maxRecDepth 16384 in
set_option maxHeartbeats 4000000 in
/-- (rows 256..383) -/
theorem hostOps0_2_main_v50 (W : Valuation τ sig (Elt F)) :
    after hostOps0_2 W (no_index (Proc.devRef .tc main_v50)) = wBlk2 (W (Proc.devRef .tc main_arg3)) := by
  simp only [hostOps0_2]
  after_results_simp
  rfl

set_option maxRecDepth 16384 in
set_option maxHeartbeats 4000000 in
/-- … and the bias as one row. -/
theorem hostOps0_2_main_v51 (W : Valuation τ sig (Elt F)) :
    after hostOps0_2 W (no_index (Proc.devRef .tc main_v51)) = asRow (W (Proc.devRef .tc main_arg4)) := by
  simp only [hostOps0_2]
  after_results_simp
  rfl

/-! ### Before the first launch, the three lines together -/

set_option maxRecDepth 16384 in
/-- The normalising column, of the destinations. -/
theorem S0_main_v7 (W : Valuation τ sig (Elt F)) :
    after hostOps0_2 (after hostOps0_1 (after hostOps0 W)) (no_index (Proc.devRef .tc main_v7)) = dinv (W (Proc.devRef .tc main_arg2)) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]
  rfl

set_option maxRecDepth 16384 in
/-- The first recurrence term of the input. -/
theorem S0_main_v26 (W : Valuation τ sig (Elt F)) :
    after hostOps0_2 (after hostOps0_1 (after hostOps0 W)) (no_index (Proc.devRef .tc main_v26)) = cheb1 (dinv (W (Proc.devRef .tc main_arg2))) (W (Proc.devRef .tc main_arg1)) (W (Proc.devRef .tc main_arg2)) (W (Proc.devRef .tc main_arg0)) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]
  rfl

set_option maxRecDepth 16384 in
/-- The second recurrence term of the input. -/
theorem S0_main_v46 (W : Valuation τ sig (Elt F)) :
    after hostOps0_2 (after hostOps0_1 (after hostOps0 W)) (no_index (Proc.devRef .tc main_v46)) = cheb2 (dinv (W (Proc.devRef .tc main_arg2))) (W (Proc.devRef .tc main_arg1)) (W (Proc.devRef .tc main_arg2)) (W (Proc.devRef .tc main_arg0))
        (cheb1 (dinv (W (Proc.devRef .tc main_arg2))) (W (Proc.devRef .tc main_arg1)) (W (Proc.devRef .tc main_arg2)) (W (Proc.devRef .tc main_arg0))) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]
  rfl

set_option maxRecDepth 16384 in
/-- The weight blocks. -/
theorem S0_main_v48 (W : Valuation τ sig (Elt F)) :
    after hostOps0_2 (after hostOps0_1 (after hostOps0 W)) (no_index (Proc.devRef .tc main_v48)) = wBlk0 (W (Proc.devRef .tc main_arg3)) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]

set_option maxRecDepth 16384 in
/-- (rows 128..255) -/
theorem S0_main_v49 (W : Valuation τ sig (Elt F)) :
    after hostOps0_2 (after hostOps0_1 (after hostOps0 W)) (no_index (Proc.devRef .tc main_v49)) = wBlk1 (W (Proc.devRef .tc main_arg3)) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]

set_option maxRecDepth 16384 in
/-- (rows 256..383) -/
theorem S0_main_v50 (W : Valuation τ sig (Elt F)) :
    after hostOps0_2 (after hostOps0_1 (after hostOps0 W)) (no_index (Proc.devRef .tc main_v50)) = wBlk2 (W (Proc.devRef .tc main_arg3)) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]

set_option maxRecDepth 16384 in
/-- The bias row. -/
theorem S0_main_v51 (W : Valuation τ sig (Elt F)) :
    after hostOps0_2 (after hostOps0_1 (after hostOps0 W)) (no_index (Proc.devRef .tc main_v51)) = asRow (W (Proc.devRef .tc main_arg4)) := by
  simp (disch := decide) only [hostOps0_2_main_v7, hostOps0_2_main_v26, hostOps0_2_main_v46, hostOps0_2_main_v48, hostOps0_2_main_v49,
    hostOps0_2_main_v50, hostOps0_2_main_v51, hostOps0_1_main_v4, hostOps0_main_v3, hostOps0_main_cst_1,
    hostOps0_2_keep, hostOps0_1_keep, hostOps0_keep]

/-- What none of the three lines writes is unchanged. -/
theorem S0_keep (W : Valuation τ sig (Elt F)) (r : Ref sig .tc) (h0 : r ∉ hostOps0_W) (h1 : r ∉ hostOps0_1_W) (h2 : r ∉ hostOps0_2_W) :
    after hostOps0_2 (after hostOps0_1 (after hostOps0 W)) (no_index (Proc.devRef .tc r)) = W (Proc.devRef .tc r) := by
  rw [hostOps0_2_keep _ r h2, hostOps0_1_keep _ r h1, hostOps0_keep _ r h0]

/-! ### Between the first and the second launch -/

set_option maxRecDepth 16384 in
set_option maxHeartbeats 4000000 in
/-- The column means. -/
theorem hostOps1_main_v55 (W : Valuation τ sig (Elt F)) :
    after hostOps1 W (no_index (Proc.devRef .tc main_v55)) = mean (W (Proc.devRef .tc main_v52)) := by
  simp only [hostOps1]
  after_results_simp
  rfl

set_option maxRecDepth 16384 in
set_option maxHeartbeats 4000000 in
/-- The variance's correction, the integer zero. -/
theorem hostOps1_main_c_14 (W : Valuation τ sig (Elt F)) :
    after hostOps1 W (no_index (Proc.devRef .tc main_c_14)) = (constantI S_ 32 0#32 : 𝕋[S_, .i32]) := by
  simp only [hostOps1]
  after_results_simp

set_option maxRecDepth 16384 in
set_option maxHeartbeats 4000000 in
/-- The variance function's line, at the correction it is passed. -/
theorem hostOps1_1_main_v56 (W : Valuation τ sig (Elt F)) :
    after hostOps1_1 W (no_index (Proc.devRef .tc main_v56)) = varAt (W (Proc.devRef .tc main_v52)) (W (Proc.devRef .tc main_c_14)) := by
  simp only [hostOps1_1]
  after_results_simp
  rfl

set_option maxRecDepth 16384 in
set_option maxHeartbeats 4000000 in
/-- The scale as one row. -/
theorem hostOps1_2_main_v65 (W : Valuation τ sig (Elt F)) :
    after hostOps1_2 W (no_index (Proc.devRef .tc main_v65)) = asRow (scaleOf (W (Proc.devRef .tc main_v56)) (W (Proc.devRef .tc main_arg7))) := by
  simp only [hostOps1_2]
  after_results_simp
  rfl

set_option maxRecDepth 16384 in
set_option maxHeartbeats 4000000 in
/-- The shift as one row. -/
theorem hostOps1_2_main_v66 (W : Valuation τ sig (Elt F)) :
    after hostOps1_2 W (no_index (Proc.devRef .tc main_v66)) = asRow (shiftOf (W (Proc.devRef .tc main_v55)) (scaleOf (W (Proc.devRef .tc main_v56)) (W (Proc.devRef .tc main_arg7))) (W (Proc.devRef .tc main_arg8))) := by
  simp only [hostOps1_2]
  after_results_simp
  rfl

set_option maxRecDepth 16384 in
/-- The three lines together: the scale row, of the kernel's output and the gain. -/
theorem S1_main_v65 (W : Valuation τ sig (Elt F)) :
    after hostOps1_2 (after hostOps1_1 (after hostOps1 W)) (no_index (Proc.devRef .tc main_v65))
      = asRow (scaleOf (var (W (Proc.devRef .tc main_v52))) (W (Proc.devRef .tc main_arg7))) := by
  simp (disch := decide) only [hostOps1_2_main_v65, hostOps1_2_main_v66, hostOps1_1_main_v56, hostOps1_main_v55, hostOps1_main_c_14,
    hostOps1_2_keep, hostOps1_1_keep, hostOps1_keep]
  rfl
set_option maxRecDepth 16384 in
/-- The three lines together: the shift row. -/
theorem S1_main_v66 (W : Valuation τ sig (Elt F)) :
    after hostOps1_2 (after hostOps1_1 (after hostOps1 W)) (no_index (Proc.devRef .tc main_v66))
      = asRow (shiftOf (mean (W (Proc.devRef .tc main_v52))) (scaleOf (var (W (Proc.devRef .tc main_v52))) (W (Proc.devRef .tc main_arg7))) (W (Proc.devRef .tc main_arg8))) := by
  simp (disch := decide) only [hostOps1_2_main_v65, hostOps1_2_main_v66, hostOps1_1_main_v56, hostOps1_main_v55, hostOps1_main_c_14,
    hostOps1_2_keep, hostOps1_1_keep, hostOps1_keep]
  rfl
/-- What none of the three lines writes is unchanged. -/
theorem S1_keep (W : Valuation τ sig (Elt F)) (r : Ref sig .tc) (h0 : r ∉ hostOps1_W) (h1 : r ∉ hostOps1_1_W) (h2 : r ∉ hostOps1_2_W) :
    after hostOps1_2 (after hostOps1_1 (after hostOps1 W)) (no_index (Proc.devRef .tc r)) = W (Proc.devRef .tc r) := by
  rw [hostOps1_2_keep _ r h2, hostOps1_1_keep _ r h1, hostOps1_keep _ r h0]

/-! ### Between the second and the third launch -/

set_option maxRecDepth 16384 in
set_option maxHeartbeats 4000000 in
/-- The first recurrence term of the normalised layer. -/
theorem hostOps2_main_v86 (W : Valuation τ sig (Elt F)) :
    after hostOps2 W (no_index (Proc.devRef .tc main_v86)) = cheb1 (W (Proc.devRef .tc main_v7)) (W (Proc.devRef .tc main_arg1)) (W (Proc.devRef .tc main_arg2)) (W (Proc.devRef .tc main_v67)) := by
  simp only [hostOps2]
  after_results_simp
  rfl

set_option maxRecDepth 16384 in
set_option maxHeartbeats 4000000 in
/-- The second recurrence term. -/
theorem hostOps2_main_v106 (W : Valuation τ sig (Elt F)) :
    after hostOps2 W (no_index (Proc.devRef .tc main_v106)) = cheb2 (W (Proc.devRef .tc main_v7)) (W (Proc.devRef .tc main_arg1)) (W (Proc.devRef .tc main_arg2)) (W (Proc.devRef .tc main_v67))
        (cheb1 (W (Proc.devRef .tc main_v7)) (W (Proc.devRef .tc main_arg1)) (W (Proc.devRef .tc main_arg2)) (W (Proc.devRef .tc main_v67))) := by
  simp only [hostOps2]
  after_results_simp
  rfl

set_option maxRecDepth 16384 in
set_option maxHeartbeats 4000000 in
/-- The second layer's weight blocks. -/
theorem hostOps2_main_v108 (W : Valuation τ sig (Elt F)) :
    after hostOps2 W (no_index (Proc.devRef .tc main_v108)) = wBlk0 (W (Proc.devRef .tc main_arg5)) := by
  simp only [hostOps2]
  after_results_simp
  rfl

set_option maxRecDepth 16384 in
set_option maxHeartbeats 4000000 in
/-- (rows 128..255) -/
theorem hostOps2_main_v109 (W : Valuation τ sig (Elt F)) :
    after hostOps2 W (no_index (Proc.devRef .tc main_v109)) = wBlk1 (W (Proc.devRef .tc main_arg5)) := by
  simp only [hostOps2]
  after_results_simp
  rfl

set_option maxRecDepth 16384 in
set_option maxHeartbeats 4000000 in
/-- (rows 256..383) -/
theorem hostOps2_main_v110 (W : Valuation τ sig (Elt F)) :
    after hostOps2 W (no_index (Proc.devRef .tc main_v110)) = wBlk2 (W (Proc.devRef .tc main_arg5)) := by
  simp only [hostOps2]
  after_results_simp
  rfl

set_option maxRecDepth 16384 in
set_option maxHeartbeats 4000000 in
/-- The second layer's bias row. -/
theorem hostOps2_main_v111 (W : Valuation τ sig (Elt F)) :
    after hostOps2 W (no_index (Proc.devRef .tc main_v111)) = asRow (W (Proc.devRef .tc main_arg6)) := by
  simp only [hostOps2]
  after_results_simp
  rfl

set_option maxRecDepth 16384 in
set_option maxHeartbeats 4000000 in
/-- The square dense layer's weights transposed. -/
theorem hostOps2_main_v112 (W : Valuation τ sig (Elt F)) :
    after hostOps2 W (no_index (Proc.devRef .tc main_v112)) = (transpose S128x128 [1, 0] (W (Proc.devRef .tc main_arg9)) transposes_S128x128_S128x128_1_0 : 𝕋[S128x128, .f32]) := by
  simp only [hostOps2]
  after_results_simp

set_option maxRecDepth 16384 in
set_option maxHeartbeats 4000000 in
/-- The output layer's weights transposed. -/
theorem hostOps2_main_v113 (W : Valuation τ sig (Elt F)) :
    after hostOps2 W (no_index (Proc.devRef .tc main_v113)) = (transpose S128x64 [1, 0] (W (Proc.devRef .tc main_arg11)) transposes_S64x128_S128x64_1_0 : 𝕋[S128x64, .f32]) := by
  simp only [hostOps2]
  after_results_simp

set_option maxRecDepth 16384 in
set_option maxHeartbeats 4000000 in
/-- The square dense layer's bias row. -/
theorem hostOps2_main_v114 (W : Valuation τ sig (Elt F)) :
    after hostOps2 W (no_index (Proc.devRef .tc main_v114)) = asRow (W (Proc.devRef .tc main_arg10)) := by
  simp only [hostOps2]
  after_results_simp
  rfl

set_option maxRecDepth 16384 in
set_option maxHeartbeats 4000000 in
/-- The output layer's bias row. -/
theorem hostOps2_main_v115 (W : Valuation τ sig (Elt F)) :
    after hostOps2 W (no_index (Proc.devRef .tc main_v115)) = asRow64 (W (Proc.devRef .tc main_arg12)) := by
  simp only [hostOps2]
  after_results_simp
  rfl

end Cert.KernelIdeal.HandHost
-- ==== Proof.KIMatmul.lean ====
/- The kernel's two matrix products at the ideal values, read at an entry of the result: the sum, over the contracted
   coordinate, of the products of the operands' entries. -/
import proofs.«181888_j53283364274269_2_alg».proof.Proof.Gen.KernelIdeal
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx
open scoped BigOperators

/-! ## The 5000×128 by 128×128 product -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated from zero, at an entry of the result: the sum over the contracted coordinate of the products
    of the two operands' entries. -/
theorem matmul128_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## The 5000×128 by 128×64 product -/

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product accumulated from zero, at an entry of the result: the sum over the contracted coordinate of the products
    of the two operands' entries. -/
theorem matmul64_apply {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

end Cert.KernelIdeal.HandValue

end
-- ==== Proof.KIValue0.lean ====
/- What region 0's write-backs leave in its result array, at the ideal values: one whole-array function of the arrays the
   region reads, index by index. Each grid point writes back the block of that function over its rows; the blocks
   cover the array. -/
import proofs.«181888_j53283364274269_2_alg».proof.Proof.KIBodies0
import Idealize.ShloMosaic.Lib.Pipeline.Value
import Idealize.ShloMosaic.Lib.ValueIdx
import Idealize.ShloMosaic.Lib.ValueLayout
import Idealize.ShloMosaic.PureOps.Ideal.Laws
import proofs.«181888_j53283364274269_2_alg».proof.Proof.KIMatmul
set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The specification -/

/-- `max (x0 · w0 + x1 · w1 + x2 · w2 + b) 0`: three row-by-column products added in that order, the bias row added to every
    row, the negative entries replaced by zero. -/
def G0 (x0 x1 x2 : (⟨2, ![50000, 128]⟩ : Shape).Idx → Ideal .f32) (w0 w1 w2 : (⟨2, ![128, 128]⟩ : Shape).Idx → Ideal .f32) (b : (⟨2, ![1, 128]⟩ : Shape).Idx → Ideal .f32) : (⟨2, ![50000, 128]⟩ : Shape).Idx → Ideal .f32 :=
  fun i => max ((((∑ k : Fin 128, x0 (ix2 (i 0) k) * w0 (ix2 k (i 1))) + ∑ k : Fin 128, x1 (ix2 (i 0) k) * w1 (ix2 k (i 1))) + ∑ k : Fin 128, x2 (ix2 (i 0) k) * w2 (ix2 k (i 1))) + b (ix2 (0 : Fin 1) (i 1))) (Ideal.ofBits .f32 0x00000000#32)

theorem G0_apply (x0 x1 x2 : (⟨2, ![50000, 128]⟩ : Shape).Idx → Ideal .f32) (w0 w1 w2 : (⟨2, ![128, 128]⟩ : Shape).Idx → Ideal .f32) (b : (⟨2, ![1, 128]⟩ : Shape).Idx → Ideal .f32) (r : Fin 50000) (q : Fin 128) :
    G0 x0 x1 x2 w0 w1 w2 b (ix2 r q) = max ((((∑ k : Fin 128, x0 (ix2 r k) * w0 (ix2 k q)) + ∑ k : Fin 128, x1 (ix2 r k) * w1 (ix2 k q)) + ∑ k : Fin 128, x2 (ix2 r k) * w2 (ix2 k q)) + b (ix2 (0 : Fin 1) q)) (Ideal.ofBits .f32 0x00000000#32) := rfl

/-! ## The body's arithmetic at an index -/

/-- The body's value at an entry of the tile, from what its loaded blocks are: row `y 0` of each tile block is row `i 0`
    of its array, the weight and bias blocks are their arrays, and the entry's column is `i`'s. -/
theorem pay0_point (v0 v2 v5 : Vec Ideal S5000x128 .f32) (v8 v11 v14 : Vec Ideal S128x128 .f32) (v22 : Vec Ideal S1x128 .f32)
    (X0 X1 X2 : S50000x128.Idx → Ideal .f32) (W0 W1 W2 : S128x128.Idx → Ideal .f32) (B : S1x128.Idx → Ideal .f32)
    (y : S5000x128.Idx) (i : S50000x128.Idx)
    (h0 : ∀ (y' : S5000x128.Idx) (i' : S50000x128.Idx), (y' 0).val = (y 0).val → (i' 0).val = (i 0).val → (i' 1).val = (y' 1).val → v0 y' = X0 i')
    (h1 : ∀ (y' : S5000x128.Idx) (i' : S50000x128.Idx), (y' 0).val = (y 0).val → (i' 0).val = (i 0).val → (i' 1).val = (y' 1).val → v2 y' = X1 i')
    (h2 : ∀ (y' : S5000x128.Idx) (i' : S50000x128.Idx), (y' 0).val = (y 0).val → (i' 0).val = (i 0).val → (i' 1).val = (y' 1).val → v5 y' = X2 i')
    (h3 : ∀ z : S128x128.Idx, v8 z = W0 z) (h4 : ∀ z : S128x128.Idx, v11 z = W1 z) (h5 : ∀ z : S128x128.Idx, v14 z = W2 z)
    (h6 : ∀ z : S1x128.Idx, v22 z = B z) (hi : (i 1).val = (y 1).val) :
    k0_pay1 v0 v2 v5 v8 v11 v14 v22 y = G0 X0 X1 X2 W0 W1 W2 B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hi
  have e0 : ∀ k : Fin 128, v0 (ix2 p k) = X0 (ix2 r k) := fun k => h0 (ix2 p k) (ix2 r k) rfl rfl rfl
  have e1 : ∀ k : Fin 128, v2 (ix2 p k) = X1 (ix2 r k) := fun k => h1 (ix2 p k) (ix2 r k) rfl rfl rfl
  have e2 : ∀ k : Fin 128, v5 (ix2 p k) = X2 (ix2 r k) := fun k => h2 (ix2 p k) (ix2 r k) rfl rfl rfl
  rw [G0_apply]
  unfold k0_pay1
  simp only [shapeCast_self]
  rw [maximumf_apply, addf_apply, addf_apply, addf_apply, matmul128_apply, matmul128_apply, matmul128_apply,
    broadcastTo_1b_ab_apply, broadcast_apply]
  simp only [truncf_apply, e0, e1, e2, h3, h4, h5, h6]
  rfl

/-! ## From blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The windows' block indices at each grid point: the three tiles and the result move down the rows with the point; the
    weights and the bias stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

set_option maxHeartbeats 1000000 in
/-- What point `t` writes back is block `t` of `G0` of the arrays as the region finds them. -/
theorem flushed0_eq (c : Dev nD) (t : Fin cfg0.N) :
    (dat0 (F := Ideal) V c).flushed 7 t = ((cfg0.win 7).blk t).view.read (Elt Ideal)
      (G0 (V c main_arg0) (V c main_v26) (V c main_v46) (V c main_v48) (V c main_v49) (V c main_v50) (V c main_v51)) := by
  show (cfg0.win 7).cut (grid0.coords t) ((dat0 V c).after 7 t) = _
  rw [after0_7]
  unfold out0_7
  rw [View.canon_unit_zero hz0]
  simp only [View.ld_unit_zero (S := S5000x128) hz0, View.ld_unit_zero (S := S128x128) hz0, View.ld_unit_zero (S := S1x128) hz0]
  obtain ⟨e00, e01, e10, e11, e20, e21, e30, e31, e40, e41, e50, e51, e60, e61, e70, e71⟩ := idx_facts0 t
  funext j
  show k0_pay1 (iblk0 V c 0 t) (iblk0 V c 1 t) (iblk0 V c 2 t) (iblk0 V c 3 t) (iblk0 V c 4 t) (iblk0 V c 5 t) (iblk0 V c 6 t) j
    = G0 (V c main_arg0) (V c main_v26) (V c main_v46) (V c main_v48) (V c main_v49) (V c main_v50) (V c main_v51) (((cfg0.win 7).blk t).view.emb j)
  refine pay0_point _ _ _ _ _ _ _ _ _ _ _ _ _ _ j _ ?_ ?_ ?_ ?_ ?_ ?_ ?_ ?_
  · intro y' i' hy hi0 hi1
    have hi0' : (i' 0).val = win0_7.index t (0 : Fin 2) * 5000 + 1 * (j 0).val := hi0
    show V c main_arg0 (((cfg0.win 0).blk t).view.emb y') = V c main_arg0 i'
    refine congrArg _ (funext fun a => Fin.ext ?_)
    match a with
    | ⟨0, _⟩ => show win0_0.index t (0 : Fin 2) * 5000 + 1 * (y' 0).val = (i' 0).val; omega
    | ⟨1, _⟩ => show win0_0.index t (1 : Fin 2) * 128 + 1 * (y' 1).val = (i' 1).val; omega
  · intro y' i' hy hi0 hi1
    have hi0' : (i' 0).val = win0_7.index t (0 : Fin 2) * 5000 + 1 * (j 0).val := hi0
    show V c main_v26 (((cfg0.win 1).blk t).view.emb y') = V c main_v26 i'
    refine congrArg _ (funext fun a => Fin.ext ?_)
    match a with
    | ⟨0, _⟩ => show win0_1.index t (0 : Fin 2) * 5000 + 1 * (y' 0).val = (i' 0).val; omega
    | ⟨1, _⟩ => show win0_1.index t (1 : Fin 2) * 128 + 1 * (y' 1).val = (i' 1).val; omega
  · intro y' i' hy hi0 hi1
    have hi0' : (i' 0).val = win0_7.index t (0 : Fin 2) * 5000 + 1 * (j 0).val := hi0
    show V c main_v46 (((cfg0.win 2).blk t).view.emb y') = V c main_v46 i'
    refine congrArg _ (funext fun a => Fin.ext ?_)
    match a with
    | ⟨0, _⟩ => show win0_2.index t (0 : Fin 2) * 5000 + 1 * (y' 0).val = (i' 0).val; omega
    | ⟨1, _⟩ => show win0_2.index t (1 : Fin 2) * 128 + 1 * (y' 1).val = (i' 1).val; omega
  · intro z
    show V c main_v48 (((cfg0.win 3).blk t).view.emb z) = V c main_v48 z
    refine congrArg _ (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  · intro z
    show V c main_v49 (((cfg0.win 4).blk t).view.emb z) = V c main_v49 z
    refine congrArg _ (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  · intro z
    show V c main_v50 (((cfg0.win 5).blk t).view.emb z) = V c main_v50 z
    refine congrArg _ (funext fun a => Fin.ext ?_)
    match a with
    | ⟨0, _⟩ => show win0_5.index t (0 : Fin 2) * 128 + 1 * (z 0).val = (z 0).val; omega
    | ⟨1, _⟩ => show win0_5.index t (1 : Fin 2) * 128 + 1 * (z 1).val = (z 1).val; omega
  · intro z
    show V c main_v51 (((cfg0.win 6).blk t).view.emb z) = V c main_v51 z
    refine congrArg _ (funext fun a => Fin.ext ?_)
    match a with
    | ⟨0, _⟩ => show win0_6.index t (0 : Fin 2) * 1 + 1 * (z 0).val = (z 0).val; omega
    | ⟨1, _⟩ => show win0_6.index t (1 : Fin 2) * 128 + 1 * (z 1).val = (z 1).val; omega
  · show win0_7.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v52).slice (win0_7.rect t)).set ↔ _
  rw [View.set_slice_whole, Rect.mem_set_unit]
  exact Iff.rfl

/-- Row `r` of the result array is in the block of point `r / 5000`. -/
theorem cover0 (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, -, -, -, -, e70, e71⟩ := idx_facts0 ⟨(i 0).val / 5000, ht⟩
  refine ⟨⟨(i 0).val / 5000, ht⟩, flush0_7 _, ?_⟩
  rw [mem_blk0]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win0_7.index ⟨(i 0).val / 5000, ht⟩ (1 : Fin 2) * 128 ≤ (i 1).val ∧ (i 1).val < win0_7.index ⟨(i 0).val / 5000, ht⟩ (1 : Fin 2) * 128 + 128
    rw [e71]; omega

/-- The result array after the region: `G0` of the arrays as the region finds them. -/
theorem final0 (c : Dev nD) : (dat0 (F := Ideal) V c).arrAt 7 cfg0.N
    = G0 (V c main_arg0) (V c main_v26) (V c main_v46) (V c main_v48) (V c main_v49) (V c main_v50) (V c main_v51) :=
  (dat0 (F := Ideal) V c).arrAt_eq_of_cover 7 _ (fun t _ => flushed0_eq V c t) cover0

end Cert.KernelIdeal.HandValue

end
-- ==== Proof.KIValue1.lean ====
/- What region 1's write-backs leave in its result array, at the ideal values: one whole-array function of the arrays the
   region reads, index by index. Each grid point writes back the block of that function over its rows; the blocks
   cover the array. -/
import proofs.«181888_j53283364274269_2_alg».proof.Proof.KIBodies1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

/-! ## The specification -/

/-- `x * scale + shift`, the scale and shift rows broadcast down the rows of `x`. -/
def G1 (x : (⟨2, ![50000, 128]⟩ : Shape).Idx → Ideal .f32) (s t : (⟨2, ![1, 128]⟩ : Shape).Idx → Ideal .f32) :
    (⟨2, ![50000, 128]⟩ : Shape).Idx → Ideal .f32 :=
  fun i => x i * s (ix2 (0 : Fin 1) (i 1)) + t (ix2 (0 : Fin 1) (i 1))

theorem G1_apply (x : (⟨2, ![50000, 128]⟩ : Shape).Idx → Ideal .f32) (s t : (⟨2, ![1, 128]⟩ : Shape).Idx → Ideal .f32)
    (p : Fin 50000) (q : Fin 128) :
    G1 x s t (ix2 p q) = x (ix2 p q) * s (ix2 (0 : Fin 1) q) + t (ix2 (0 : Fin 1) q) := rfl

/-! ## The body's arithmetic at an index -/

/-- The body's value at an index of the tile, from what its loaded blocks are there: the tile entry times the scale
    row's entry of that column plus the shift row's. -/
theorem pay1_point (x0 : Vec Ideal S5000x128 .f32) (x1 x2 : Vec Ideal S1x128 .f32)
    (X : S50000x128.Idx → Ideal .f32) (S T : S1x128.Idx → Ideal .f32)
    (y : S5000x128.Idx) (i : S50000x128.Idx)
    (h0 : x0 y = X i)
    (h1 : ∀ z : S1x128.Idx, x1 z = S z) (h2 : ∀ z : S1x128.Idx, x2 z = T z)
    (hi : (i 1).val = (y 1).val) :
    k1_pay1 x0 x1 x2 y = G1 X S T i := by
  obtain ⟨p, q, rfl⟩ : ∃ (p : Fin 5000) (q : Fin 128), y = ix2 p q := ⟨y 0, y 1, eq_ix2 y⟩
  have hq : i 1 = q := Fin.ext hi
  unfold k1_pay1 G1
  simp only [shapeCast_self]
  rw [addf_apply, mulf_apply, broadcastTo_1b_ab_apply, broadcastTo_1b_ab_apply, h0, h1, h2, hq]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The windows' block indices at each grid point: the tile and the result move down the rows with the point; the
    scale and shift rows stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1000000 in
/-- What point `t` writes back is block `t` of `G1` of the arrays as the region finds them. -/
theorem flushed1_eq (c : Dev nD) (t : Fin cfg1.N) :
    (dat1 (F := Ideal) V c).flushed 3 t = ((cfg1.win 3).blk t).view.read (Elt Ideal)
      (G1 (V c main_v52) (V c main_v65) (V c main_v66)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e00, e01, e10, e11, e20, e21, e30, e31⟩ := idx_facts1 t
  funext j
  show k1_pay1 (iblk1 V c 0 t) (iblk1 V c 1 t) (iblk1 V c 2 t) j
    = G1 (V c main_v52) (V c main_v65) (V c main_v66) (((cfg1.win 3).blk t).view.emb j)
  refine pay1_point _ _ _ _ _ _ j _ ?_ ?_ ?_ ?_
  · show V c main_v52 (((cfg1.win 0).blk t).view.emb j) = V c main_v52 (((cfg1.win 3).blk t).view.emb j)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · intro z
    show V c main_v65 (((cfg1.win 1).blk t).view.emb z) = V c main_v65 z
    refine congrArg _ (funext fun a => Fin.ext ?_)
    have hz0 : (z 0).val < 1 := (z 0).isLt
    match a with
    | ⟨0, _⟩ => show win1_1.index t (0 : Fin 2) * 1 + 1 * (z 0).val = (z 0).val; omega
    | ⟨1, _⟩ => show win1_1.index t (1 : Fin 2) * 128 + 1 * (z 1).val = (z 1).val; omega
  · intro z
    show V c main_v66 (((cfg1.win 2).blk t).view.emb z) = V c main_v66 z
    refine congrArg _ (funext fun a => Fin.ext ?_)
    match a with
    | ⟨0, _⟩ => show win1_2.index t (0 : Fin 2) * 1 + 1 * (z 0).val = (z 0).val; omega
    | ⟨1, _⟩ => show win1_2.index t (1 : Fin 2) * 128 + 1 * (z 1).val = (z 1).val; omega
  · show win1_3.index t (1 : Fin 2) * 128 + 1 * (j 1).val = (j 1).val; omega

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v67).slice (win1_3.rect t)).set ↔ _
  rw [View.set_slice_whole, Rect.mem_set_unit]
  exact Iff.rfl

/-- Row `r` of the result array is in the block of point `r / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [e31]; omega

/-- The result array after the region: `G1` of the arrays as the region finds them. -/
theorem final1 (c : Dev nD) : (dat1 (F := Ideal) V c).arrAt 3 cfg1.N
    = G1 (V c main_v52) (V c main_v65) (V c main_v66) :=
  (dat1 (F := Ideal) V c).arrAt_eq_of_cover 3 _ (fun t _ => flushed1_eq V c t) cover1

end Cert.KernelIdeal.HandValue

end
-- ==== Proof.KIValue2.lean ====
/- What region 2's write-backs leave in its result array, at the ideal values: one whole-array function of the arrays the
   region reads, index by index. Each grid point writes back the block of that function over its rows; the blocks
   cover the array. -/
import proofs.«181888_j53283364274269_2_alg».proof.Proof.KIBodies2
import Idealize.ShloMosaic.Lib.Pipeline.Value
import Idealize.ShloMosaic.Lib.ValueIdx
import Idealize.ShloMosaic.Lib.ValueLayout
import Idealize.ShloMosaic.PureOps.Ideal.Laws
import proofs.«181888_j53283364274269_2_alg».proof.Proof.KIMatmul
set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Idealize.SL Idealize.SL.RA
open scoped BigOperators

/-! ## The specification -/

/-- The first layer with its residual: `max (x0 · w3 + x1 · w4 + x2 · w5 + b6) 0 + x7`. -/
def L1 (x0 x1 x2 : (⟨2, ![50000, 128]⟩ : Shape).Idx → Ideal .f32) (w3 w4 w5 : (⟨2, ![128, 128]⟩ : Shape).Idx → Ideal .f32) (b6 : (⟨2, ![1, 128]⟩ : Shape).Idx → Ideal .f32) (x7 : (⟨2, ![50000, 128]⟩ : Shape).Idx → Ideal .f32) : (⟨2, ![50000, 128]⟩ : Shape).Idx → Ideal .f32 :=
  fun i => max ((((∑ k : Fin 128, x0 (ix2 (i 0) k) * w3 (ix2 k (i 1))) + ∑ k : Fin 128, x1 (ix2 (i 0) k) * w4 (ix2 k (i 1))) + ∑ k : Fin 128, x2 (ix2 (i 0) k) * w5 (ix2 k (i 1))) + b6 (ix2 (0 : Fin 1) (i 1))) (Ideal.ofBits .f32 0x00000000#32) + x7 (ix2 (i 0) (i 1))

theorem L1_apply (x0 x1 x2 : (⟨2, ![50000, 128]⟩ : Shape).Idx → Ideal .f32) (w3 w4 w5 : (⟨2, ![128, 128]⟩ : Shape).Idx → Ideal .f32) (b6 : (⟨2, ![1, 128]⟩ : Shape).Idx → Ideal .f32) (x7 : (⟨2, ![50000, 128]⟩ : Shape).Idx → Ideal .f32) (r : Fin 50000) (q : Fin 128) :
    L1 x0 x1 x2 w3 w4 w5 b6 x7 (ix2 r q) = max ((((∑ k : Fin 128, x0 (ix2 r k) * w3 (ix2 k q)) + ∑ k : Fin 128, x1 (ix2 r k) * w4 (ix2 k q)) + ∑ k : Fin 128, x2 (ix2 r k) * w5 (ix2 k q)) + b6 (ix2 (0 : Fin 1) q)) (Ideal.ofBits .f32 0x00000000#32) + x7 (ix2 r q) := rfl

/-- The second layer: `max (h · w8 + b9) 0`. -/
def L2 (h : (⟨2, ![50000, 128]⟩ : Shape).Idx → Ideal .f32) (w8 : (⟨2, ![128, 128]⟩ : Shape).Idx → Ideal .f32) (b9 : (⟨2, ![1, 128]⟩ : Shape).Idx → Ideal .f32) : (⟨2, ![50000, 128]⟩ : Shape).Idx → Ideal .f32 :=
  fun i => max ((∑ k : Fin 128, h (ix2 (i 0) k) * w8 (ix2 k (i 1))) + b9 (ix2 (0 : Fin 1) (i 1))) (Ideal.ofBits .f32 0x00000000#32)

theorem L2_apply (h : (⟨2, ![50000, 128]⟩ : Shape).Idx → Ideal .f32) (w8 : (⟨2, ![128, 128]⟩ : Shape).Idx → Ideal .f32) (b9 : (⟨2, ![1, 128]⟩ : Shape).Idx → Ideal .f32) (r : Fin 50000) (q : Fin 128) :
    L2 h w8 b9 (ix2 r q) = max ((∑ k : Fin 128, h (ix2 r k) * w8 (ix2 k q)) + b9 (ix2 (0 : Fin 1) q)) (Ideal.ofBits .f32 0x00000000#32) := rfl

/-- The result: the second layer of the first, times `w10`, plus the bias row `b11`. -/
def G2 (x0 x1 x2 : (⟨2, ![50000, 128]⟩ : Shape).Idx → Ideal .f32) (w3 w4 w5 : (⟨2, ![128, 128]⟩ : Shape).Idx → Ideal .f32) (b6 : (⟨2, ![1, 128]⟩ : Shape).Idx → Ideal .f32) (x7 : (⟨2, ![50000, 128]⟩ : Shape).Idx → Ideal .f32) (w8 : (⟨2, ![128, 128]⟩ : Shape).Idx → Ideal .f32) (b9 : (⟨2, ![1, 128]⟩ : Shape).Idx → Ideal .f32)
    (w10 : (⟨2, ![128, 64]⟩ : Shape).Idx → Ideal .f32) (b11 : (⟨2, ![1, 64]⟩ : Shape).Idx → Ideal .f32) : (⟨2, ![50000, 64]⟩ : Shape).Idx → Ideal .f32 :=
  fun i => (∑ k : Fin 128, L2 (L1 x0 x1 x2 w3 w4 w5 b6 x7) w8 b9 (ix2 (i 0) k) * w10 (ix2 k (i 1))) + b11 (ix2 (0 : Fin 1) (i 1))

theorem G2_apply (x0 x1 x2 : (⟨2, ![50000, 128]⟩ : Shape).Idx → Ideal .f32) (w3 w4 w5 : (⟨2, ![128, 128]⟩ : Shape).Idx → Ideal .f32) (b6 : (⟨2, ![1, 128]⟩ : Shape).Idx → Ideal .f32) (x7 : (⟨2, ![50000, 128]⟩ : Shape).Idx → Ideal .f32) (w8 : (⟨2, ![128, 128]⟩ : Shape).Idx → Ideal .f32) (b9 : (⟨2, ![1, 128]⟩ : Shape).Idx → Ideal .f32)
    (w10 : (⟨2, ![128, 64]⟩ : Shape).Idx → Ideal .f32) (b11 : (⟨2, ![1, 64]⟩ : Shape).Idx → Ideal .f32) (r : Fin 50000) (q : Fin 64) :
    G2 x0 x1 x2 w3 w4 w5 b6 x7 w8 b9 w10 b11 (ix2 r q)
      = (∑ k : Fin 128, L2 (L1 x0 x1 x2 w3 w4 w5 b6 x7) w8 b9 (ix2 r k) * w10 (ix2 k q)) + b11 (ix2 (0 : Fin 1) q) := rfl

/-! ## The body's arithmetic at an index -/

/-- The first layer's value at an entry of the tile, rounded for the next product (no rounding at the ideal values). -/
theorem k2_pay2_apply (v0 v3 v6 : Vec Ideal S5000x128 .f32) (v9 v12 v15 : Vec Ideal S128x128 .f32) (v23 : Vec Ideal S1x128 .f32)
    (v29 : Vec Ideal S5000x128 .f32) (p : Fin 5000) (q : Fin 128) :
    k2_pay2 v0 v3 v6 v9 v12 v15 v23 v29 (ix2 p q)
      = max ((((∑ k : Fin 128, v0 (ix2 p k) * v9 (ix2 k q)) + ∑ k : Fin 128, v3 (ix2 p k) * v12 (ix2 k q)) + ∑ k : Fin 128, v6 (ix2 p k) * v15 (ix2 k q)) + v23 (ix2 (0 : Fin 1) q)) (Ideal.ofBits .f32 0x00000000#32) + v29 (ix2 p q) := by
  unfold k2_pay2
  simp only [shapeCast_self]
  rw [truncf_apply, addf_apply, maximumf_apply, addf_apply, addf_apply, addf_apply, matmul128_apply, matmul128_apply, matmul128_apply,
    broadcastTo_1b_ab_apply, broadcast_apply]
  simp only [truncf_apply]
  rfl

/-- The second layer's weights, rounded for the product. -/
theorem k2_pay3_apply (v33 : Vec Ideal S128x128 .f32) (z : S128x128.Idx) : k2_pay3 v33 z = v33 z := by
  unfold k2_pay3
  simp only [shapeCast_self]
  rfl

/-- The body's result at an entry of the tile, from the first layer `v32` and the second layer's weights `v35`. -/
theorem k2_pay1_apply (v32 : FVec Ideal S5000x128 .bf16) (v35 : FVec Ideal S128x128 .bf16) (v37 : Vec Ideal S1x128 .f32)
    (v44 : Vec Ideal S128x64 .f32) (v48 : Vec Ideal S1x64 .f32) (p : Fin 5000) (q : Fin 64) :
    k2_pay1 v32 v35 (constant (F := Ideal) S5000x128 .f32 0x00000000#32) v37 v44 v48 (ix2 p q)
      = (∑ k : Fin 128, max ((∑ k' : Fin 128, v32 (ix2 p k') * v35 (ix2 k' k)) + v37 (ix2 (0 : Fin 1) k)) (Ideal.ofBits .f32 0x00000000#32) * v44 (ix2 k q))
        + v48 (ix2 (0 : Fin 1) q) := by
  unfold k2_pay1
  simp only [shapeCast_self]
  rw [addf_apply, matmul64_apply, broadcastTo_1b_ab_apply]
  simp only [truncf_apply, maximumf_apply, addf_apply, matmul128_apply, broadcastTo_1b_ab_apply, broadcast_apply]
  rfl

/-- The body's value at an entry of the tile, from what its loaded blocks are: row `y 0` of each tile block is row `i 0`
    of its array, the weight and bias blocks are their arrays, and the entry's column is `i`'s. -/
theorem pay2_point (v0 v3 v6 : Vec Ideal S5000x128 .f32) (v9 v12 v15 : Vec Ideal S128x128 .f32) (v23 : Vec Ideal S1x128 .f32)
    (v29 : Vec Ideal S5000x128 .f32) (v33 : Vec Ideal S128x128 .f32) (v37 : Vec Ideal S1x128 .f32) (v44 : Vec Ideal S128x64 .f32)
    (v48 : Vec Ideal S1x64 .f32)
    (X0 X1 X2 : S50000x128.Idx → Ideal .f32) (W3 W4 W5 : S128x128.Idx → Ideal .f32) (B6 : S1x128.Idx → Ideal .f32)
    (X7 : S50000x128.Idx → Ideal .f32) (W8 : S128x128.Idx → Ideal .f32) (B9 : S1x128.Idx → Ideal .f32)
    (W10 : S128x64.Idx → Ideal .f32) (B11 : S1x64.Idx → Ideal .f32)
    (y : S5000x64.Idx) (i : S50000x64.Idx)
    (h0 : ∀ (y' : S5000x128.Idx) (i' : S50000x128.Idx), (y' 0).val = (y 0).val → (i' 0).val = (i 0).val → (i' 1).val = (y' 1).val → v0 y' = X0 i')
    (h1 : ∀ (y' : S5000x128.Idx) (i' : S50000x128.Idx), (y' 0).val = (y 0).val → (i' 0).val = (i 0).val → (i' 1).val = (y' 1).val → v3 y' = X1 i')
    (h2 : ∀ (y' : S5000x128.Idx) (i' : S50000x128.Idx), (y' 0).val = (y 0).val → (i' 0).val = (i 0).val → (i' 1).val = (y' 1).val → v6 y' = X2 i')
    (h3 : ∀ z : S128x128.Idx, v9 z = W3 z) (h4 : ∀ z : S128x128.Idx, v12 z = W4 z) (h5 : ∀ z : S128x128.Idx, v15 z = W5 z)
    (h6 : ∀ z : S1x128.Idx, v23 z = B6 z)
    (h7 : ∀ (y' : S5000x128.Idx) (i' : S50000x128.Idx), (y' 0).val = (y 0).val → (i' 0).val = (i 0).val → (i' 1).val = (y' 1).val → v29 y' = X7 i')
    (h8 : ∀ z : S128x128.Idx, v33 z = W8 z) (h9 : ∀ z : S1x128.Idx, v37 z = B9 z)
    (h10 : ∀ z : S128x64.Idx, v44 z = W10 z) (h11 : ∀ z : S1x64.Idx, v48 z = B11 z) (hi : (i 1).val = (y 1).val) :
    k2_pay1 (k2_pay2 v0 v3 v6 v9 v12 v15 v23 v29) (k2_pay3 v33) (constant (F := Ideal) S5000x128 .f32 0x00000000#32) v37 v44 v48 y
      = G2 X0 X1 X2 W3 W4 W5 B6 X7 W8 B9 W10 B11 i := by
  obtain ⟨p, q, rfl⟩ : ∃ (p : Fin 5000) (q : Fin 64), y = ix2 p q := ⟨y 0, y 1, eq_ix2 y⟩
  obtain ⟨r, s, rfl⟩ : ∃ (r : Fin 50000) (s : Fin 64), i = ix2 r s := ⟨i 0, i 1, eq_ix2 i⟩
  obtain rfl : s = q := Fin.ext hi
  have e0 : ∀ k : Fin 128, v0 (ix2 p k) = X0 (ix2 r k) := fun k => h0 (ix2 p k) (ix2 r k) rfl rfl rfl
  have e1 : ∀ k : Fin 128, v3 (ix2 p k) = X1 (ix2 r k) := fun k => h1 (ix2 p k) (ix2 r k) rfl rfl rfl
  have e2 : ∀ k : Fin 128, v6 (ix2 p k) = X2 (ix2 r k) := fun k => h2 (ix2 p k) (ix2 r k) rfl rfl rfl
  have e7 : ∀ k : Fin 128, v29 (ix2 p k) = X7 (ix2 r k) := fun k => h7 (ix2 p k) (ix2 r k) rfl rfl rfl
  rw [G2_apply, k2_pay1_apply]
  simp only [L2_apply, L1_apply, k2_pay2_apply, k2_pay3_apply, e0, e1, e2, e7, h3, h4, h5, h6, h8, h9, h10, h11]

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The windows' block indices at each grid point: the four tiles and the result move down the rows with the point; the
    weights and the biases stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = t.val ∧ win2_12.index t (1 : Fin 2) = 0 :=
  (by decide +kernel : ∀ t : Fin grid2.N, _)

set_option maxHeartbeats 1000000 in
/-- What point `t` writes back is block `t` of `G2` of the arrays as the region finds them (for any shares `q`). -/
theorem flushed2_eq (q : Fin cfg2.W → PosShare TreeShare) (c : Dev nD) (t : Fin cfg2.N) :
    (dat2 (F := Ideal) V q c).flushed 12 t = ((cfg2.win 12).blk t).view.read (Elt Ideal)
      (G2 (V c main_v67) (V c main_v86) (V c main_v106) (V c main_v108) (V c main_v109) (V c main_v110) (V c main_v111)
        (V c main_v67) (V c main_v112) (V c main_v114) (V c main_v113) (V c main_v115)) := by
  show (cfg2.win 12).cut (grid2.coords t) ((dat2 V q c).after 12 t) = _
  rw [after2_12]
  unfold out2_12
  rw [View.canon_unit_zero hz2]
  simp only [View.ld_unit_zero (S := S5000x128) hz2, View.ld_unit_zero (S := S128x128) hz2, View.ld_unit_zero (S := S1x128) hz2,
    View.ld_unit_zero (S := S128x64) hz2, View.ld_unit_zero (S := S1x64) hz2]
  obtain ⟨e00, e01, e10, e11, e20, e21, e30, e31, e40, e41, e50, e51, e60, e61, e70, e71, e80, e81, e90, e91, ea0, ea1, eb0, eb1, ec0, ec1⟩ := idx_facts2 t
  funext j
  show k2_pay1 (k2_pay2 (iblk2 V c 0 t) (iblk2 V c 1 t) (iblk2 V c 2 t) (iblk2 V c 3 t) (iblk2 V c 4 t) (iblk2 V c 5 t) (iblk2 V c 6 t) (iblk2 V c 7 t))
      (k2_pay3 (iblk2 V c 8 t)) (constant (F := Ideal) S5000x128 .f32 0x00000000#32) (iblk2 V c 9 t) (iblk2 V c 10 t) (iblk2 V c 11 t) j
    = G2 (V c main_v67) (V c main_v86) (V c main_v106) (V c main_v108) (V c main_v109) (V c main_v110) (V c main_v111)
        (V c main_v67) (V c main_v112) (V c main_v114) (V c main_v113) (V c main_v115) (((cfg2.win 12).blk t).view.emb j)
  refine pay2_point _ _ _ _ _ _ _ _ _ _ _ _ _ _ _ _ _ _ _ _ _ _ _ _ j _ ?_ ?_ ?_ ?_ ?_ ?_ ?_ ?_ ?_ ?_ ?_ ?_ ?_
  · intro y' i' hy hi0 hi1
    have hi0' : (i' 0).val = win2_12.index t (0 : Fin 2) * 5000 + 1 * (j 0).val := hi0
    show V c main_v67 (((cfg2.win 0).blk t).view.emb y') = V c main_v67 i'
    refine congrArg _ (funext fun a => Fin.ext ?_)
    match a with
    | ⟨0, _⟩ => show win2_0.index t (0 : Fin 2) * 5000 + 1 * (y' 0).val = (i' 0).val; omega
    | ⟨1, _⟩ => show win2_0.index t (1 : Fin 2) * 128 + 1 * (y' 1).val = (i' 1).val; omega
  · intro y' i' hy hi0 hi1
    have hi0' : (i' 0).val = win2_12.index t (0 : Fin 2) * 5000 + 1 * (j 0).val := hi0
    show V c main_v86 (((cfg2.win 1).blk t).view.emb y') = V c main_v86 i'
    refine congrArg _ (funext fun a => Fin.ext ?_)
    match a with
    | ⟨0, _⟩ => show win2_1.index t (0 : Fin 2) * 5000 + 1 * (y' 0).val = (i' 0).val; omega
    | ⟨1, _⟩ => show win2_1.index t (1 : Fin 2) * 128 + 1 * (y' 1).val = (i' 1).val; omega
  · intro y' i' hy hi0 hi1
    have hi0' : (i' 0).val = win2_12.index t (0 : Fin 2) * 5000 + 1 * (j 0).val := hi0
    show V c main_v106 (((cfg2.win 2).blk t).view.emb y') = V c main_v106 i'
    refine congrArg _ (funext fun a => Fin.ext ?_)
    match a with
    | ⟨0, _⟩ => show win2_2.index t (0 : Fin 2) * 5000 + 1 * (y' 0).val = (i' 0).val; omega
    | ⟨1, _⟩ => show win2_2.index t (1 : Fin 2) * 128 + 1 * (y' 1).val = (i' 1).val; omega
  · intro z
    show V c main_v108 (((cfg2.win 3).blk t).view.emb z) = V c main_v108 z
    refine congrArg _ (funext fun a => Fin.ext ?_)
    match a with
    | ⟨0, _⟩ => show win2_3.index t (0 : Fin 2) * 128 + 1 * (z 0).val = (z 0).val; omega
    | ⟨1, _⟩ => show win2_3.index t (1 : Fin 2) * 128 + 1 * (z 1).val = (z 1).val; omega
  · intro z
    show V c main_v109 (((cfg2.win 4).blk t).view.emb z) = V c main_v109 z
    refine congrArg _ (funext fun a => Fin.ext ?_)
    match a with
    | ⟨0, _⟩ => show win2_4.index t (0 : Fin 2) * 128 + 1 * (z 0).val = (z 0).val; omega
    | ⟨1, _⟩ => show win2_4.index t (1 : Fin 2) * 128 + 1 * (z 1).val = (z 1).val; omega
  · intro z
    show V c main_v110 (((cfg2.win 5).blk t).view.emb z) = V c main_v110 z
    refine congrArg _ (funext fun a => Fin.ext ?_)
    match a with
    | ⟨0, _⟩ => show win2_5.index t (0 : Fin 2) * 128 + 1 * (z 0).val = (z 0).val; omega
    | ⟨1, _⟩ => show win2_5.index t (1 : Fin 2) * 128 + 1 * (z 1).val = (z 1).val; omega
  · intro z
    show V c main_v111 (((cfg2.win 6).blk t).view.emb z) = V c main_v111 z
    refine congrArg _ (funext fun a => Fin.ext ?_)
    match a with
    | ⟨0, _⟩ => show win2_6.index t (0 : Fin 2) * 1 + 1 * (z 0).val = (z 0).val; omega
    | ⟨1, _⟩ => show win2_6.index t (1 : Fin 2) * 128 + 1 * (z 1).val = (z 1).val; omega
  · intro y' i' hy hi0 hi1
    have hi0' : (i' 0).val = win2_12.index t (0 : Fin 2) * 5000 + 1 * (j 0).val := hi0
    show V c main_v67 (((cfg2.win 7).blk t).view.emb y') = V c main_v67 i'
    refine congrArg _ (funext fun a => Fin.ext ?_)
    match a with
    | ⟨0, _⟩ => show win2_7.index t (0 : Fin 2) * 5000 + 1 * (y' 0).val = (i' 0).val; omega
    | ⟨1, _⟩ => show win2_7.index t (1 : Fin 2) * 128 + 1 * (y' 1).val = (i' 1).val; omega
  · intro z
    show V c main_v112 (((cfg2.win 8).blk t).view.emb z) = V c main_v112 z
    refine congrArg _ (funext fun a => Fin.ext ?_)
    match a with
    | ⟨0, _⟩ => show win2_8.index t (0 : Fin 2) * 128 + 1 * (z 0).val = (z 0).val; omega
    | ⟨1, _⟩ => show win2_8.index t (1 : Fin 2) * 128 + 1 * (z 1).val = (z 1).val; omega
  · intro z
    show V c main_v114 (((cfg2.win 9).blk t).view.emb z) = V c main_v114 z
    refine congrArg _ (funext fun a => Fin.ext ?_)
    match a with
    | ⟨0, _⟩ => show win2_9.index t (0 : Fin 2) * 1 + 1 * (z 0).val = (z 0).val; omega
    | ⟨1, _⟩ => show win2_9.index t (1 : Fin 2) * 128 + 1 * (z 1).val = (z 1).val; omega
  · intro z
    show V c main_v113 (((cfg2.win 10).blk t).view.emb z) = V c main_v113 z
    refine congrArg _ (funext fun a => Fin.ext ?_)
    match a with
    | ⟨0, _⟩ => show win2_10.index t (0 : Fin 2) * 128 + 1 * (z 0).val = (z 0).val; omega
    | ⟨1, _⟩ => show win2_10.index t (1 : Fin 2) * 64 + 1 * (z 1).val = (z 1).val; omega
  · intro z
    show V c main_v115 (((cfg2.win 11).blk t).view.emb z) = V c main_v115 z
    refine congrArg _ (funext fun a => Fin.ext ?_)
    match a with
    | ⟨0, _⟩ => show win2_11.index t (0 : Fin 2) * 1 + 1 * (z 0).val = (z 0).val; omega
    | ⟨1, _⟩ => show win2_11.index t (1 : Fin 2) * 64 + 1 * (z 1).val = (z 1).val; omega
  · show win2_12.index t (1 : Fin 2) * 64 + 1 * (j 1).val = (j 1).val; omega

/-- An index of the result array is in point `t`'s block iff each coordinate is in the block's range on its axis. -/
theorem mem_blk2 (t : Fin cfg2.N) (i : S50000x64.Idx) :
    i ∈ ((cfg2.win 12).blk t).view.set ↔ ∀ a : Fin 2, win2_12.index t a * S5000x64.size a ≤ (i a).val ∧ (i a).val < win2_12.index t a * S5000x64.size a + S5000x64.size a := by
  show i ∈ ((View.whole main_v116).slice (win2_12.rect t)).set ↔ _
  rw [View.set_slice_whole, Rect.mem_set_unit]
  exact Iff.rfl

/-- Row `r` of the result array is in the block of point `r / 5000`. -/
theorem cover2 (i : S50000x64.Idx) : ∃ t : Fin cfg2.N, (cfg2.win 12).flush t = true ∧ i ∈ ((cfg2.win 12).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, -, -, -, -, -, -, -, -, -, -, -, -, -, -, -, -, -, -, ec0, ec1⟩ := idx_facts2 ⟨(i 0).val / 5000, ht⟩
  refine ⟨⟨(i 0).val / 5000, ht⟩, flush2_12 _, ?_⟩
  rw [mem_blk2]
  intro a
  match a with
  | ⟨0, _⟩ =>
    show win2_12.index ⟨(i 0).val / 5000, ht⟩ (0 : Fin 2) * 5000 ≤ (i 0).val ∧ (i 0).val < win2_12.index ⟨(i 0).val / 5000, ht⟩ (0 : Fin 2) * 5000 + 5000
    rw [ec0]; show (i 0).val / 5000 * 5000 ≤ (i 0).val ∧ (i 0).val < (i 0).val / 5000 * 5000 + 5000; omega
  | ⟨1, _⟩ =>
    show win2_12.index ⟨(i 0).val / 5000, ht⟩ (1 : Fin 2) * 64 ≤ (i 1).val ∧ (i 1).val < win2_12.index ⟨(i 0).val / 5000, ht⟩ (1 : Fin 2) * 64 + 64
    rw [ec1]; omega

/-- The result array after the region: `G2` of the arrays as the region finds them (for any shares `q`). -/
theorem final2 (q : Fin cfg2.W → PosShare TreeShare) (c : Dev nD) : (dat2 (F := Ideal) V q c).arrAt 12 cfg2.N
    = G2 (V c main_v67) (V c main_v86) (V c main_v106) (V c main_v108) (V c main_v109) (V c main_v110) (V c main_v111)
        (V c main_v67) (V c main_v112) (V c main_v114) (V c main_v113) (V c main_v115) :=
  (dat2 (F := Ideal) V q c).arrAt_eq_of_cover 12 _ (fun t _ => flushed2_eq V q c t) cover2

end Cert.KernelIdeal.HandValue

end
-- ==== Proof.KIOut.lean ====
/-
  The kernel program's result as a pure function of the argument arrays, at the exact instance: each region's output
  array is one whole-array function of the arrays the region found (the three value legs), and the arrays a region
  finds are the host stretches' functions of what the previous region left and of the arguments.
-/
import proofs.«181888_j53283364274269_2_alg».proof.Proof.KIRun
import proofs.«181888_j53283364274269_2_alg».proof.Proof.KIKeep
import proofs.«181888_j53283364274269_2_alg».proof.Proof.KIHost
import proofs.«181888_j53283364274269_2_alg».proof.Proof.KIValue0
import proofs.«181888_j53283364274269_2_alg».proof.Proof.KIValue1
import proofs.«181888_j53283364274269_2_alg».proof.Proof.KIValue2

set_option maxRecDepth 16384

noncomputable section

namespace Cert.KernelIdeal.HandOut

open Cert.KernelIdeal Cert.KernelIdeal.Gen Cert.KernelIdeal.Hand Cert.KernelIdeal.HandHost Cert.KernelIdeal.HandValue
open Idealize.ShloMosaic Idealize.ShloMosaic.TcCoe Idealize.SL.Sem Idealize.ShloMosaic.StableHlo

variable (m : (ℓ : Loc nD τ sig) → Buf (Elt Ideal) ℓ) (c : Dev nD)

/-- An argument array's launch contents on core `c`. -/
abbrev ag (r : Ref sig .tc) : Buf (Elt Ideal) ((c : Thread nD τ).loc r) := m ((c : Thread nD τ).loc r)

/-- The normalisation column `d`, and the two recurrence terms of the features. -/
abbrev dn := dinv (F := Ideal) (ag m c main_arg2)
abbrev t1 := cheb1 (F := Ideal) (dn m c) (ag m c main_arg1) (ag m c main_arg2) (ag m c main_arg0)
abbrev t2 := cheb2 (F := Ideal) (dn m c) (ag m c main_arg1) (ag m c main_arg2) (ag m c main_arg0) (t1 m c)

theorem B3_arg (r : Ref sig .tc) (h0 : r ∉ hostOps0_W) (h1 : r ∉ hostOps0_1_W) (h2 : r ∉ hostOps0_2_W) :
    E3 m c r = ag m c r := B3_of m c r h0 h1 h2

/-- The first region's output: the first graph layer before normalisation. -/
theorem o52_eq : o52 m c = G0 (ag m c main_arg0) (t1 m c) (t2 m c) (wBlk0 (ag m c main_arg3)) (wBlk1 (ag m c main_arg3))
    (wBlk2 (ag m c main_arg3)) (asRow (ag m c main_arg4)) := by
  have e0 : E3 m c main_arg0 = ag m c main_arg0 := B3_of m c main_arg0 (by decide) (by decide) (by decide)
  have e26 : E3 m c main_v26 = t1 m c := S0_main_v26 (fun b => m (c, b))
  have e46 : E3 m c main_v46 = t2 m c := S0_main_v46 (fun b => m (c, b))
  have e48 : E3 m c main_v48 = wBlk0 (ag m c main_arg3) := S0_main_v48 (fun b => m (c, b))
  have e49 : E3 m c main_v49 = wBlk1 (ag m c main_arg3) := S0_main_v49 (fun b => m (c, b))
  have e50 : E3 m c main_v50 = wBlk2 (ag m c main_arg3) := S0_main_v50 (fun b => m (c, b))
  have e51 : E3 m c main_v51 = asRow (ag m c main_arg4) := S0_main_v51 (fun b => m (c, b))
  unfold o52
  rw [final0 (E3 m) c, e0, e26, e46, e48, e49, e50, e51]

/-- What the second stretch group starts from, at the references it reads. -/
theorem W4_arg (r : Ref sig .tc) (h : r ∉ ([main_v52] : List (Ref sig .tc))) (h0 : r ∉ hostOps0_W) (h1 : r ∉ hostOps0_1_W)
    (h2 : r ∉ hostOps0_2_W) : B4 m (o52 m) c r = ag m c r :=
  (B4_of m (o52 m) c r h).trans (B3_of m c r h0 h1 h2)

/-- The second region's output: the layer normalised with the folded scale and shift. -/
theorem o67_eq : o67 m c = G1 (o52 m c) (asRow (scaleOf (var (o52 m c)) (ag m c main_arg7)))
    (asRow (shiftOf (mean (o52 m c)) (scaleOf (var (o52 m c)) (ag m c main_arg7)) (ag m c main_arg8))) := by
  have w52 : B4 m (o52 m) c main_v52 = o52 m c := B4_out m (o52 m) c
  have w7 : B4 m (o52 m) c main_arg7 = ag m c main_arg7 := W4_arg m c main_arg7 (by decide) (by decide) (by decide) (by decide)
  have w8 : B4 m (o52 m) c main_arg8 = ag m c main_arg8 := W4_arg m c main_arg8 (by decide) (by decide) (by decide) (by decide)
  have e52 : E7 m c main_v52 = o52 m c := (S1_keep (B4 m (o52 m) c) main_v52 (by decide) (by decide) (by decide)).trans w52
  have e65 : E7 m c main_v65 = asRow (scaleOf (var (o52 m c)) (ag m c main_arg7)) := by
    refine (S1_main_v65 (B4 m (o52 m) c)).trans ?_; rw [w52, w7]
  have e66 : E7 m c main_v66 = asRow (shiftOf (mean (o52 m c)) (scaleOf (var (o52 m c)) (ag m c main_arg7)) (ag m c main_arg8)) := by
    refine (S1_main_v66 (B4 m (o52 m) c)).trans ?_; rw [w52, w7, w8]
  unfold o67
  rw [final1 (E7 m) c, e52, e65, e66]

/-- What the last stretch starts from, at an argument it reads. -/
theorem W8_arg (r : Ref sig .tc) (h8 : r ∉ ([main_v67] : List (Ref sig .tc))) (h4 : r ∉ hostOps1_W) (h5 : r ∉ hostOps1_1_W)
    (h6 : r ∉ hostOps1_2_W) (h : r ∉ ([main_v52] : List (Ref sig .tc))) (h0 : r ∉ hostOps0_W) (h1 : r ∉ hostOps0_1_W)
    (h2 : r ∉ hostOps0_2_W) : B8 m (o52 m) (o67 m) c r = ag m c r :=
  (B8_of m (o52 m) (o67 m) c r h8).trans ((B7_of m (o52 m) c r h4 h5 h6).trans (W4_arg m c r h h0 h1 h2))

/-- The normalisation column is still there when the last stretch starts. -/
theorem W8_v7 : B8 m (o52 m) (o67 m) c main_v7 = dn m c :=
  (B8_of m (o52 m) (o67 m) c main_v7 (by decide)).trans ((B7_of m (o52 m) c main_v7 (by decide) (by decide) (by decide)).trans
    ((B4_of m (o52 m) c main_v7 (by decide)).trans (S0_main_v7 (fun b => m (c, b)))))

/-- The recurrence terms of the normalised layer `h`. -/
abbrev u1 (h : Buf (Elt Ideal) ((c : Thread nD τ).loc main_v67)) :=
  cheb1 (F := Ideal) (dn m c) (ag m c main_arg1) (ag m c main_arg2) h
abbrev u2 (h : Buf (Elt Ideal) ((c : Thread nD τ).loc main_v67)) :=
  cheb2 (F := Ideal) (dn m c) (ag m c main_arg1) (ag m c main_arg2) h (u1 m c h)

/-- The third region's output: the second graph layer with its residual, then the two dense layers. -/
theorem o116_eq : o116 m c = G2 (o67 m c) (u1 m c (o67 m c)) (u2 m c (o67 m c)) (wBlk0 (ag m c main_arg5)) (wBlk1 (ag m c main_arg5))
    (wBlk2 (ag m c main_arg5)) (asRow (ag m c main_arg6)) (o67 m c)
    (transpose S128x128 [1, 0] (ag m c main_arg9) transposes_S128x128_S128x128_1_0) (asRow (ag m c main_arg10))
    (transpose S128x64 [1, 0] (ag m c main_arg11) transposes_S64x128_S128x64_1_0) (asRow64 (ag m c main_arg12)) := by
  have w67 : B8 m (o52 m) (o67 m) c main_v67 = o67 m c := B8_out m (o52 m) (o67 m) c
  have w7 := W8_v7 m c
  have w1 : B8 m (o52 m) (o67 m) c main_arg1 = ag m c main_arg1 := W8_arg m c main_arg1 (by decide) (by decide) (by decide) (by decide) (by decide) (by decide) (by decide) (by decide)
  have w2 : B8 m (o52 m) (o67 m) c main_arg2 = ag m c main_arg2 := W8_arg m c main_arg2 (by decide) (by decide) (by decide) (by decide) (by decide) (by decide) (by decide) (by decide)
  have w5 : B8 m (o52 m) (o67 m) c main_arg5 = ag m c main_arg5 := W8_arg m c main_arg5 (by decide) (by decide) (by decide) (by decide) (by decide) (by decide) (by decide) (by decide)
  have w6 : B8 m (o52 m) (o67 m) c main_arg6 = ag m c main_arg6 := W8_arg m c main_arg6 (by decide) (by decide) (by decide) (by decide) (by decide) (by decide) (by decide) (by decide)
  have w9 : B8 m (o52 m) (o67 m) c main_arg9 = ag m c main_arg9 := W8_arg m c main_arg9 (by decide) (by decide) (by decide) (by decide) (by decide) (by decide) (by decide) (by decide)
  have w10 : B8 m (o52 m) (o67 m) c main_arg10 = ag m c main_arg10 := W8_arg m c main_arg10 (by decide) (by decide) (by decide) (by decide) (by decide) (by decide) (by decide) (by decide)
  have w11 : B8 m (o52 m) (o67 m) c main_arg11 = ag m c main_arg11 := W8_arg m c main_arg11 (by decide) (by decide) (by decide) (by decide) (by decide) (by decide) (by decide) (by decide)
  have w12 : B8 m (o52 m) (o67 m) c main_arg12 = ag m c main_arg12 := W8_arg m c main_arg12 (by decide) (by decide) (by decide) (by decide) (by decide) (by decide) (by decide) (by decide)
  have e67 : E9 m c main_v67 = o67 m c := (hostOps2_keep (B8 m (o52 m) (o67 m) c) main_v67 (by decide)).trans w67
  have e86 : E9 m c main_v86 = u1 m c (o67 m c) := by
    refine (hostOps2_main_v86 (B8 m (o52 m) (o67 m) c)).trans ?_; rw [w67, w7, w1, w2]
  have e106 : E9 m c main_v106 = u2 m c (o67 m c) := by
    refine (hostOps2_main_v106 (B8 m (o52 m) (o67 m) c)).trans ?_; rw [w67, w7, w1, w2]
  have e108 : E9 m c main_v108 = wBlk0 (ag m c main_arg5) := by
    refine (hostOps2_main_v108 (B8 m (o52 m) (o67 m) c)).trans ?_; rw [w5]
  have e109 : E9 m c main_v109 = wBlk1 (ag m c main_arg5) := by
    refine (hostOps2_main_v109 (B8 m (o52 m) (o67 m) c)).trans ?_; rw [w5]
  have e110 : E9 m c main_v110 = wBlk2 (ag m c main_arg5) := by
    refine (hostOps2_main_v110 (B8 m (o52 m) (o67 m) c)).trans ?_; rw [w5]
  have e111 : E9 m c main_v111 = asRow (ag m c main_arg6) := by
    refine (hostOps2_main_v111 (B8 m (o52 m) (o67 m) c)).trans ?_; rw [w6]
  have e112 : E9 m c main_v112 = transpose S128x128 [1, 0] (ag m c main_arg9) transposes_S128x128_S128x128_1_0 := by
    refine (hostOps2_main_v112 (B8 m (o52 m) (o67 m) c)).trans ?_; rw [w9]
  have e114 : E9 m c main_v114 = asRow (ag m c main_arg10) := by
    refine (hostOps2_main_v114 (B8 m (o52 m) (o67 m) c)).trans ?_; rw [w10]
  have e113 : E9 m c main_v113 = transpose S128x64 [1, 0] (ag m c main_arg11) transposes_S64x128_S128x64_1_0 := by
    refine (hostOps2_main_v113 (B8 m (o52 m) (o67 m) c)).trans ?_; rw [w11]
  have e115 : E9 m c main_v115 = asRow64 (ag m c main_arg12) := by
    refine (hostOps2_main_v115 (B8 m (o52 m) (o67 m) c)).trans ?_; rw [w12]
  unfold o116
  rw [final2 (E9 m) q2 c, e67, e86, e106, e108, e109, e110, e111, e112, e114, e113, e115]

end Cert.KernelIdeal.HandOut

end
-- ==== Proof.RefRun.lean ====
/- The reference program's run.  @main is a straight line of 188 host operations (its five
   calls unfolded at their sites over each call's own buffers).  The line is cut into eleven stretches, each the
   transcription of one mathematical step — the degree normalisation, the two Chebyshev recurrence steps of each
   graph layer, the dense layers, the batch statistics and the normalisation —, each step a small named function
   of the contents it reads.  Every weakly fair execution terminates with the result buffer at the composition
   `refOut` of those functions over the arguments' launch contents, and the arguments unchanged. -/
import proofs.«181888_j53283364274269_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a tensor of shape `S` and element type `e`. -/
local notation "𝕋[" S ", " e "]" => BufTy.Contents (Elt F) (BufTy.mk S e)

/-! ## The steps, as functions of the contents they read

Each is the printed operations' terms composed in the program's order, the float literals the printed words. -/

/-- In-degree: one scattered into a zero vector at every edge's destination. -/
def deg (dst : 𝕋[S800000, .i32]) : 𝕋[S50000, .f32] :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- `max lo x`, the bound a scalar broadcast over the vector. -/
def clipLo (x : 𝕋[S50000, .f32]) (lo : 𝕋[S_, .f32]) : 𝕋[S50000, .f32] :=
  maximumf (broadcastInDim S50000 ![] bcast_S_S50000 (id lo)) x

/-- `max(deg, 1) ^ (-1/2)`, as a column. -/
def dinv (dst : 𝕋[S800000, .i32]) : 𝕋[S50000x1, .f32] :=
  broadcastInDim S50000x1 ![0] bcast_S50000_S50000x1_0
    (Host.powf (clipLo (deg dst) (constant S_ .f32 0x3F800000#32))
      (broadcastInDim S50000 ![] bcast_S_S50000 (constant S_ .f32 0xBF000000#32)))

/-- A negative index counts from the end: `i < 0 ? i + 50000 : i`. -/
def wrapIdx (src : 𝕋[S800000, .i32]) : 𝕋[S800000, .i32] :=
  select (cmpi .slt src (broadcastInDim S800000 ![] bcast_S_S800000 (constantI S_ 32 0#32)))
    (addi src (broadcastInDim S800000 ![] bcast_S_S800000 (constantI S_ 32 50000#32))) src

/-- The column `d` across the 128 features. -/
def colB (d : 𝕋[S50000x1, .f32]) : 𝕋[S50000x128, .f32] :=
  broadcastInDim S50000x128 ![0, 1] bcast_S50000x1_S50000x128_0_1 d

/-- A scalar word across the `[50000, 128]` tensor. -/
def fill (w : BitVec 32) : 𝕋[S50000x128, .f32] :=
  broadcastInDim S50000x128 ![] bcast_S_S50000x128 (constant S_ .f32 w)

/-- The normalised adjacency applied: scale by `d`, gather the rows at the edges' sources, add them up at the
    edges' destinations, scale by `d` again. -/
def spmv (d : 𝕋[S50000x1, .f32]) (src dst : 𝕋[S800000, .i32]) (x : 𝕋[S50000x128, .f32]) : 𝕋[S50000x128, .f32] :=
  mulf
    (Host.scatterAdd scatter_S50000x128_S800000x1_S800000x128_1_0_0_1
      (fill 0x00000000#32)
      (broadcastInDim S800000x1 ![0] bcast_S800000_S800000x1_0 dst)
      (Host.gather gather_S50000x128_S800000x1_S800000x128_1_0_n_n_0_1_1128
        (mulf x (colB d))
        (broadcastInDim S800000x1 ![0] bcast_S800000_S800000x1_0 (wrapIdx src))))
    (colB d)

/-- The first recurrence step: `-1 · (A x) + x · 0`. -/
def cheb1 (d : 𝕋[S50000x1, .f32]) (src dst : 𝕋[S800000, .i32]) (x : 𝕋[S50000x128, .f32]) : 𝕋[S50000x128, .f32] :=
  addf (mulf (fill 0xBF800000#32) (spmv d src dst x)) (mulf x (fill 0x00000000#32))

/-- The second recurrence step: `(-2 · (A x₁) + x₁ · 0) - x₀`. -/
def cheb2 (d : 𝕋[S50000x1, .f32]) (src dst : 𝕋[S800000, .i32]) (x0 x1 : 𝕋[S50000x128, .f32]) : 𝕋[S50000x128, .f32] :=
  subf (addf (mulf (fill 0xC0000000#32) (spmv d src dst x1)) (mulf x1 (fill 0x00000000#32))) x0

/-- A vector of 128 as every row of the `[50000, 128]` tensor. -/
def row (v : 𝕋[S128, .f32]) : 𝕋[S50000x128, .f32] :=
  broadcastInDim S50000x128 ![0, 1] bcast_S1x128_S50000x128_0_1 (broadcastInDim S1x128 ![1] bcast_S128_S1x128_1 v)

/-- The dense layer over the three recurrence terms side by side: `[x₀ | x₁ | x₂] · wᵀ + b`. -/
def lin384 (x0 x1 x2 : 𝕋[S50000x128, .f32]) (w : 𝕋[S128x384, .f32]) (b : 𝕋[S128, .f32]) : 𝕋[S50000x128, .f32] :=
  addf
    (Host.dotGeneral dot_S50000x384_S384x128_S50000x128_1_0_0_1_n_n none
      (concatenate S50000x384 1 [⟨S50000x128, x0⟩, ⟨S50000x128, x1⟩, ⟨S50000x128, x2⟩] concatenates_S50000x128_S50000x128_S50000x128_S50000x384_d1)
      (transpose S384x128 [1, 0] w transposes_S128x384_S384x128_1_0))
    (row b)

/-- `max x 0`. -/
def relu (x : 𝕋[S50000x128, .f32]) : 𝕋[S50000x128, .f32] :=
  maximumf x (fill 0x00000000#32)

/-- The column means: the sum down the rows over 50000. -/
def mean (x : 𝕋[S50000x128, .f32]) : 𝕋[S128, .f32] :=
  Host.divf (Host.reduceAdd x (constant S_ .f32 0x00000000#32) reducesTo_S50000x128_S128_d0 h_S_)
    (broadcastInDim S128 ![] bcast_S_S128 (constant S_ .f32 0x47435000#32))

/-- The variance's divisor: `50000 - 0`, the correction converted from the integer zero. -/
def nMinusDdof : 𝕋[S_, .f32] :=
  subf (constant S_ .f32 0x47435000#32) (sitofp .f32 (constantI S_ 32 0#32))

/-- The column means as the variance computes them, a row. -/
def varMean (x : 𝕋[S50000x128, .f32]) : 𝕋[S1x128, .f32] :=
  Host.divf
    (broadcastInDim S1x128 ![1] bcast_S128_S1x128_1 (Host.reduceAdd x (constant S_ .f32 0x00000000#32) reducesTo_S50000x128_S128_d0 h_S_))
    (broadcastInDim S1x128 ![] bcast_S_S1x128 (constant S_ .f32 0x47435000#32))

/-- The tensor less its column means. -/
def centered (x : 𝕋[S50000x128, .f32]) : 𝕋[S50000x128, .f32] :=
  subf x (broadcastInDim S50000x128 ![0, 1] bcast_S1x128_S50000x128_0_1 (varMean x))

/-- The column variances: the squared deviations summed down the rows over the divisor, where the divisor is
    positive, and the quiet NaN elsewhere. -/
def var (x : 𝕋[S50000x128, .f32]) : 𝕋[S128, .f32] :=
  select (broadcastInDim S128 ![] bcast_S_S128 (cmpf .ogt (nMinusDdof (F := F)) (constant S_ .f32 0x00000000#32)))
    (Host.divf
      (Host.reduceAdd (mulf (centered x) (centered x)) (constant S_ .f32 0x00000000#32) reducesTo_S50000x128_S128_d0 h_S_)
      (broadcastInDim S128 ![] bcast_S_S128 (nMinusDdof (F := F))))
    (broadcastInDim S128 ![] bcast_S_S128 (id (constant S_ .f32 0x7FC00000#32)))

/-- The normalisation at given statistics: `(x - μ) · rsqrt(σ² + ε) · g + b`, row-wise. -/
def bnApply (x : 𝕋[S50000x128, .f32]) (mu sig2 g b : 𝕋[S128, .f32]) : 𝕋[S50000x128, .f32] :=
  addf
    (mulf
      (mulf (subf x (row mu))
        (row (Host.rsqrt (addf sig2 (broadcastInDim S128 ![] bcast_S_S128 (constant S_ .f32 0x3727C5AC#32))))))
      (row g))
    (row b)

/-- Batch normalisation over the rows. -/
def bn (x : 𝕋[S50000x128, .f32]) (g b : 𝕋[S128, .f32]) : 𝕋[S50000x128, .f32] :=
  bnApply x (mean x) (var x) g b

/-- The square dense layer: `x · wᵀ + b`. -/
def lin128 (x : 𝕋[S50000x128, .f32]) (w : 𝕋[S128x128, .f32]) (b : 𝕋[S128, .f32]) : 𝕋[S50000x128, .f32] :=
  addf
    (Host.dotGeneral dot_S50000x128_S128x128_S50000x128_1_0_0_1_n_n none x
      (transpose S128x128 [1, 0] w transposes_S128x128_S128x128_1_0))
    (row b)

/-- The output layer: `x · wᵀ + b`, 64 wide. -/
def lin64 (x : 𝕋[S50000x128, .f32]) (w : 𝕋[S64x128, .f32]) (b : 𝕋[S64, .f32]) : 𝕋[S50000x64, .f32] :=
  addf
    (Host.dotGeneral dot_S50000x128_S128x64_S50000x64_1_0_0_1_n_n none x
      (transpose S128x64 [1, 0] w transposes_S64x128_S128x64_1_0))
    (broadcastInDim S50000x64 ![0, 1] bcast_S1x64_S50000x64_0_1 (broadcastInDim S1x64 ![1] bcast_S64_S1x64_1 b))

/-- A graph layer's dense part over the three recurrence terms of `x`. -/
def chebLin (d : 𝕋[S50000x1, .f32]) (src dst : 𝕋[S800000, .i32]) (x : 𝕋[S50000x128, .f32])
    (w : 𝕋[S128x384, .f32]) (b : 𝕋[S128, .f32]) : 𝕋[S50000x128, .f32] :=
  lin384 x (cheb1 d src dst x) (cheb2 d src dst x (cheb1 d src dst x)) w b

/-- The first layer: the graph layer, rectified, normalised. -/
def layer1 (a0 : 𝕋[S50000x128, .f32]) (a1 a2 : 𝕋[S800000, .i32]) (a3 : 𝕋[S128x384, .f32]) (a4 a7 a8 : 𝕋[S128, .f32]) :
    𝕋[S50000x128, .f32] :=
  bn (relu (chebLin (dinv a2) a1 a2 a0 a3 a4)) a7 a8

/-- The second layer: the graph layer, rectified, plus its input. -/
def layer2 (h : 𝕋[S50000x128, .f32]) (a1 a2 : 𝕋[S800000, .i32]) (a5 : 𝕋[S128x384, .f32]) (a6 : 𝕋[S128, .f32]) :
    𝕋[S50000x128, .f32] :=
  addf (relu (chebLin (dinv a2) a1 a2 h a5 a6)) h

/-- The reference's result as a function of its thirteen arguments. -/
def refOut (a0 : 𝕋[S50000x128, .f32]) (a1 a2 : 𝕋[S800000, .i32]) (a3 : 𝕋[S128x384, .f32]) (a4 : 𝕋[S128, .f32])
    (a5 : 𝕋[S128x384, .f32]) (a6 a7 a8 : 𝕋[S128, .f32]) (a9 : 𝕋[S128x128, .f32]) (a10 : 𝕋[S128, .f32])
    (a11 : 𝕋[S64x128, .f32]) (a12 : 𝕋[S64, .f32]) : 𝕋[S50000x64, .f32] :=
  lin64 (relu (lin128 (layer2 (layer1 a0 a1 a2 a3 a4 a7 a8) a1 a2 a5 a6) a9 a10)) a11 a12

/-! ## @main as a list of operations -/

/-- @main's window `main_part0`: its operations in order, a call's being the callee's at the call's buffers. -/
abbrev ops_part0 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    TRef.unary (.of main_cst_1) main_call0.v0 id,
    TRef.unary main_call0.v0 main_call0.v1 (broadcastInDim S50000 ![] bcast_S_S50000),
    TRef.binary main_call0.v1 (.of main_v3) main_call0.v2 maximumf,
    nullary main_cst_2 (constant S_ .f32 0xBF000000#32),
    unary main_cst_2 main_v5 (broadcastInDim S50000 ![] bcast_S_S50000 : (⟨S_, .f32⟩ : BufTy).Contents (Elt F) → (⟨S50000, .f32⟩ : BufTy).Contents (Elt F)),
    binary main_v4 main_v5 main_v6 (Host.powf : (⟨S50000, .f32⟩ : BufTy).Contents (Elt F) → (⟨S50000, .f32⟩ : BufTy).Contents (Elt F) → (⟨S50000, .f32⟩ : BufTy).Contents (Elt F)),
    unary main_v6 main_v7 (broadcastInDim S50000x1 ![0] bcast_S50000_S50000x1_0 : (⟨S50000, .f32⟩ : BufTy).Contents (Elt F) → (⟨S50000x1, .f32⟩ : BufTy).Contents (Elt F)),
    unary main_v7 main_v8 (broadcastInDim S50000x128 ![0, 1] bcast_S50000x1_S50000x128_0_1 : (⟨S50000x1, .f32⟩ : BufTy).Contents (Elt F) → (⟨S50000x128, .f32⟩ : BufTy).Contents (Elt F)),
    binary main_arg0 main_v8 main_v9 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_arg1 main_v10 main_v11 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v12 (broadcastInDim S800000 ![] bcast_S_S800000 : (⟨S_, .i32⟩ : BufTy).Contents (Elt F) → (⟨S800000, .i32⟩ : BufTy).Contents (Elt F)),
    binary main_arg1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_arg1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v9 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v17 (broadcastInDim S50000x128 ![] bcast_S_S50000x128 : (⟨S_, .f32⟩ : BufTy).Contents (Elt F) → (⟨S50000x128, .f32⟩ : BufTy).Contents (Elt F)),
    unary main_arg2 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v20 (broadcastInDim S50000x128 ![0, 1] bcast_S50000x1_S50000x128_0_1 : (⟨S50000x1, .f32⟩ : BufTy).Contents (Elt F) → (⟨S50000x128, .f32⟩ : BufTy).Contents (Elt F)),
    binary main_v19 main_v20 main_v21 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0xBF800000#32),
    unary main_cst_5 main_v22 (broadcastInDim S50000x128 ![] bcast_S_S50000x128 : (⟨S_, .f32⟩ : BufTy).Contents (Elt F) → (⟨S50000x128, .f32⟩ : BufTy).Contents (Elt F)),
    binary main_v22 main_v21 main_v23 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    unary main_cst_6 main_v24 (broadcastInDim S50000x128 ![] bcast_S_S50000x128 : (⟨S_, .f32⟩ : BufTy).Contents (Elt F) → (⟨S50000x128, .f32⟩ : BufTy).Contents (Elt F)),
    binary main_arg0 main_v24 main_v25 (mulf : (⟨S50000x128, .f32⟩ : BufTy).Contents (Elt F) → (⟨S50000x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    unary main_v7 main_v27 (broadcastInDim S50000x128 ![0, 1] bcast_S50000x1_S50000x128_0_1 : (⟨S50000x1, .f32⟩ : BufTy).Contents (Elt F) → (⟨S50000x128, .f32⟩ : BufTy).Contents (Elt F)),
    binary main_v26 main_v27 main_v28 (mulf : (⟨S50000x128, .f32⟩ : BufTy).Contents (Elt F) → (⟨S50000x128, .f32⟩ : BufTy).Contents (Elt F) → (⟨S50000x128, .f32⟩ : BufTy).Contents (Elt F)),
    nullary main_c_7 (constantI S_ 32 0#32),
    unary main_c_7 main_v29 (broadcastInDim S800000 ![] bcast_S_S800000 : (⟨S_, .i32⟩ : BufTy).Contents (Elt F) → (⟨S800000, .i32⟩ : BufTy).Contents (Elt F)),
    binary main_arg1 main_v29 main_v30 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v31 (broadcastInDim S800000 ![] bcast_S_S800000 : (⟨S_, .i32⟩ : BufTy).Contents (Elt F) → (⟨S800000, .i32⟩ : BufTy).Contents (Elt F)),
    binary main_arg1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_arg1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v28 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v36 (broadcastInDim S50000x128 ![] bcast_S_S50000x128 : (⟨S_, .f32⟩ : BufTy).Contents (Elt F) → (⟨S50000x128, .f32⟩ : BufTy).Contents (Elt F)),
    unary main_arg2 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v39 (broadcastInDim S50000x128 ![0, 1] bcast_S50000x1_S50000x128_0_1 : (⟨S50000x1, .f32⟩ : BufTy).Contents (Elt F) → (⟨S50000x128, .f32⟩ : BufTy).Contents (Elt F)),
    binary main_v38 main_v39 main_v40 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0xC0000000#32),
    unary main_cst_10 main_v41 (broadcastInDim S50000x128 ![] bcast_S_S50000x128 : (⟨S_, .f32⟩ : BufTy).Contents (Elt F) → (⟨S50000x128, .f32⟩ : BufTy).Contents (Elt F)),
    binary main_v41 main_v40 main_v42 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    unary main_cst_11 main_v43 (broadcastInDim S50000x128 ![] bcast_S_S50000x128 : (⟨S_, .f32⟩ : BufTy).Contents (Elt F) → (⟨S50000x128, .f32⟩ : BufTy).Contents (Elt F)),
    binary main_v26 main_v43 main_v44 (mulf : (⟨S50000x128, .f32⟩ : BufTy).Contents (Elt F) → (⟨S50000x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)) ]

/-- @main's window `main_part1`: its operations in order, a call's being the callee's at the call's buffers. -/
abbrev ops_part1 : List (HloOp τ sig (Elt F)) :=
  [ binary main_v45 main_arg0 main_v46 (subf : (⟨S50000x128, .f32⟩ : BufTy).Contents (Elt F) → (⟨S50000x128, .f32⟩ : BufTy).Contents (Elt F) → (⟨S50000x128, .f32⟩ : BufTy).Contents (Elt F)),
    nary ![main_arg0, main_v26, main_v46] main_v47 (fun u => concatenate S50000x384 1 [⟨S50000x128, u 0⟩, ⟨S50000x128, u 1⟩, ⟨S50000x128, u 2⟩] concatenates_S50000x128_S50000x128_S50000x128_S50000x384_d1),
    unary main_arg3 main_v48 ((transpose S384x128 [1, 0] · transposes_S128x384_S384x128_1_0) : (⟨S128x384, .f32⟩ : BufTy).Contents (Elt F) → (⟨S384x128, .f32⟩ : BufTy).Contents (Elt F)),
    binary main_v47 main_v48 main_v49 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_arg4 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v52) main_call1.v0 main_call1.v1 maximumf,
    nullary main_cst_12 (constant S_ .f32 0x00000000#32),
    binary main_v53 main_cst_12 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    TRef.nullary main_call2.cst (constant S_ .f32 0x00000000#32),
    TRef.binary (.of main_v53) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v53) main_call2.v4 main_call2.v5 subf,
    TRef.binary main_call2.v5 main_call2.v5 main_call2.v6 mulf,
    TRef.unary (.of main_c_14) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v56 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v53 main_v59 main_v60 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg7 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (mulf : (⟨S50000x128, .f32⟩ : BufTy).Contents (Elt F) → (⟨S50000x128, .f32⟩ : BufTy).Contents (Elt F) → (⟨S50000x128, .f32⟩ : BufTy).Contents (Elt F)),
    unary main_arg8 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    unary main_v7 main_v73 (broadcastInDim S50000x128 ![0, 1] bcast_S50000x1_S50000x128_0_1 : (⟨S50000x1, .f32⟩ : BufTy).Contents (Elt F) → (⟨S50000x128, .f32⟩ : BufTy).Contents (Elt F)),
    binary main_v72 main_v73 main_v74 (mulf : (⟨S50000x128, .f32⟩ : BufTy).Contents (Elt F) → (⟨S50000x128, .f32⟩ : BufTy).Contents (Elt F) → (⟨S50000x128, .f32⟩ : BufTy).Contents (Elt F)),
    nullary main_c_16 (constantI S_ 32 0#32),
    unary main_c_16 main_v75 (broadcastInDim S800000 ![] bcast_S_S800000 : (⟨S_, .i32⟩ : BufTy).Contents (Elt F) → (⟨S800000, .i32⟩ : BufTy).Contents (Elt F)),
    binary main_arg1 main_v75 main_v76 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v77 (broadcastInDim S800000 ![] bcast_S_S800000 : (⟨S_, .i32⟩ : BufTy).Contents (Elt F) → (⟨S800000, .i32⟩ : BufTy).Contents (Elt F)),
    binary main_arg1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_arg1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v74 main_v80 main_v81 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_18 (constant S_ .f32 0x00000000#32),
    unary main_cst_18 main_v82 (broadcastInDim S50000x128 ![] bcast_S_S50000x128 : (⟨S_, .f32⟩ : BufTy).Contents (Elt F) → (⟨S50000x128, .f32⟩ : BufTy).Contents (Elt F)),
    unary main_arg2 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v85 (broadcastInDim S50000x128 ![0, 1] bcast_S50000x1_S50000x128_0_1 : (⟨S50000x1, .f32⟩ : BufTy).Contents (Elt F) → (⟨S50000x128, .f32⟩ : BufTy).Contents (Elt F)),
    binary main_v84 main_v85 main_v86 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0xBF800000#32),
    unary main_cst_19 main_v87 (broadcastInDim S50000x128 ![] bcast_S_S50000x128 : (⟨S_, .f32⟩ : BufTy).Contents (Elt F) → (⟨S50000x128, .f32⟩ : BufTy).Contents (Elt F)),
    binary main_v87 main_v86 main_v88 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    unary main_cst_20 main_v89 (broadcastInDim S50000x128 ![] bcast_S_S50000x128 : (⟨S_, .f32⟩ : BufTy).Contents (Elt F) → (⟨S50000x128, .f32⟩ : BufTy).Contents (Elt F)),
    binary main_v72 main_v89 main_v90 (mulf : (⟨S50000x128, .f32⟩ : BufTy).Contents (Elt F) → (⟨S50000x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)),
    unary main_v7 main_v92 (broadcastInDim S50000x128 ![0, 1] bcast_S50000x1_S50000x128_0_1 : (⟨S50000x1, .f32⟩ : BufTy).Contents (Elt F) → (⟨S50000x128, .f32⟩ : BufTy).Contents (Elt F)),
    binary main_v91 main_v92 main_v93 (mulf : (⟨S50000x128, .f32⟩ : BufTy).Contents (Elt F) → (⟨S50000x128, .f32⟩ : BufTy).Contents (Elt F) → (⟨S50000x128, .f32⟩ : BufTy).Contents (Elt F)),
    nullary main_c_21 (constantI S_ 32 0#32),
    unary main_c_21 main_v94 (broadcastInDim S800000 ![] bcast_S_S800000 : (⟨S_, .i32⟩ : BufTy).Contents (Elt F) → (⟨S800000, .i32⟩ : BufTy).Contents (Elt F)),
    binary main_arg1 main_v94 main_v95 (cmpi .slt : (⟨S800000, .i32⟩ : BufTy).Contents (Elt F) → (⟨S800000, .i32⟩ : BufTy).Contents (Elt F) → (⟨S800000, .i1⟩ : BufTy).Contents (Elt F)) ]

/-- @main's window `main_part2`: its operations in order, a call's being the callee's at the call's buffers. -/
abbrev ops_part2 : List (HloOp τ sig (Elt F)) :=
  [ nullary main_c_22 (constantI S_ 32 50000#32),
    unary main_c_22 main_v96 (broadcastInDim S800000 ![] bcast_S_S800000 : (⟨S_, .i32⟩ : BufTy).Contents (Elt F) → (⟨S800000, .i32⟩ : BufTy).Contents (Elt F)),
    binary main_arg1 main_v96 main_v97 (addi : (⟨S800000, .i32⟩ : BufTy).Contents (Elt F) → (⟨S800000, .i32⟩ : BufTy).Contents (Elt F) → (⟨S800000, .i32⟩ : BufTy).Contents (Elt F)),
    ternary main_v95 main_v97 main_arg1 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v98 main_v99 (broadcastInDim S800000x1 ![0] bcast_S800000_S800000x1_0 : (⟨S800000, .i32⟩ : BufTy).Contents (Elt F) → (⟨S800000x1, .i32⟩ : BufTy).Contents (Elt F)),
    binary main_v93 main_v99 main_v100 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_23 (constant S_ .f32 0x00000000#32),
    unary main_cst_23 main_v101 (broadcastInDim S50000x128 ![] bcast_S_S50000x128 : (⟨S_, .f32⟩ : BufTy).Contents (Elt F) → (⟨S50000x128, .f32⟩ : BufTy).Contents (Elt F)),
    unary main_arg2 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v104 (broadcastInDim S50000x128 ![0, 1] bcast_S50000x1_S50000x128_0_1 : (⟨S50000x1, .f32⟩ : BufTy).Contents (Elt F) → (⟨S50000x128, .f32⟩ : BufTy).Contents (Elt F)),
    binary main_v103 main_v104 main_v105 (mulf : (⟨S50000x128, .f32⟩ : BufTy).Contents (Elt F) → (⟨S50000x128, .f32⟩ : BufTy).Contents (Elt F) → (⟨S50000x128, .f32⟩ : BufTy).Contents (Elt F)),
    nullary main_cst_24 (constant S_ .f32 0xC0000000#32),
    unary main_cst_24 main_v106 (broadcastInDim S50000x128 ![] bcast_S_S50000x128 : (⟨S_, .f32⟩ : BufTy).Contents (Elt F) → (⟨S50000x128, .f32⟩ : BufTy).Contents (Elt F)),
    binary main_v106 main_v105 main_v107 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    unary main_cst_25 main_v108 (broadcastInDim S50000x128 ![] bcast_S_S50000x128 : (⟨S_, .f32⟩ : BufTy).Contents (Elt F) → (⟨S50000x128, .f32⟩ : BufTy).Contents (Elt F)),
    binary main_v91 main_v108 main_v109 (mulf : (⟨S50000x128, .f32⟩ : BufTy).Contents (Elt F) → (⟨S50000x128, .f32⟩ : BufTy).Contents (Elt F) → (⟨S50000x128, .f32⟩ : BufTy).Contents (Elt F)),
    binary main_v107 main_v109 main_v110 (addf : (⟨S50000x128, .f32⟩ : BufTy).Contents (Elt F) → (⟨S50000x128, .f32⟩ : BufTy).Contents (Elt F) → (⟨S50000x128, .f32⟩ : BufTy).Contents (Elt F)),
    binary main_v110 main_v72 main_v111 (subf : (⟨S50000x128, .f32⟩ : BufTy).Contents (Elt F) → (⟨S50000x128, .f32⟩ : BufTy).Contents (Elt F) → (⟨S50000x128, .f32⟩ : BufTy).Contents (Elt F)),
    nary ![main_v72, main_v91, main_v111] main_v112 (fun u => concatenate S50000x384 1 [⟨S50000x128, u 0⟩, ⟨S50000x128, u 1⟩, ⟨S50000x128, u 2⟩] concatenates_S50000x128_S50000x128_S50000x128_S50000x384_d1),
    unary main_arg5 main_v113 ((transpose S384x128 [1, 0] · transposes_S128x384_S384x128_1_0) : (⟨S128x384, .f32⟩ : BufTy).Contents (Elt F) → (⟨S384x128, .f32⟩ : BufTy).Contents (Elt F)),
    binary main_v112 main_v113 main_v114 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_arg6 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v114 main_v116 main_v117 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v117) main_call3.v0 main_call3.v1 maximumf,
    binary main_v118 main_v72 main_v119 (addf : (⟨S50000x128, .f32⟩ : BufTy).Contents (Elt F) → (⟨S50000x128, .f32⟩ : BufTy).Contents (Elt F) → (⟨S50000x128, .f32⟩ : BufTy).Contents (Elt F)),
    unary main_arg9 main_v120 ((transpose S128x128 [1, 0] · transposes_S128x128_S128x128_1_0) : (⟨S128x128, .f32⟩ : BufTy).Contents (Elt F) → (⟨S128x128, .f32⟩ : BufTy).Contents (Elt F)),
    binary main_v119 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v121 main_v123 main_v124 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v124) main_call4.v0 main_call4.v1 maximumf,
    unary main_arg11 main_v126 ((transpose S128x64 [1, 0] · transposes_S64x128_S128x64_1_0) : (⟨S64x128, .f32⟩ : BufTy).Contents (Elt F) → (⟨S128x64, .f32⟩ : BufTy).Contents (Elt F)),
    binary main_v125 main_v126 main_v127 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg12 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)) ]

/-- @main's 188 operations, in order. -/
abbrev ops : List (HloOp τ sig (Elt F)) :=
  ops_part0 ++ (ops_part1 ++ ops_part2)

set_option maxRecDepth 16384 in
/-- The window is that line: the callees' definitions unfolded at their calls, sequencing reassociated. -/
theorem main_part0_eq (c : Dev nD) : main_part0 (F := F) c = seq ops_part0 := by
  rfl

set_option maxRecDepth 16384 in
/-- The window is that line: the callees' definitions unfolded at their calls, sequencing reassociated. -/
theorem main_part1_eq (c : Dev nD) : main_part1 (F := F) c = seq ops_part1 := by
  rfl

set_option maxRecDepth 16384 in
/-- The window is that line: the callees' definitions unfolded at their calls, sequencing reassociated. -/
theorem main_part2_eq (c : Dev nD) : main_part2 (F := F) c = seq ops_part2 := by
  rfl

set_option maxRecDepth 16384 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_part0_sub : (ops_part0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub ..⟩

set_option maxRecDepth 16384 in
theorem ops_part1_sub : (ops_part1 : List (HloOp τ sig (Elt F))).Forall fun op => op.bufs ⊆ tcRefs τ sig :=
  ⟨binary_bufs_sub .., nary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub ..⟩

set_option maxRecDepth 16384 in
theorem ops_part2_sub : (ops_part2 : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., binary_bufs_sub .., binary_bufs_sub .., nary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-! ## The line, cut at its steps -/

/-- Operations 1 … 14: the degree normalisation. -/
def segA : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    TRef.unary (.of main_cst_1) main_call0.v0 id,
    TRef.unary main_call0.v0 main_call0.v1 (broadcastInDim S50000 ![] bcast_S_S50000),
    TRef.binary main_call0.v1 (.of main_v3) main_call0.v2 maximumf,
    nullary main_cst_2 (constant S_ .f32 0xBF000000#32),
    unary main_cst_2 main_v5 (broadcastInDim S50000 ![] bcast_S_S50000 : (⟨S_, .f32⟩ : BufTy).Contents (Elt F) → (⟨S50000, .f32⟩ : BufTy).Contents (Elt F)),
    binary main_v4 main_v5 main_v6 (Host.powf : (⟨S50000, .f32⟩ : BufTy).Contents (Elt F) → (⟨S50000, .f32⟩ : BufTy).Contents (Elt F) → (⟨S50000, .f32⟩ : BufTy).Contents (Elt F)),
    unary main_v6 main_v7 (broadcastInDim S50000x1 ![0] bcast_S50000_S50000x1_0 : (⟨S50000, .f32⟩ : BufTy).Contents (Elt F) → (⟨S50000x1, .f32⟩ : BufTy).Contents (Elt F)) ]

/-- Operations 15 … 38: the first layer's first recurrence step. -/
def segB : List (HloOp τ sig (Elt F)) :=
  [ unary main_v7 main_v8 (broadcastInDim S50000x128 ![0, 1] bcast_S50000x1_S50000x128_0_1 : (⟨S50000x1, .f32⟩ : BufTy).Contents (Elt F) → (⟨S50000x128, .f32⟩ : BufTy).Contents (Elt F)),
    binary main_arg0 main_v8 main_v9 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_arg1 main_v10 main_v11 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v12 (broadcastInDim S800000 ![] bcast_S_S800000 : (⟨S_, .i32⟩ : BufTy).Contents (Elt F) → (⟨S800000, .i32⟩ : BufTy).Contents (Elt F)),
    binary main_arg1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_arg1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v9 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_4 (constant S_ .f32 0x00000000#32),
    unary main_cst_4 main_v17 (broadcastInDim S50000x128 ![] bcast_S_S50000x128 : (⟨S_, .f32⟩ : BufTy).Contents (Elt F) → (⟨S50000x128, .f32⟩ : BufTy).Contents (Elt F)),
    unary main_arg2 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v20 (broadcastInDim S50000x128 ![0, 1] bcast_S50000x1_S50000x128_0_1 : (⟨S50000x1, .f32⟩ : BufTy).Contents (Elt F) → (⟨S50000x128, .f32⟩ : BufTy).Contents (Elt F)),
    binary main_v19 main_v20 main_v21 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0xBF800000#32),
    unary main_cst_5 main_v22 (broadcastInDim S50000x128 ![] bcast_S_S50000x128 : (⟨S_, .f32⟩ : BufTy).Contents (Elt F) → (⟨S50000x128, .f32⟩ : BufTy).Contents (Elt F)),
    binary main_v22 main_v21 main_v23 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    unary main_cst_6 main_v24 (broadcastInDim S50000x128 ![] bcast_S_S50000x128 : (⟨S_, .f32⟩ : BufTy).Contents (Elt F) → (⟨S50000x128, .f32⟩ : BufTy).Contents (Elt F)),
    binary main_arg0 main_v24 main_v25 (mulf : (⟨S50000x128, .f32⟩ : BufTy).Contents (Elt F) → (⟨S50000x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)) ]

/-- Operations 39 … 63: the first layer's second recurrence step. -/
def segC : List (HloOp τ sig (Elt F)) :=
  [ unary main_v7 main_v27 (broadcastInDim S50000x128 ![0, 1] bcast_S50000x1_S50000x128_0_1 : (⟨S50000x1, .f32⟩ : BufTy).Contents (Elt F) → (⟨S50000x128, .f32⟩ : BufTy).Contents (Elt F)),
    binary main_v26 main_v27 main_v28 (mulf : (⟨S50000x128, .f32⟩ : BufTy).Contents (Elt F) → (⟨S50000x128, .f32⟩ : BufTy).Contents (Elt F) → (⟨S50000x128, .f32⟩ : BufTy).Contents (Elt F)),
    nullary main_c_7 (constantI S_ 32 0#32),
    unary main_c_7 main_v29 (broadcastInDim S800000 ![] bcast_S_S800000 : (⟨S_, .i32⟩ : BufTy).Contents (Elt F) → (⟨S800000, .i32⟩ : BufTy).Contents (Elt F)),
    binary main_arg1 main_v29 main_v30 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v31 (broadcastInDim S800000 ![] bcast_S_S800000 : (⟨S_, .i32⟩ : BufTy).Contents (Elt F) → (⟨S800000, .i32⟩ : BufTy).Contents (Elt F)),
    binary main_arg1 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_arg1 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v28 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v36 (broadcastInDim S50000x128 ![] bcast_S_S50000x128 : (⟨S_, .f32⟩ : BufTy).Contents (Elt F) → (⟨S50000x128, .f32⟩ : BufTy).Contents (Elt F)),
    unary main_arg2 main_v37 (broadcastInDim S800000x1 ![0] bcast_S800000_S800000x1_0 : (⟨S800000, .i32⟩ : BufTy).Contents (Elt F) → (⟨S800000x1, .i32⟩ : BufTy).Contents (Elt F)),
    ternary main_v36 main_v37 main_v35 main_v38 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v39 (broadcastInDim S50000x128 ![0, 1] bcast_S50000x1_S50000x128_0_1 : (⟨S50000x1, .f32⟩ : BufTy).Contents (Elt F) → (⟨S50000x128, .f32⟩ : BufTy).Contents (Elt F)),
    binary main_v38 main_v39 main_v40 (mulf : (⟨S50000x128, .f32⟩ : BufTy).Contents (Elt F) → (⟨S50000x128, .f32⟩ : BufTy).Contents (Elt F) → (⟨S50000x128, .f32⟩ : BufTy).Contents (Elt F)),
    nullary main_cst_10 (constant S_ .f32 0xC0000000#32),
    unary main_cst_10 main_v41 (broadcastInDim S50000x128 ![] bcast_S_S50000x128 : (⟨S_, .f32⟩ : BufTy).Contents (Elt F) → (⟨S50000x128, .f32⟩ : BufTy).Contents (Elt F)),
    binary main_v41 main_v40 main_v42 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    unary main_cst_11 main_v43 (broadcastInDim S50000x128 ![] bcast_S_S50000x128 : (⟨S_, .f32⟩ : BufTy).Contents (Elt F) → (⟨S50000x128, .f32⟩ : BufTy).Contents (Elt F)),
    binary main_v26 main_v43 main_v44 (mulf : (⟨S50000x128, .f32⟩ : BufTy).Contents (Elt F) → (⟨S50000x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)),
    binary main_v45 main_arg0 main_v46 (subf : (⟨S50000x128, .f32⟩ : BufTy).Contents (Elt F) → (⟨S50000x128, .f32⟩ : BufTy).Contents (Elt F) → (⟨S50000x128, .f32⟩ : BufTy).Contents (Elt F)) ]

/-- Operations 64 … 72: the first layer's dense part, rectified. -/
def segD : List (HloOp τ sig (Elt F)) :=
  [ nary ![main_arg0, main_v26, main_v46] main_v47 (fun u => concatenate S50000x384 1 [⟨S50000x128, u 0⟩, ⟨S50000x128, u 1⟩, ⟨S50000x128, u 2⟩] concatenates_S50000x128_S50000x128_S50000x128_S50000x384_d1),
    unary main_arg3 main_v48 ((transpose S384x128 [1, 0] · transposes_S128x384_S384x128_1_0) : (⟨S128x384, .f32⟩ : BufTy).Contents (Elt F) → (⟨S384x128, .f32⟩ : BufTy).Contents (Elt F)),
    binary main_v47 main_v48 main_v49 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_arg4 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v52) main_call1.v0 main_call1.v1 maximumf ]

/-- Operations 73 … 100: the batch statistics. -/
def segE1 : List (HloOp τ sig (Elt F)) :=
  [ nullary main_cst_12 (constant S_ .f32 0x00000000#32),
    binary main_v53 main_cst_12 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v55 (broadcastInDim S128 ![] bcast_S_S128 : (⟨S_, .f32⟩ : BufTy).Contents (Elt F) → (⟨S128, .f32⟩ : BufTy).Contents (Elt F)),
    binary main_v54 main_v55 main_v56 (Host.divf : (⟨S128, .f32⟩ : BufTy).Contents (Elt F) → (⟨S128, .f32⟩ : BufTy).Contents (Elt F) → (⟨S128, .f32⟩ : BufTy).Contents (Elt F)),
    nullary main_c_14 (constantI S_ 32 0#32),
    TRef.nullary main_call2.cst (constant S_ .f32 0x00000000#32),
    TRef.binary (.of main_v53) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v53) main_call2.v4 main_call2.v5 subf,
    TRef.binary main_call2.v5 main_call2.v5 main_call2.v6 mulf,
    TRef.unary (.of main_c_14) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b) ]

/-- Operations 101 … 116: the normalisation. -/
def segE2 : List (HloOp τ sig (Elt F)) :=
  [ unary main_v56 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v53 main_v59 main_v60 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg7 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (mulf : (⟨S50000x128, .f32⟩ : BufTy).Contents (Elt F) → (⟨S50000x128, .f32⟩ : BufTy).Contents (Elt F) → (⟨S50000x128, .f32⟩ : BufTy).Contents (Elt F)),
    unary main_arg8 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)) ]

/-- Operations 117 … 140: the second layer's first recurrence step. -/
def segF : List (HloOp τ sig (Elt F)) :=
  [ unary main_v7 main_v73 (broadcastInDim S50000x128 ![0, 1] bcast_S50000x1_S50000x128_0_1 : (⟨S50000x1, .f32⟩ : BufTy).Contents (Elt F) → (⟨S50000x128, .f32⟩ : BufTy).Contents (Elt F)),
    binary main_v72 main_v73 main_v74 (mulf : (⟨S50000x128, .f32⟩ : BufTy).Contents (Elt F) → (⟨S50000x128, .f32⟩ : BufTy).Contents (Elt F) → (⟨S50000x128, .f32⟩ : BufTy).Contents (Elt F)),
    nullary main_c_16 (constantI S_ 32 0#32),
    unary main_c_16 main_v75 (broadcastInDim S800000 ![] bcast_S_S800000 : (⟨S_, .i32⟩ : BufTy).Contents (Elt F) → (⟨S800000, .i32⟩ : BufTy).Contents (Elt F)),
    binary main_arg1 main_v75 main_v76 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v77 (broadcastInDim S800000 ![] bcast_S_S800000 : (⟨S_, .i32⟩ : BufTy).Contents (Elt F) → (⟨S800000, .i32⟩ : BufTy).Contents (Elt F)),
    binary main_arg1 main_v77 main_v78 (addi : (⟨S800000, .i32⟩ : BufTy).Contents (Elt F) → (⟨S800000, .i32⟩ : BufTy).Contents (Elt F) → (⟨S800000, .i32⟩ : BufTy).Contents (Elt F)),
    ternary main_v76 main_v78 main_arg1 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v79 main_v80 (broadcastInDim S800000x1 ![0] bcast_S800000_S800000x1_0 : (⟨S800000, .i32⟩ : BufTy).Contents (Elt F) → (⟨S800000x1, .i32⟩ : BufTy).Contents (Elt F)),
    binary main_v74 main_v80 main_v81 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_18 (constant S_ .f32 0x00000000#32),
    unary main_cst_18 main_v82 (broadcastInDim S50000x128 ![] bcast_S_S50000x128 : (⟨S_, .f32⟩ : BufTy).Contents (Elt F) → (⟨S50000x128, .f32⟩ : BufTy).Contents (Elt F)),
    unary main_arg2 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v85 (broadcastInDim S50000x128 ![0, 1] bcast_S50000x1_S50000x128_0_1 : (⟨S50000x1, .f32⟩ : BufTy).Contents (Elt F) → (⟨S50000x128, .f32⟩ : BufTy).Contents (Elt F)),
    binary main_v84 main_v85 main_v86 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0xBF800000#32),
    unary main_cst_19 main_v87 (broadcastInDim S50000x128 ![] bcast_S_S50000x128 : (⟨S_, .f32⟩ : BufTy).Contents (Elt F) → (⟨S50000x128, .f32⟩ : BufTy).Contents (Elt F)),
    binary main_v87 main_v86 main_v88 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    unary main_cst_20 main_v89 (broadcastInDim S50000x128 ![] bcast_S_S50000x128 : (⟨S_, .f32⟩ : BufTy).Contents (Elt F) → (⟨S50000x128, .f32⟩ : BufTy).Contents (Elt F)),
    binary main_v72 main_v89 main_v90 (mulf : (⟨S50000x128, .f32⟩ : BufTy).Contents (Elt F) → (⟨S50000x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)) ]

/-- Operations 141 … 165: the second layer's second recurrence step. -/
def segG : List (HloOp τ sig (Elt F)) :=
  [ unary main_v7 main_v92 (broadcastInDim S50000x128 ![0, 1] bcast_S50000x1_S50000x128_0_1 : (⟨S50000x1, .f32⟩ : BufTy).Contents (Elt F) → (⟨S50000x128, .f32⟩ : BufTy).Contents (Elt F)),
    binary main_v91 main_v92 main_v93 (mulf : (⟨S50000x128, .f32⟩ : BufTy).Contents (Elt F) → (⟨S50000x128, .f32⟩ : BufTy).Contents (Elt F) → (⟨S50000x128, .f32⟩ : BufTy).Contents (Elt F)),
    nullary main_c_21 (constantI S_ 32 0#32),
    unary main_c_21 main_v94 (broadcastInDim S800000 ![] bcast_S_S800000 : (⟨S_, .i32⟩ : BufTy).Contents (Elt F) → (⟨S800000, .i32⟩ : BufTy).Contents (Elt F)),
    binary main_arg1 main_v94 main_v95 (cmpi .slt : (⟨S800000, .i32⟩ : BufTy).Contents (Elt F) → (⟨S800000, .i32⟩ : BufTy).Contents (Elt F) → (⟨S800000, .i1⟩ : BufTy).Contents (Elt F)),
    nullary main_c_22 (constantI S_ 32 50000#32),
    unary main_c_22 main_v96 (broadcastInDim S800000 ![] bcast_S_S800000 : (⟨S_, .i32⟩ : BufTy).Contents (Elt F) → (⟨S800000, .i32⟩ : BufTy).Contents (Elt F)),
    binary main_arg1 main_v96 main_v97 (addi : (⟨S800000, .i32⟩ : BufTy).Contents (Elt F) → (⟨S800000, .i32⟩ : BufTy).Contents (Elt F) → (⟨S800000, .i32⟩ : BufTy).Contents (Elt F)),
    ternary main_v95 main_v97 main_arg1 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v98 main_v99 (broadcastInDim S800000x1 ![0] bcast_S800000_S800000x1_0 : (⟨S800000, .i32⟩ : BufTy).Contents (Elt F) → (⟨S800000x1, .i32⟩ : BufTy).Contents (Elt F)),
    binary main_v93 main_v99 main_v100 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_23 (constant S_ .f32 0x00000000#32),
    unary main_cst_23 main_v101 (broadcastInDim S50000x128 ![] bcast_S_S50000x128 : (⟨S_, .f32⟩ : BufTy).Contents (Elt F) → (⟨S50000x128, .f32⟩ : BufTy).Contents (Elt F)),
    unary main_arg2 main_v102 (broadcastInDim S800000x1 ![0] bcast_S800000_S800000x1_0 : (⟨S800000, .i32⟩ : BufTy).Contents (Elt F) → (⟨S800000x1, .i32⟩ : BufTy).Contents (Elt F)),
    ternary main_v101 main_v102 main_v100 main_v103 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v7 main_v104 (broadcastInDim S50000x128 ![0, 1] bcast_S50000x1_S50000x128_0_1 : (⟨S50000x1, .f32⟩ : BufTy).Contents (Elt F) → (⟨S50000x128, .f32⟩ : BufTy).Contents (Elt F)),
    binary main_v103 main_v104 main_v105 (mulf : (⟨S50000x128, .f32⟩ : BufTy).Contents (Elt F) → (⟨S50000x128, .f32⟩ : BufTy).Contents (Elt F) → (⟨S50000x128, .f32⟩ : BufTy).Contents (Elt F)),
    nullary main_cst_24 (constant S_ .f32 0xC0000000#32),
    unary main_cst_24 main_v106 (broadcastInDim S50000x128 ![] bcast_S_S50000x128 : (⟨S_, .f32⟩ : BufTy).Contents (Elt F) → (⟨S50000x128, .f32⟩ : BufTy).Contents (Elt F)),
    binary main_v106 main_v105 main_v107 (mulf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    unary main_cst_25 main_v108 (broadcastInDim S50000x128 ![] bcast_S_S50000x128 : (⟨S_, .f32⟩ : BufTy).Contents (Elt F) → (⟨S50000x128, .f32⟩ : BufTy).Contents (Elt F)),
    binary main_v91 main_v108 main_v109 (mulf : (⟨S50000x128, .f32⟩ : BufTy).Contents (Elt F) → (⟨S50000x128, .f32⟩ : BufTy).Contents (Elt F) → (⟨S50000x128, .f32⟩ : BufTy).Contents (Elt F)),
    binary main_v107 main_v109 main_v110 (addf : (⟨S50000x128, .f32⟩ : BufTy).Contents (Elt F) → (⟨S50000x128, .f32⟩ : BufTy).Contents (Elt F) → (⟨S50000x128, .f32⟩ : BufTy).Contents (Elt F)),
    binary main_v110 main_v72 main_v111 (subf : (⟨S50000x128, .f32⟩ : BufTy).Contents (Elt F) → (⟨S50000x128, .f32⟩ : BufTy).Contents (Elt F) → (⟨S50000x128, .f32⟩ : BufTy).Contents (Elt F)) ]

/-- Operations 166 … 175: the second layer's dense part, rectified, plus its input. -/
def segH : List (HloOp τ sig (Elt F)) :=
  [ nary ![main_v72, main_v91, main_v111] main_v112 (fun u => concatenate S50000x384 1 [⟨S50000x128, u 0⟩, ⟨S50000x128, u 1⟩, ⟨S50000x128, u 2⟩] concatenates_S50000x128_S50000x128_S50000x128_S50000x384_d1),
    unary main_arg5 main_v113 ((transpose S384x128 [1, 0] · transposes_S128x384_S384x128_1_0) : (⟨S128x384, .f32⟩ : BufTy).Contents (Elt F) → (⟨S384x128, .f32⟩ : BufTy).Contents (Elt F)),
    binary main_v112 main_v113 main_v114 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_arg6 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v114 main_v116 main_v117 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v117) main_call3.v0 main_call3.v1 maximumf,
    binary main_v118 main_v72 main_v119 (addf : (⟨S50000x128, .f32⟩ : BufTy).Contents (Elt F) → (⟨S50000x128, .f32⟩ : BufTy).Contents (Elt F) → (⟨S50000x128, .f32⟩ : BufTy).Contents (Elt F)) ]

/-- Operations 176 … 183: the square dense layer, rectified. -/
def segI : List (HloOp τ sig (Elt F)) :=
  [ unary main_arg9 main_v120 ((transpose S128x128 [1, 0] · transposes_S128x128_S128x128_1_0) : (⟨S128x128, .f32⟩ : BufTy).Contents (Elt F) → (⟨S128x128, .f32⟩ : BufTy).Contents (Elt F)),
    binary main_v119 main_v120 main_v121 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v122 (broadcastInDim S1x128 ![1] bcast_S128_S1x128_1 : (⟨S128, .f32⟩ : BufTy).Contents (Elt F) → (⟨S1x128, .f32⟩ : BufTy).Contents (Elt F)),
    unary main_v122 main_v123 (broadcastInDim S50000x128 ![0, 1] bcast_S1x128_S50000x128_0_1 : (⟨S1x128, .f32⟩ : BufTy).Contents (Elt F) → (⟨S50000x128, .f32⟩ : BufTy).Contents (Elt F)),
    binary main_v121 main_v123 main_v124 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (.of main_v124) main_call4.v0 main_call4.v1 maximumf ]

/-- Operations 184 … 188: the output layer. -/
def segJ : List (HloOp τ sig (Elt F)) :=
  [ unary main_arg11 main_v126 ((transpose S128x64 [1, 0] · transposes_S64x128_S128x64_1_0) : (⟨S64x128, .f32⟩ : BufTy).Contents (Elt F) → (⟨S128x64, .f32⟩ : BufTy).Contents (Elt F)),
    binary main_v125 main_v126 main_v127 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg12 main_v128 (broadcastInDim S1x64 ![1] bcast_S64_S1x64_1 : (⟨S64, .f32⟩ : BufTy).Contents (Elt F) → (⟨S1x64, .f32⟩ : BufTy).Contents (Elt F)),
    unary main_v128 main_v129 (broadcastInDim S50000x64 ![0, 1] bcast_S1x64_S50000x64_0_1 : (⟨S1x64, .f32⟩ : BufTy).Contents (Elt F) → (⟨S50000x64, .f32⟩ : BufTy).Contents (Elt F)),
    binary main_v127 main_v129 main_v130 (addf : (⟨S50000x64, .f32⟩ : BufTy).Contents (Elt F) → (⟨S50000x64, .f32⟩ : BufTy).Contents (Elt F) → (⟨S50000x64, .f32⟩ : BufTy).Contents (Elt F)) ]

set_option maxRecDepth 16384 in
/-- The line is its stretches end to end. -/
theorem ops_segs : (ops : List (HloOp τ sig (Elt F))) = segA ++ (segB ++ (segC ++ (segD ++ (segE1 ++ (segE2 ++ (segF ++ (segG ++ (segH ++ (segI ++ (segJ)))))))))) := rfl

/-! ## Each stretch: what it keeps, what it leaves -/

/-- The buffers the stretch writes. -/
abbrev segA_W : List (Ref sig .tc) := [main_cst, main_v0, main_cst_0, main_v1, main_v2, main_v3, main_cst_1, main_call0_v0, main_call0_v1, main_v4, main_cst_2, main_v5, main_v6, main_v7]
set_option maxRecDepth 16384 in
theorem segA_writes : (segA : List (HloOp τ sig (Elt F))).Forall fun op => op.writes ⊆ (segA_W.map (Proc.devRef (τ := τ) .tc)).toFinset := by
  simp only [segA, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segA_keep (W : Valuation τ sig (Elt F)) (r : Ref sig .tc) (h : r ∉ segA_W) :
    after segA W (no_index (Proc.devRef .tc r)) = W (Proc.devRef .tc r) :=
  after_of_writes_sub segA _ segA_writes h

set_option maxRecDepth 16384 in
set_option maxHeartbeats 4000000 in
/-- What the stretch leaves at `main_v7`, of the contents it starts from. -/
theorem segA_main_v7 (W : Valuation τ sig (Elt F)) :
    after segA W (no_index (Proc.devRef .tc main_v7)) = dinv (W (Proc.devRef .tc main_arg2)) := by
  simp only [segA]
  after_results_simp
  rfl

/-- The buffers the stretch writes. -/
abbrev segB_W : List (Ref sig .tc) := [main_v8, main_v9, main_c, main_v10, main_v11, main_c_3, main_v12, main_v13, main_v14, main_v15, main_v16, main_cst_4, main_v17, main_v18, main_v19, main_v20, main_v21, main_cst_5, main_v22, main_v23, main_cst_6, main_v24, main_v25, main_v26]
set_option maxRecDepth 16384 in
theorem segB_writes : (segB : List (HloOp τ sig (Elt F))).Forall fun op => op.writes ⊆ (segB_W.map (Proc.devRef (τ := τ) .tc)).toFinset := by
  simp only [segB, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segB_keep (W : Valuation τ sig (Elt F)) (r : Ref sig .tc) (h : r ∉ segB_W) :
    after segB W (no_index (Proc.devRef .tc r)) = W (Proc.devRef .tc r) :=
  after_of_writes_sub segB _ segB_writes h

set_option maxRecDepth 16384 in
set_option maxHeartbeats 4000000 in
/-- What the stretch leaves at `main_v26`, of the contents it starts from. -/
theorem segB_main_v26 (W : Valuation τ sig (Elt F)) :
    after segB W (no_index (Proc.devRef .tc main_v26)) = cheb1 (W (Proc.devRef .tc main_v7)) (W (Proc.devRef .tc main_arg1)) (W (Proc.devRef .tc main_arg2)) (W (Proc.devRef .tc main_arg0)) := by
  simp only [segB]
  after_results_simp
  rfl

/-- The buffers the stretch writes. -/
abbrev segC_W : List (Ref sig .tc) := [main_v27, main_v28, main_c_7, main_v29, main_v30, main_c_8, main_v31, main_v32, main_v33, main_v34, main_v35, main_cst_9, main_v36, main_v37, main_v38, main_v39, main_v40, main_cst_10, main_v41, main_v42, main_cst_11, main_v43, main_v44, main_v45, main_v46]
set_option maxRecDepth 16384 in
theorem segC_writes : (segC : List (HloOp τ sig (Elt F))).Forall fun op => op.writes ⊆ (segC_W.map (Proc.devRef (τ := τ) .tc)).toFinset := by
  simp only [segC, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segC_keep (W : Valuation τ sig (Elt F)) (r : Ref sig .tc) (h : r ∉ segC_W) :
    after segC W (no_index (Proc.devRef .tc r)) = W (Proc.devRef .tc r) :=
  after_of_writes_sub segC _ segC_writes h

set_option maxRecDepth 16384 in
set_option maxHeartbeats 4000000 in
/-- What the stretch leaves at `main_v46`, of the contents it starts from. -/
theorem segC_main_v46 (W : Valuation τ sig (Elt F)) :
    after segC W (no_index (Proc.devRef .tc main_v46)) = cheb2 (W (Proc.devRef .tc main_v7)) (W (Proc.devRef .tc main_arg1)) (W (Proc.devRef .tc main_arg2)) (W (Proc.devRef .tc main_arg0)) (W (Proc.devRef .tc main_v26)) := by
  simp only [segC]
  after_results_simp
  rfl

/-- The buffers the stretch writes. -/
abbrev segD_W : List (Ref sig .tc) := [main_v47, main_v48, main_v49, main_v50, main_v51, main_v52, main_call1_cst, main_call1_v0, main_v53]
set_option maxRecDepth 16384 in
theorem segD_writes : (segD : List (HloOp τ sig (Elt F))).Forall fun op => op.writes ⊆ (segD_W.map (Proc.devRef (τ := τ) .tc)).toFinset := by
  simp only [segD, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segD_keep (W : Valuation τ sig (Elt F)) (r : Ref sig .tc) (h : r ∉ segD_W) :
    after segD W (no_index (Proc.devRef .tc r)) = W (Proc.devRef .tc r) :=
  after_of_writes_sub segD _ segD_writes h

set_option maxRecDepth 16384 in
set_option maxHeartbeats 4000000 in
/-- What the stretch leaves at `main_v53`, of the contents it starts from. -/
theorem segD_main_v53 (W : Valuation τ sig (Elt F)) :
    after segD W (no_index (Proc.devRef .tc main_v53)) = relu (lin384 (W (Proc.devRef .tc main_arg0)) (W (Proc.devRef .tc main_v26)) (W (Proc.devRef .tc main_v46)) (W (Proc.devRef .tc main_arg3)) (W (Proc.devRef .tc main_arg4))) := by
  simp only [segD]
  after_results_simp
  rfl

/-- The buffers the stretch writes. -/
abbrev segE1_W : List (Ref sig .tc) := [main_cst_12, main_v54, main_cst_13, main_v55, main_v56, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v57]
set_option maxRecDepth 16384 in
theorem segE1_writes : (segE1 : List (HloOp τ sig (Elt F))).Forall fun op => op.writes ⊆ (segE1_W.map (Proc.devRef (τ := τ) .tc)).toFinset := by
  simp only [segE1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segE1_keep (W : Valuation τ sig (Elt F)) (r : Ref sig .tc) (h : r ∉ segE1_W) :
    after segE1 W (no_index (Proc.devRef .tc r)) = W (Proc.devRef .tc r) :=
  after_of_writes_sub segE1 _ segE1_writes h

set_option maxRecDepth 16384 in
set_option maxHeartbeats 4000000 in
/-- What the stretch leaves at `main_v56`, of the contents it starts from. -/
theorem segE1_main_v56 (W : Valuation τ sig (Elt F)) :
    after segE1 W (no_index (Proc.devRef .tc main_v56)) = mean (W (Proc.devRef .tc main_v53)) := by
  simp only [segE1]
  after_results_simp
  rfl

set_option maxRecDepth 16384 in
set_option maxHeartbeats 4000000 in
/-- What the stretch leaves at `main_v57`, of the contents it starts from. -/
theorem segE1_main_v57 (W : Valuation τ sig (Elt F)) :
    after segE1 W (no_index (Proc.devRef .tc main_v57)) = var (W (Proc.devRef .tc main_v53)) := by
  simp only [segE1]
  after_results_simp
  rfl

/-- The buffers the stretch writes. -/
abbrev segE2_W : List (Ref sig .tc) := [main_v58, main_v59, main_v60, main_cst_15, main_v61, main_v62, main_v63, main_v64, main_v65, main_v66, main_v67, main_v68, main_v69, main_v70, main_v71, main_v72]
set_option maxRecDepth 16384 in
theorem segE2_writes : (segE2 : List (HloOp τ sig (Elt F))).Forall fun op => op.writes ⊆ (segE2_W.map (Proc.devRef (τ := τ) .tc)).toFinset := by
  simp only [segE2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segE2_keep (W : Valuation τ sig (Elt F)) (r : Ref sig .tc) (h : r ∉ segE2_W) :
    after segE2 W (no_index (Proc.devRef .tc r)) = W (Proc.devRef .tc r) :=
  after_of_writes_sub segE2 _ segE2_writes h

set_option maxRecDepth 16384 in
set_option maxHeartbeats 4000000 in
/-- What the stretch leaves at `main_v72`, of the contents it starts from. -/
theorem segE2_main_v72 (W : Valuation τ sig (Elt F)) :
    after segE2 W (no_index (Proc.devRef .tc main_v72)) = bnApply (W (Proc.devRef .tc main_v53)) (W (Proc.devRef .tc main_v56)) (W (Proc.devRef .tc main_v57)) (W (Proc.devRef .tc main_arg7)) (W (Proc.devRef .tc main_arg8)) := by
  simp only [segE2]
  after_results_simp
  rfl

/-- The buffers the stretch writes. -/
abbrev segF_W : List (Ref sig .tc) := [main_v73, main_v74, main_c_16, main_v75, main_v76, main_c_17, main_v77, main_v78, main_v79, main_v80, main_v81, main_cst_18, main_v82, main_v83, main_v84, main_v85, main_v86, main_cst_19, main_v87, main_v88, main_cst_20, main_v89, main_v90, main_v91]
set_option maxRecDepth 16384 in
theorem segF_writes : (segF : List (HloOp τ sig (Elt F))).Forall fun op => op.writes ⊆ (segF_W.map (Proc.devRef (τ := τ) .tc)).toFinset := by
  simp only [segF, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segF_keep (W : Valuation τ sig (Elt F)) (r : Ref sig .tc) (h : r ∉ segF_W) :
    after segF W (no_index (Proc.devRef .tc r)) = W (Proc.devRef .tc r) :=
  after_of_writes_sub segF _ segF_writes h

set_option maxRecDepth 16384 in
set_option maxHeartbeats 4000000 in
/-- What the stretch leaves at `main_v91`, of the contents it starts from. -/
theorem segF_main_v91 (W : Valuation τ sig (Elt F)) :
    after segF W (no_index (Proc.devRef .tc main_v91)) = cheb1 (W (Proc.devRef .tc main_v7)) (W (Proc.devRef .tc main_arg1)) (W (Proc.devRef .tc main_arg2)) (W (Proc.devRef .tc main_v72)) := by
  simp only [segF]
  after_results_simp
  rfl

/-- The buffers the stretch writes. -/
abbrev segG_W : List (Ref sig .tc) := [main_v92, main_v93, main_c_21, main_v94, main_v95, main_c_22, main_v96, main_v97, main_v98, main_v99, main_v100, main_cst_23, main_v101, main_v102, main_v103, main_v104, main_v105, main_cst_24, main_v106, main_v107, main_cst_25, main_v108, main_v109, main_v110, main_v111]
set_option maxRecDepth 16384 in
theorem segG_writes : (segG : List (HloOp τ sig (Elt F))).Forall fun op => op.writes ⊆ (segG_W.map (Proc.devRef (τ := τ) .tc)).toFinset := by
  simp only [segG, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segG_keep (W : Valuation τ sig (Elt F)) (r : Ref sig .tc) (h : r ∉ segG_W) :
    after segG W (no_index (Proc.devRef .tc r)) = W (Proc.devRef .tc r) :=
  after_of_writes_sub segG _ segG_writes h

set_option maxRecDepth 16384 in
set_option maxHeartbeats 4000000 in
/-- What the stretch leaves at `main_v111`, of the contents it starts from. -/
theorem segG_main_v111 (W : Valuation τ sig (Elt F)) :
    after segG W (no_index (Proc.devRef .tc main_v111)) = cheb2 (W (Proc.devRef .tc main_v7)) (W (Proc.devRef .tc main_arg1)) (W (Proc.devRef .tc main_arg2)) (W (Proc.devRef .tc main_v72)) (W (Proc.devRef .tc main_v91)) := by
  simp only [segG]
  after_results_simp
  rfl

/-- The buffers the stretch writes. -/
abbrev segH_W : List (Ref sig .tc) := [main_v112, main_v113, main_v114, main_v115, main_v116, main_v117, main_call3_cst, main_call3_v0, main_v118, main_v119]
set_option maxRecDepth 16384 in
theorem segH_writes : (segH : List (HloOp τ sig (Elt F))).Forall fun op => op.writes ⊆ (segH_W.map (Proc.devRef (τ := τ) .tc)).toFinset := by
  simp only [segH, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segH_keep (W : Valuation τ sig (Elt F)) (r : Ref sig .tc) (h : r ∉ segH_W) :
    after segH W (no_index (Proc.devRef .tc r)) = W (Proc.devRef .tc r) :=
  after_of_writes_sub segH _ segH_writes h

set_option maxRecDepth 16384 in
set_option maxHeartbeats 4000000 in
/-- What the stretch leaves at `main_v119`, of the contents it starts from. -/
theorem segH_main_v119 (W : Valuation τ sig (Elt F)) :
    after segH W (no_index (Proc.devRef .tc main_v119)) = addf (relu (lin384 (W (Proc.devRef .tc main_v72)) (W (Proc.devRef .tc main_v91)) (W (Proc.devRef .tc main_v111)) (W (Proc.devRef .tc main_arg5)) (W (Proc.devRef .tc main_arg6)))) (W (Proc.devRef .tc main_v72)) := by
  simp only [segH]
  after_results_simp
  rfl

/-- The buffers the stretch writes. -/
abbrev segI_W : List (Ref sig .tc) := [main_v120, main_v121, main_v122, main_v123, main_v124, main_call4_cst, main_call4_v0, main_v125]
set_option maxRecDepth 16384 in
theorem segI_writes : (segI : List (HloOp τ sig (Elt F))).Forall fun op => op.writes ⊆ (segI_W.map (Proc.devRef (τ := τ) .tc)).toFinset := by
  simp only [segI, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segI_keep (W : Valuation τ sig (Elt F)) (r : Ref sig .tc) (h : r ∉ segI_W) :
    after segI W (no_index (Proc.devRef .tc r)) = W (Proc.devRef .tc r) :=
  after_of_writes_sub segI _ segI_writes h

set_option maxRecDepth 16384 in
set_option maxHeartbeats 4000000 in
/-- What the stretch leaves at `main_v125`, of the contents it starts from. -/
theorem segI_main_v125 (W : Valuation τ sig (Elt F)) :
    after segI W (no_index (Proc.devRef .tc main_v125)) = relu (lin128 (W (Proc.devRef .tc main_v119)) (W (Proc.devRef .tc main_arg9)) (W (Proc.devRef .tc main_arg10))) := by
  simp only [segI]
  after_results_simp
  rfl

/-- The buffers the stretch writes. -/
abbrev segJ_W : List (Ref sig .tc) := [main_v126, main_v127, main_v128, main_v129, main_v130]
set_option maxRecDepth 16384 in
theorem segJ_writes : (segJ : List (HloOp τ sig (Elt F))).Forall fun op => op.writes ⊆ (segJ_W.map (Proc.devRef (τ := τ) .tc)).toFinset := by
  simp only [segJ, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem segJ_keep (W : Valuation τ sig (Elt F)) (r : Ref sig .tc) (h : r ∉ segJ_W) :
    after segJ W (no_index (Proc.devRef .tc r)) = W (Proc.devRef .tc r) :=
  after_of_writes_sub segJ _ segJ_writes h

set_option maxRecDepth 16384 in
set_option maxHeartbeats 4000000 in
/-- What the stretch leaves at `main_v130`, of the contents it starts from. -/
theorem segJ_main_v130 (W : Valuation τ sig (Elt F)) :
    after segJ W (no_index (Proc.devRef .tc main_v130)) = lin64 (W (Proc.devRef .tc main_v125)) (W (Proc.devRef .tc main_arg11)) (W (Proc.devRef .tc main_arg12)) := by
  simp only [segJ]
  after_results_simp
  rfl

/-! ## The run -/

set_option maxRecDepth 16384 in
set_option maxHeartbeats 4000000 in
/-- The whole line at the result buffer: the steps composed. -/
theorem out_eq (V : Valuation τ sig (Elt F)) :
    after ops V (Proc.devRef .tc main_v130)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_segs]
  simp only [after_append]
  simp (disch := decide) only [segJ_main_v130, segI_main_v125, segH_main_v119, segG_main_v111, segF_main_v91, segE2_main_v72, segE1_main_v56, segE1_main_v57, segD_main_v53, segC_main_v46, segB_main_v26, segA_main_v7,
    segJ_keep, segI_keep, segH_keep, segG_keep, segF_keep, segE2_keep, segE1_keep, segD_keep, segC_keep, segB_keep, segA_keep]
  rfl

/-- A buffer no stretch writes keeps its contents through the whole line. -/
theorem ops_keep (V : Valuation τ sig (Elt F)) (r : Ref sig .tc)
    (hA : r ∉ segA_W) (hB : r ∉ segB_W) (hC : r ∉ segC_W) (hD : r ∉ segD_W) (hE1 : r ∉ segE1_W) (hE2 : r ∉ segE2_W) (hF : r ∉ segF_W) (hG : r ∉ segG_W) (hH : r ∉ segH_W) (hI : r ∉ segI_W) (hJ : r ∉ segJ_W) :
    after ops V (Proc.devRef .tc r) = V (Proc.devRef .tc r) := by
  rw [ops_segs]
  simp only [after_append]
  rw [segJ_keep _ r hJ, segI_keep _ r hI, segH_keep _ r hH, segG_keep _ r hG, segF_keep _ r hF, segE2_keep _ r hE2, segE1_keep _ r hE1, segD_keep _ r hD, segC_keep _ r hC, segB_keep _ r hB, segA_keep _ r hA]
theorem main_arg0_eq (V : Valuation τ sig (Elt F)) : after ops V (Proc.devRef .tc main_arg0) = V (Proc.devRef .tc main_arg0) :=
  ops_keep V main_arg0 (by decide) (by decide) (by decide) (by decide) (by decide) (by decide) (by decide) (by decide) (by decide) (by decide) (by decide)
theorem main_arg1_eq (V : Valuation τ sig (Elt F)) : after ops V (Proc.devRef .tc main_arg1) = V (Proc.devRef .tc main_arg1) :=
  ops_keep V main_arg1 (by decide) (by decide) (by decide) (by decide) (by decide) (by decide) (by decide) (by decide) (by decide) (by decide) (by decide)
theorem main_arg2_eq (V : Valuation τ sig (Elt F)) : after ops V (Proc.devRef .tc main_arg2) = V (Proc.devRef .tc main_arg2) :=
  ops_keep V main_arg2 (by decide) (by decide) (by decide) (by decide) (by decide) (by decide) (by decide) (by decide) (by decide) (by decide) (by decide)
theorem main_arg3_eq (V : Valuation τ sig (Elt F)) : after ops V (Proc.devRef .tc main_arg3) = V (Proc.devRef .tc main_arg3) :=
  ops_keep V main_arg3 (by decide) (by decide) (by decide) (by decide) (by decide) (by decide) (by decide) (by decide) (by decide) (by decide) (by decide)
theorem main_arg4_eq (V : Valuation τ sig (Elt F)) : after ops V (Proc.devRef .tc main_arg4) = V (Proc.devRef .tc main_arg4) :=
  ops_keep V main_arg4 (by decide) (by decide) (by decide) (by decide) (by decide) (by decide) (by decide) (by decide) (by decide) (by decide) (by decide)
theorem main_arg5_eq (V : Valuation τ sig (Elt F)) : after ops V (Proc.devRef .tc main_arg5) = V (Proc.devRef .tc main_arg5) :=
  ops_keep V main_arg5 (by decide) (by decide) (by decide) (by decide) (by decide) (by decide) (by decide) (by decide) (by decide) (by decide) (by decide)
theorem main_arg6_eq (V : Valuation τ sig (Elt F)) : after ops V (Proc.devRef .tc main_arg6) = V (Proc.devRef .tc main_arg6) :=
  ops_keep V main_arg6 (by decide) (by decide) (by decide) (by decide) (by decide) (by decide) (by decide) (by decide) (by decide) (by decide) (by decide)
theorem main_arg7_eq (V : Valuation τ sig (Elt F)) : after ops V (Proc.devRef .tc main_arg7) = V (Proc.devRef .tc main_arg7) :=
  ops_keep V main_arg7 (by decide) (by decide) (by decide) (by decide) (by decide) (by decide) (by decide) (by decide) (by decide) (by decide) (by decide)
theorem main_arg8_eq (V : Valuation τ sig (Elt F)) : after ops V (Proc.devRef .tc main_arg8) = V (Proc.devRef .tc main_arg8) :=
  ops_keep V main_arg8 (by decide) (by decide) (by decide) (by decide) (by decide) (by decide) (by decide) (by decide) (by decide) (by decide) (by decide)
theorem main_arg9_eq (V : Valuation τ sig (Elt F)) : after ops V (Proc.devRef .tc main_arg9) = V (Proc.devRef .tc main_arg9) :=
  ops_keep V main_arg9 (by decide) (by decide) (by decide) (by decide) (by decide) (by decide) (by decide) (by decide) (by decide) (by decide) (by decide)
theorem main_arg10_eq (V : Valuation τ sig (Elt F)) : after ops V (Proc.devRef .tc main_arg10) = V (Proc.devRef .tc main_arg10) :=
  ops_keep V main_arg10 (by decide) (by decide) (by decide) (by decide) (by decide) (by decide) (by decide) (by decide) (by decide) (by decide) (by decide)
theorem main_arg11_eq (V : Valuation τ sig (Elt F)) : after ops V (Proc.devRef .tc main_arg11) = V (Proc.devRef .tc main_arg11) :=
  ops_keep V main_arg11 (by decide) (by decide) (by decide) (by decide) (by decide) (by decide) (by decide) (by decide) (by decide) (by decide) (by decide)
theorem main_arg12_eq (V : Valuation τ sig (Elt F)) : after ops V (Proc.devRef .tc main_arg12) = V (Proc.devRef .tc main_arg12) :=
  ops_keep V main_arg12 (by decide) (by decide) (by decide) (by decide) (by decide) (by decide) (by decide) (by decide) (by decide) (by decide) (by decide)

set_option maxRecDepth 16384 in
/-- On every device, for any float values, from any memory with zero counters: every weakly fair execution of
    @main terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v130).trans (out_eq (launchContents m c)),
      (h c main_arg0).trans (main_arg0_eq (launchContents m c)),
      (h c main_arg1).trans (main_arg1_eq (launchContents m c)),
      (h c main_arg2).trans (main_arg2_eq (launchContents m c)),
      (h c main_arg3).trans (main_arg3_eq (launchContents m c)),
      (h c main_arg4).trans (main_arg4_eq (launchContents m c)),
      (h c main_arg5).trans (main_arg5_eq (launchContents m c)),
      (h c main_arg6).trans (main_arg6_eq (launchContents m c)),
      (h c main_arg7).trans (main_arg7_eq (launchContents m c)),
      (h c main_arg8).trans (main_arg8_eq (launchContents m c)),
      (h c main_arg9).trans (main_arg9_eq (launchContents m c)),
      (h c main_arg10).trans (main_arg10_eq (launchContents m c)),
      (h c main_arg11).trans (main_arg11_eq (launchContents m c)),
      (h c main_arg12).trans (main_arg12_eq (launchContents m c))⟩)
    (run_seq scopedRefs_eq scopedSems_eq defs main (fun _ => ops) main_eq (fun _ => ops_sub) m ρ)

end Cert.ReferenceIdeal.RefRun

end
-- ==== Proof.LibFinite.lean ====
/-
  Real-valued extended reals, and the operations that keep them real.

  An extended real is REAL when it is neither of the two infinities. Sums, differences,
  products, maxima and finite sums of real numbers are real; so is a quotient by a real
  number other than zero, a real power of a real base, and the reciprocal square root of a
  positive real. An array operation that only moves entries (a gather, a slice, a transpose, a
  reshape, a broadcast, a concatenation) yields entries of its operands, so it keeps an
  all-real array all-real; an accumulating scatter, a sum along an axis and a matrix product
  add and multiply finitely many entries, so they do too. The float words whose exponent field
  is not all ones denote real numbers.
-/
import Idealize.ShloMosaic.PureOps.Ideal
import Idealize.ShloMosaic.PureOps.Ideal.Laws
import Idealize.ShloMosaic.Lib.ValueIdx
import Idealize.ShloMosaic.Lib.IdealHost

open scoped BigOperators

namespace Cert.Math

open Idealize.ShloMosaic

/-- An extended real that is a real number. -/
def IsReal (x : EReal) : Prop := ∃ r : ℝ, x = r

/-- A family of extended reals all of whose entries are real numbers. -/
def AllReal {ι : Sort*} (v : ι → EReal) : Prop := ∀ i, IsReal (v i)

theorem isReal_coe (r : ℝ) : IsReal (r : EReal) := ⟨r, rfl⟩
theorem isReal_zero : IsReal 0 := ⟨0, rfl⟩
theorem isReal_one : IsReal 1 := ⟨1, rfl⟩

/-- Real means: neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of real numbers is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The quotient of a real number by a real number other than zero is real. -/
theorem IsReal.div_coe {x : EReal} (hx : IsReal x) {c : ℝ} (hc : c ≠ 0) : IsReal (Ideal.div x (c : EReal)) := by
  rw [Ideal.div_coe hc]; exact hx.mul (isReal_coe _)

/-- A real power of a real base is real (Mathlib's `Real.rpow`, total). -/
theorem isReal_pow_coe (x y : ℝ) : IsReal (Ideal.pow (x : EReal) (y : EReal)) := ⟨Real.rpow x y, rfl⟩
theorem IsReal.pow {x y : EReal} (hx : IsReal x) (hy : IsReal y) : IsReal (Ideal.pow x y) := by
  obtain ⟨a, rfl⟩ := hx; obtain ⟨b, rfl⟩ := hy; exact isReal_pow_coe a b

/-- A real power of a positive base is a positive real. -/
theorem pow_coe_pos {x : ℝ} (hx : 0 < x) (y : ℝ) : ∃ r : ℝ, 0 < r ∧ Ideal.pow (x : EReal) (y : EReal) = r :=
  ⟨Real.rpow x y, Real.rpow_pos_of_pos hx y, rfl⟩

/-- The reciprocal square root of a positive real is a positive real. -/
theorem rsqrt_coe_pos {x : ℝ} (hx : 0 < x) : ∃ r : ℝ, 0 < r ∧ Ideal.rsqrt (x : EReal) = r := by
  refine ⟨(Real.sqrt x)⁻¹, inv_pos.mpr (Real.sqrt_pos.mpr hx), ?_⟩
  show (if x < 0 then (⊥ : EReal) else if x = 0 then ⊤ else ((Real.sqrt x)⁻¹ : ℝ)) = _
  rw [if_neg (not_lt.mpr hx.le), if_neg hx.ne']
theorem isReal_rsqrt_of_pos {x : EReal} (hx : IsReal x) (hpos : 0 < x) : IsReal (Ideal.rsqrt x) := by
  obtain ⟨a, rfl⟩ := hx
  obtain ⟨r, _, hr⟩ := rsqrt_coe_pos (EReal.coe_pos.mp hpos)
  exact ⟨r, hr⟩

/-- A real base at least one raised to a real power is a positive real. -/
theorem pow_pos_of_one_le {x y : EReal} (hx : IsReal x) (h1 : 1 ≤ x) (hy : IsReal y) :
    ∃ r : ℝ, 0 < r ∧ Ideal.pow x y = r := by
  obtain ⟨a, rfl⟩ := hx; obtain ⟨b, rfl⟩ := hy
  have ha : (1 : ℝ) ≤ a := by exact_mod_cast h1
  exact pow_coe_pos (lt_of_lt_of_le one_pos ha) b

/-! ## Float words that denote real numbers -/

/-- A float word whose exponent field is not all ones (neither an infinity nor a NaN pattern)
    denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- At 32 bits: exponent field not 255. -/
theorem isReal_ofBits_f32 (b : BitVec 32) (h : (b.extractLsb' 23 8).toNat ≠ 255) : IsReal (Ideal.ofBits .f32 b) :=
  isReal_ieee 8 23 b h

/-- The word `0xBF800000` is minus one. -/
theorem ofBits_neg_one_f32 : Ideal.ofBits .f32 0xBF800000#32 = ((-1 : ℝ) : EReal) := by
  simp [Ideal.ofBits, Ideal.ieee, -EReal.coe_mul, -EReal.coe_neg]; norm_num
/-- The word `0xC0000000` is minus two. -/
theorem ofBits_neg_two_f32 : Ideal.ofBits .f32 0xC0000000#32 = ((-2 : ℝ) : EReal) := by
  simp [Ideal.ofBits, Ideal.ieee, -EReal.coe_mul, -EReal.coe_neg]; norm_num
/-- The word `0xBF000000` is minus one half. -/
theorem ofBits_neg_half_f32 : Ideal.ofBits .f32 0xBF000000#32 = ((-(1 / 2) : ℝ) : EReal) := by
  simp [Ideal.ofBits, Ideal.ieee, -EReal.coe_mul, -EReal.coe_neg]; norm_num
/-- The word `0x47435000` is fifty thousand. -/
theorem ofBits_50000_f32 : Ideal.ofBits .f32 0x47435000#32 = ((50000 : ℝ) : EReal) := by
  simp [Ideal.ofBits, Ideal.ieee, -EReal.coe_mul, -EReal.coe_neg]; norm_num
/-- The word `0x3727C5AC` (the float nearest 10⁻⁵) is a positive real: 10995116 · 2⁻⁴⁰. -/
theorem ofBits_eps_f32 : Ideal.ofBits .f32 0x3727C5AC#32 = (((10995116 : ℝ) * (2 : ℝ) ^ (-40 : ℤ) : ℝ) : EReal) := by
  simp [Ideal.ofBits, Ideal.ieee, -EReal.coe_mul, -EReal.coe_neg]
theorem ofBits_eps_f32_pos : ∃ r : ℝ, 0 < r ∧ Ideal.ofBits .f32 0x3727C5AC#32 = r :=
  ⟨_, by positivity, ofBits_eps_f32⟩

theorem isReal_ofBits_zero_f32 : IsReal (Ideal.ofBits .f32 0x00000000#32) := by
  rw [Ideal.ofBits_zero_f32]; exact isReal_zero
theorem isReal_ofBits_one_f32 : IsReal (Ideal.ofBits .f32 0x3F800000#32) := by
  rw [Ideal.ofBits_one_f32]; exact isReal_one
theorem isReal_ofBits_neg_one_f32 : IsReal (Ideal.ofBits .f32 0xBF800000#32) := ⟨_, ofBits_neg_one_f32⟩
theorem isReal_ofBits_neg_two_f32 : IsReal (Ideal.ofBits .f32 0xC0000000#32) := ⟨_, ofBits_neg_two_f32⟩
theorem isReal_ofBits_neg_half_f32 : IsReal (Ideal.ofBits .f32 0xBF000000#32) := ⟨_, ofBits_neg_half_f32⟩
theorem isReal_ofBits_50000_f32 : IsReal (Ideal.ofBits .f32 0x47435000#32) := ⟨_, ofBits_50000_f32⟩
theorem isReal_ofBits_eps_f32 : IsReal (Ideal.ofBits .f32 0x3727C5AC#32) := ⟨_, ofBits_eps_f32⟩

/-! ## Arrays: the operations of the data path keep an all-real array all-real -/

section Arrays
variable {s : Shape} {φ : FTy}

theorem allReal_mulf {a b : FVec Ideal s φ} (ha : AllReal a) (hb : AllReal b) : AllReal (mulf a b) :=
  fun i => (ha i).mul (hb i)
theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_maximumf {a b : FVec Ideal s φ} (ha : AllReal a) (hb : AllReal b) : AllReal (maximumf a b) :=
  fun i => (ha i).max (hb i)
/-- A format change is the identity on extended reals. -/
theorem allReal_truncf {ψ : FTy} {a : FVec Ideal s φ} (h : ψ.bits < φ.bits) (ha : AllReal a) :
    AllReal (truncf ψ a h : FVec Ideal s ψ) := fun i => ha i
theorem allReal_extf {ψ : FTy} {a : FVec Ideal s φ} (h : φ.bits < ψ.bits) (ha : AllReal a) :
    AllReal (extf ψ a h : FVec Ideal s ψ) := fun i => ha i
/-- A splat of a word that denotes a real number. -/
theorem allReal_constant (b : BitVec φ.bits) (h : IsReal (Ideal.ofBits φ b)) :
    AllReal (constant (F := Ideal) s φ b) := fun _ => h
theorem allReal_broadcast {x : EReal} (h : IsReal x) : AllReal (broadcast s x) := fun _ => h
/-- A signed integer read as a float is that integer, a real number. -/
theorem allReal_sitofp {w : Nat} (x : IVec s w) : AllReal (sitofp φ x : FVec Ideal s φ) :=
  fun i => ⟨((x i).toInt : ℝ), rfl⟩
/-- A select takes each entry from one of its two operands. -/
theorem allReal_select (c : IVec s 1) {a b : s.Idx → EReal} (ha : AllReal a) (hb : AllReal b) :
    AllReal (select c a b) := fun i => by
  show IsReal (if c i = 1 then a i else b i)
  split_ifs
  · exact ha i
  · exact hb i

/-- The host's quotient by an array of real numbers other than zero. -/
theorem allReal_hostDivf {a b : FVec Ideal s φ} (ha : AllReal a) (hb : ∀ i, ∃ c : ℝ, c ≠ 0 ∧ b i = c) :
    AllReal (Host.divf a b) := fun i => by
  obtain ⟨c, hc, hbc⟩ := hb i
  show IsReal (Ideal.div (a i) (b i))
  rw [hbc]; exact (ha i).div_coe hc
/-- The host's power of real bases to real exponents. -/
theorem allReal_hostPowf {a b : FVec Ideal s φ} (ha : AllReal a) (hb : AllReal b) : AllReal (Host.powf a b) :=
  fun i => (ha i).pow (hb i)
/-- The host's reciprocal square root of positive reals. -/
theorem allReal_hostRsqrt {a : FVec Ideal s φ} (ha : AllReal a) (hpos : ∀ i, 0 < a i) : AllReal (Host.rsqrt a) :=
  fun i => isReal_rsqrt_of_pos (ha i) (hpos i)

end Arrays

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allReal_shapeCast {x : s.Idx → EReal} (h : s.ShapeCasts t) (hx : AllReal x) : AllReal (shapeCast t x h) :=
  fun _ => hx _
theorem allReal_extractStridedSlice (off : Fin s.rank → Nat) {x : s.Idx → EReal} (h : s.Slices off t) (hx : AllReal x) :
    AllReal (extractStridedSlice t off x h) := fun _ => hx _
theorem allReal_transpose (perm : List (Fin s.rank)) {x : s.Idx → EReal} (h : s.Transposes perm t) (hx : AllReal x) :
    AllReal (transpose t perm x h) := fun _ => hx _
/-- A gather reads entries of its operand, whatever the start indices. -/
theorem allReal_gather {si : Shape} {w : Nat} (d : GatherDims s si t) {x : s.Idx → EReal} (idx : IVec si w)
    (hx : AllReal x) : AllReal (Host.gather d x idx) := fun _ => hx _
/-- A concatenation reads entries of its pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

end Layout

section Sums
variable {φ : FTy}

/-- An accumulating scatter adds to each operand entry finitely many update entries. -/
theorem allReal_scatterAdd {s si u : Shape} {w : Nat} (d : ScatterDims s si u) {x : FVec Ideal s φ} (idx : IVec si w)
    {upd : FVec Ideal u φ} (hx : AllReal x) (hu : AllReal upd) : AllReal (Host.scatterAdd d x idx upd) :=
  fun i => (hx i).add (isReal_sum _ _ fun j _ => hu j)
/-- The host's sum along axes adds to the initial value finitely many entries. -/
theorem allReal_hostReduceAdd {s t u : Shape} {axes : List (Fin s.rank)} {x : FVec Ideal s φ} {init : u.Idx → Ideal φ}
    (h : s.ReducesTo axes t) (hu : 0 < u.numel) (hx : AllReal x) (hi : AllReal init) :
    AllReal (Host.reduceAdd x init h hu) :=
  fun _ => (hi _).add (isReal_sum _ _ fun i _ => hx i)
/-- A matrix product onto an accumulator: finitely many products added to an entry. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (matmul d prec lhs rhs acc) :=
  fun j => (ha j).add (isReal_sum _ _ fun _ _ => (hl _).mul (hr _))
/-- The host's matrix product: the same onto zero. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun _ => isReal_zero.add (isReal_sum _ _ fun _ _ => (hl _).mul (hr _))

end Sums

end Cert.Math
-- ==== Proof.LibAffine.lean ====
/-
  The affine form of a normalisation, on the extended reals.

  A batch normalisation written as "subtract the mean, multiply by the reciprocal
  standard deviation, multiply by the gain, add the offset" and the same map
  written as one multiply-add "x * scale + shift", with
  scale = s * γ and shift = β - μ * scale, are the same function of x as
  soon as every quantity is a real number: the identity
      x (s γ) + (β - μ (s γ)) = ((x - μ) s) γ + β
  holds in the field of real numbers, and the extended reals' sum, difference and
  product restricted to real numbers are the real ones.
-/
import Mathlib.Data.EReal.Inv
import Mathlib.Tactic.Ring

namespace Cert.Math

/-- The identity on real numbers, every coercion into the extended reals explicit. -/
theorem affine_coe (x μ s γ β : ℝ) :
    (x : EReal) * ((s : EReal) * (γ : EReal)) + ((β : EReal) - (μ : EReal) * ((s : EReal) * (γ : EReal)))
      = (((x : EReal) - (μ : EReal)) * (s : EReal)) * (γ : EReal) + (β : EReal) := by
  rw [← EReal.coe_mul, ← EReal.coe_mul, ← EReal.coe_mul, ← EReal.coe_sub, ← EReal.coe_add,
    ← EReal.coe_sub, ← EReal.coe_mul, ← EReal.coe_mul, ← EReal.coe_add]
  congr 1
  ring

/-- The same for extended reals that are known to be real numbers. -/
theorem affine_of_real {x μ s γ β : EReal} (hx : ∃ r : ℝ, x = r) (hμ : ∃ r : ℝ, μ = r)
    (hs : ∃ r : ℝ, s = r) (hγ : ∃ r : ℝ, γ = r) (hβ : ∃ r : ℝ, β = r) :
    x * (s * γ) + (β - μ * (s * γ)) = ((x - μ) * s) * γ + β := by
  obtain ⟨x, rfl⟩ := hx
  obtain ⟨μ, rfl⟩ := hμ
  obtain ⟨s, rfl⟩ := hs
  obtain ⟨γ, rfl⟩ := hγ
  obtain ⟨β, rfl⟩ := hβ
  exact affine_coe x μ s γ β

end Cert.Math
-- ==== Proof.LibVar.lean ====
/-
  A variance is not negative, and the batch normalisation's two spellings agree.

  A variance is a mean of squares: a finite sum of terms d·d, divided by a positive count.
  On the extended reals d·d ≥ 0 for EVERY d (the square of either infinity is +∞), so the
  sum is ≥ 0, and so is its quotient by a positive real. Hence the maximum of a variance and 0
  is the variance, and a variance plus a positive real is positive: its reciprocal square root
  is a positive real. With that, "x · scale + shift" with scale = rsqrt(max(v,0)+ε)·γ and
  shift = β − μ·scale equals "((x − μ) · rsqrt(v+ε)) · γ + β" whenever x, μ, v, γ, β are real
  numbers, v ≥ 0 and ε is a positive real.
-/
import proofs.«181888_j53283364274269_2_alg».proof.Proof.LibFinite
import proofs.«181888_j53283364274269_2_alg».proof.Proof.LibAffine

open scoped BigOperators

namespace Cert.Math

open Idealize.ShloMosaic

/-- The square of an extended real is not negative. -/
theorem mul_self_nonneg' (d : EReal) : 0 ≤ d * d := by
  induction d using EReal.rec with
  | bot => rw [EReal.bot_mul_bot]; exact le_top
  | top => rw [EReal.top_mul_top]; exact le_top
  | coe r => rw [← EReal.coe_mul]; exact EReal.coe_nonneg.mpr (mul_self_nonneg r)

/-- A finite sum of squares is not negative. -/
theorem sum_mul_self_nonneg {ι : Type*} (s : Finset ι) (d : ι → EReal) : 0 ≤ ∑ i ∈ s, d i * d i :=
  Finset.sum_nonneg fun i _ => mul_self_nonneg' (d i)

/-- The quotient of a quantity that is not negative by a positive real is not negative. -/
theorem div_coe_nonneg {v : EReal} (hv : 0 ≤ v) {c : ℝ} (hc : 0 < c) : 0 ≤ Ideal.div v (c : EReal) := by
  rw [Ideal.div_coe hc.ne']
  exact mul_nonneg hv (EReal.coe_nonneg.mpr (by positivity))

/-- A variance — zero plus a finite sum of squares, over a positive count — is not negative. -/
theorem var_nonneg {ι : Type*} (s : Finset ι) (d : ι → EReal) {c : ℝ} (hc : 0 < c) :
    0 ≤ Ideal.div (0 + ∑ i ∈ s, d i * d i) (c : EReal) := by
  rw [zero_add]; exact div_coe_nonneg (sum_mul_self_nonneg s d) hc

/-- So its maximum with zero is itself, in either order. -/
theorem max_var_zero {ι : Type*} (s : Finset ι) (d : ι → EReal) {c : ℝ} (hc : 0 < c) :
    max (Ideal.div (0 + ∑ i ∈ s, d i * d i) (c : EReal)) 0 = Ideal.div (0 + ∑ i ∈ s, d i * d i) (c : EReal) :=
  max_eq_left (var_nonneg s d hc)
theorem max_zero_var {ι : Type*} (s : Finset ι) (d : ι → EReal) {c : ℝ} (hc : 0 < c) :
    max 0 (Ideal.div (0 + ∑ i ∈ s, d i * d i) (c : EReal)) = Ideal.div (0 + ∑ i ∈ s, d i * d i) (c : EReal) :=
  max_eq_right (var_nonneg s d hc)

/-- A real quantity that is not negative plus a positive real is a positive real. -/
theorem add_pos_real {v e : EReal} (hv : IsReal v) (h0 : 0 ≤ v) (he : ∃ r : ℝ, 0 < r ∧ e = r) :
    IsReal (v + e) ∧ 0 < v + e := by
  obtain ⟨a, rfl⟩ := hv
  obtain ⟨r, hr, rfl⟩ := he
  have ha : 0 ≤ a := EReal.coe_nonneg.mp h0
  refine ⟨⟨a + r, (EReal.coe_add a r).symm⟩, ?_⟩
  rw [← EReal.coe_add]; exact EReal.coe_pos.mpr (by positivity)

/-- The reciprocal square root of (a real variance that is not negative) + (a positive real) is real. -/
theorem isReal_rsqrt_add {v e : EReal} (hv : IsReal v) (h0 : 0 ≤ v) (he : ∃ r : ℝ, 0 < r ∧ e = r) :
    IsReal (Ideal.rsqrt (v + e)) :=
  isReal_rsqrt_of_pos (add_pos_real hv h0 he).1 (add_pos_real hv h0 he).2

/-- THE BATCH NORMALISATION, one element: the multiply-add with a folded scale and shift, whose
    scale clamps the variance at zero first, is the subtract-scale-gain-offset form. -/
theorem batchnorm_eq {x μ v γ β e : EReal} (hx : IsReal x) (hμ : IsReal μ) (hv : IsReal v) (h0 : 0 ≤ v)
    (hγ : IsReal γ) (hβ : IsReal β) (he : ∃ r : ℝ, 0 < r ∧ e = r) :
    x * (Ideal.rsqrt (max v 0 + e) * γ) + (β - μ * (Ideal.rsqrt (max v 0 + e) * γ))
      = ((x - μ) * Ideal.rsqrt (v + e)) * γ + β := by
  rw [max_eq_left h0]
  exact affine_of_real hx hμ (isReal_rsqrt_add hv h0 he) hγ hβ

end Cert.Math
-- ==== Proof.LibSplitDot.lean ====
/-
  A contraction over 384 terms is three contractions over 128 terms, added in order.

  A row of a concatenation [l0 | l1 | l2] of three 128-wide rows, contracted with a
  384-long column r, is
      ∑_{k<384} [l0|l1|l2]_k r_k
        = ((0 + ∑_{k<128} l0_k r_k) + ∑_{k<128} l1_k r_{128+k}) + ∑_{k<128} l2_k r_{256+k}:
  the index set {0..383} is the disjoint union of the three translates of {0..127}, and a
  finite sum in a commutative additive monoid splits along such a union. No finiteness of
  the terms is used: the extended reals are a commutative additive monoid, and the product
  is taken term by term.
-/
import Idealize.ShloMosaic.PureOps.Ideal
import Idealize.ShloMosaic.Lib.ValueIdx

open scoped BigOperators

namespace Cert.Math

open Idealize.ShloMosaic

/-- A sum over `{0..383}` is the sum over `{0..127}`, then over `{128..255}`, then over
    `{256..383}`, accumulated from `0` in that order. -/
theorem sum_fin384_split {M : Type*} [AddCommMonoid M] (f : Fin 384 → M) :
    ∑ k : Fin 384, f k
      = ((0 + ∑ k : Fin 128, f ⟨k.val, by have := k.isLt; omega⟩)
            + ∑ k : Fin 128, f ⟨128 + k.val, by have := k.isLt; omega⟩)
          + ∑ k : Fin 128, f ⟨256 + k.val, by have := k.isLt; omega⟩ := by
  have e : ∑ k : Fin 384, f k = ∑ k : Fin (128 + 128 + 128), f k := rfl
  rw [e, Fin.sum_univ_add, Fin.sum_univ_add, zero_add]
  rfl

/-- The contraction of two 384-long families splits into the three 128-long contractions of
    their thirds. -/
theorem dot384_split (c r : Fin 384 → EReal) :
    ∑ k : Fin 384, c k * r k
      = ((0 + ∑ k : Fin 128, c ⟨k.val, by have := k.isLt; omega⟩ * r ⟨k.val, by have := k.isLt; omega⟩)
            + ∑ k : Fin 128, c ⟨128 + k.val, by have := k.isLt; omega⟩ * r ⟨128 + k.val, by have := k.isLt; omega⟩)
          + ∑ k : Fin 128, c ⟨256 + k.val, by have := k.isLt; omega⟩ * r ⟨256 + k.val, by have := k.isLt; omega⟩ :=
  sum_fin384_split fun k => c k * r k

/-- The same with the thirds NAMED: whatever the two 384-long families are known to be on each
    third (`l0 l1 l2` the three concatenated rows, `r0 r1 r2` the three row blocks of the
    matrix), the long contraction is the three short ones accumulated from `0`. -/
theorem dot384_split_of_eq (c r : Fin 384 → EReal) (l0 l1 l2 r0 r1 r2 : Fin 128 → EReal)
    (hl0 : ∀ k : Fin 128, c ⟨k.val, by have := k.isLt; omega⟩ = l0 k)
    (hl1 : ∀ k : Fin 128, c ⟨128 + k.val, by have := k.isLt; omega⟩ = l1 k)
    (hl2 : ∀ k : Fin 128, c ⟨256 + k.val, by have := k.isLt; omega⟩ = l2 k)
    (hr0 : ∀ k : Fin 128, r ⟨k.val, by have := k.isLt; omega⟩ = r0 k)
    (hr1 : ∀ k : Fin 128, r ⟨128 + k.val, by have := k.isLt; omega⟩ = r1 k)
    (hr2 : ∀ k : Fin 128, r ⟨256 + k.val, by have := k.isLt; omega⟩ = r2 k) :
    ∑ k : Fin 384, c k * r k
      = ((0 + ∑ k : Fin 128, l0 k * r0 k) + ∑ k : Fin 128, l1 k * r1 k) + ∑ k : Fin 128, l2 k * r2 k := by
  rw [dot384_split]
  simp only [hl0, hl1, hl2, hr0, hr1, hr2]

/-- The concatenation of three 128-long families. -/
def concat3 {α : Type} (l0 l1 l2 : Fin 128 → α) : Fin 384 → α := fun k =>
  if h : k.val < 128 then l0 ⟨k.val, h⟩
  else if h' : k.val < 256 then l1 ⟨k.val - 128, by omega⟩
  else l2 ⟨k.val - 256, by have := k.isLt; omega⟩

theorem concat3_first {α : Type} (l0 l1 l2 : Fin 128 → α) (k : Fin 128) :
    concat3 l0 l1 l2 ⟨k.val, by have := k.isLt; omega⟩ = l0 k := by
  unfold concat3; rw [dif_pos k.isLt]
theorem concat3_second {α : Type} (l0 l1 l2 : Fin 128 → α) (k : Fin 128) :
    concat3 l0 l1 l2 ⟨128 + k.val, by have := k.isLt; omega⟩ = l1 k := by
  unfold concat3
  rw [dif_neg (by show ¬ (128 + k.val < 128); omega), dif_pos (by show 128 + k.val < 256; have := k.isLt; omega)]
  exact congrArg l1 (Fin.ext (by show 128 + k.val - 128 = k.val; omega))
theorem concat3_third {α : Type} (l0 l1 l2 : Fin 128 → α) (k : Fin 128) :
    concat3 l0 l1 l2 ⟨256 + k.val, by have := k.isLt; omega⟩ = l2 k := by
  unfold concat3
  rw [dif_neg (by show ¬ (256 + k.val < 128); omega), dif_neg (by show ¬ (256 + k.val < 256); omega)]
  exact congrArg l2 (Fin.ext (by show 256 + k.val - 256 = k.val; omega))

/-- The contraction of a concatenation `[l0 | l1 | l2]` with a 384-long family `r`: the three
    contractions with `r`'s thirds, accumulated from `0`. -/
theorem dot_concat3 (l0 l1 l2 : Fin 128 → EReal) (r : Fin 384 → EReal) :
    ∑ k : Fin 384, concat3 l0 l1 l2 k * r k
      = ((0 + ∑ k : Fin 128, l0 k * r ⟨k.val, by have := k.isLt; omega⟩)
            + ∑ k : Fin 128, l1 k * r ⟨128 + k.val, by have := k.isLt; omega⟩)
          + ∑ k : Fin 128, l2 k * r ⟨256 + k.val, by have := k.isLt; omega⟩ :=
  dot384_split_of_eq _ r l0 l1 l2 _ _ _ (concat3_first l0 l1 l2) (concat3_second l0 l1 l2)
    (concat3_third l0 l1 l2) (fun _ => rfl) (fun _ => rfl) (fun _ => rfl)

/-- A sum over a one-axis contraction index is the sum over that axis's coordinate. -/
theorem sum_contr1 {M : Type*} [AddCommMonoid M] {sl sr so : Shape} (D : DotDims sl sr so) (n : Nat)
    (hr : D.contr.rank = 1) (hs : D.contr.size ⟨0, by omega⟩ = n) (g : D.contr.Idx → M) :
    ∑ q : D.contr.Idx, g q = ∑ k : Fin n, g ((ValueIdx.contrEquiv1 D n hr hs).symm k) :=
  (Equiv.sum_comp (ValueIdx.contrEquiv1 D n hr hs).symm g).symm

end Cert.Math
-- ==== Proof.ReadRef.lean ====
/-
  The reference's contractions, broadcasts and column statistics read at one index.

  Each lemma reads one array operation of the reference at an index given by its coordinates:
  the product of a three-block concatenation with a transposed weight matrix as three
  128-term sums; the two later products as one 128-term sum; a row vector or a column vector
  broadcast over a matrix as the vector's entry; a column's mean as the column's sum over
  the 50000 rows divided by 50000; a column's variance as the sum of squared deviations
  from that mean divided by 50000.
-/
import proofs.«181888_j53283364274269_2_alg».proof.ReferenceIdeal
import proofs.«181888_j53283364274269_2_alg».proof.Proof.LibSplitDot
import proofs.«181888_j53283364274269_2_alg».proof.Proof.LibFinite
import Idealize.ShloMosaic.Lib.Pipeline.Value
import Idealize.ShloMosaic.Lib.ValueLayout
import Idealize.ShloMosaic.Lib.IdealHost
import Idealize.ShloMosaic.PureOps.Ideal.Laws

open scoped BigOperators

namespace Cert.ReferenceIdeal.HandRead
open Idealize.ShloMosaic Idealize.ShloMosaic.ValueIdx Cert.ReferenceIdeal Cert.Math
variable [Facts₀]
open Facts₀

/-! ## The three contractions' index maps -/

theorem D384_rank : (dot_S50000x384_S384x128_S50000x128_1_0_0_1_n_n).contr.rank = 1 := rfl
theorem D384_size : (dot_S50000x384_S384x128_S50000x128_1_0_0_1_n_n).contr.size ⟨0, by rw [D384_rank]; omega⟩ = 384 := rfl
/-- Output `(i, j)`, contraction coordinate `k`: the left operand is read at `(i, k)` … -/
theorem D384_lhs (i : Fin 50000) (j : Fin 128) (k : Fin 384) :
    (dot_S50000x384_S384x128_S50000x128_1_0_0_1_n_n).lhsIdx (ix2 i j)
      ((contrEquiv1 _ 384 D384_rank D384_size).symm k) = ix2 i k := by
  funext a
  match a with
  | ⟨0, _⟩ => exact Fin.ext (by simp [DotDims.lhsIdx, dot_S50000x384_S384x128_S50000x128_1_0_0_1_n_n]; rfl)
  | ⟨1, _⟩ => exact Fin.ext (by simp [DotDims.lhsIdx, dot_S50000x384_S384x128_S50000x128_1_0_0_1_n_n, contrEquiv1]; rfl)
/-- … and the right operand at `(k, j)`. -/
theorem D384_rhs (i : Fin 50000) (j : Fin 128) (k : Fin 384) :
    (dot_S50000x384_S384x128_S50000x128_1_0_0_1_n_n).rhsIdx (ix2 i j)
      ((contrEquiv1 _ 384 D384_rank D384_size).symm k) = ix2 k j := by
  funext a
  match a with
  | ⟨0, _⟩ => exact Fin.ext (by simp [DotDims.rhsIdx, dot_S50000x384_S384x128_S50000x128_1_0_0_1_n_n, contrEquiv1]; rfl)
  | ⟨1, _⟩ => exact Fin.ext (by simp [DotDims.rhsIdx, dot_S50000x384_S384x128_S50000x128_1_0_0_1_n_n]; rfl)

theorem D128_rank : (dot_S50000x128_S128x128_S50000x128_1_0_0_1_n_n).contr.rank = 1 := rfl
theorem D128_size : (dot_S50000x128_S128x128_S50000x128_1_0_0_1_n_n).contr.size ⟨0, by rw [D128_rank]; omega⟩ = 128 := rfl
theorem D128_lhs (i : Fin 50000) (j : Fin 128) (k : Fin 128) :
    (dot_S50000x128_S128x128_S50000x128_1_0_0_1_n_n).lhsIdx (ix2 i j)
      ((contrEquiv1 _ 128 D128_rank D128_size).symm k) = ix2 i k := by
  funext a
  match a with
  | ⟨0, _⟩ => exact Fin.ext (by simp [DotDims.lhsIdx, dot_S50000x128_S128x128_S50000x128_1_0_0_1_n_n]; rfl)
  | ⟨1, _⟩ => exact Fin.ext (by simp [DotDims.lhsIdx, dot_S50000x128_S128x128_S50000x128_1_0_0_1_n_n, contrEquiv1]; rfl)
theorem D128_rhs (i : Fin 50000) (j : Fin 128) (k : Fin 128) :
    (dot_S50000x128_S128x128_S50000x128_1_0_0_1_n_n).rhsIdx (ix2 i j)
      ((contrEquiv1 _ 128 D128_rank D128_size).symm k) = ix2 k j := by
  funext a
  match a with
  | ⟨0, _⟩ => exact Fin.ext (by simp [DotDims.rhsIdx, dot_S50000x128_S128x128_S50000x128_1_0_0_1_n_n, contrEquiv1]; rfl)
  | ⟨1, _⟩ => exact Fin.ext (by simp [DotDims.rhsIdx, dot_S50000x128_S128x128_S50000x128_1_0_0_1_n_n]; rfl)

theorem D64_rank : (dot_S50000x128_S128x64_S50000x64_1_0_0_1_n_n).contr.rank = 1 := rfl
theorem D64_size : (dot_S50000x128_S128x64_S50000x64_1_0_0_1_n_n).contr.size ⟨0, by rw [D64_rank]; omega⟩ = 128 := rfl
theorem D64_lhs (i : Fin 50000) (j : Fin 64) (k : Fin 128) :
    (dot_S50000x128_S128x64_S50000x64_1_0_0_1_n_n).lhsIdx (ix2 i j)
      ((contrEquiv1 _ 128 D64_rank D64_size).symm k) = ix2 i k := by
  funext a
  match a with
  | ⟨0, _⟩ => exact Fin.ext (by simp [DotDims.lhsIdx, dot_S50000x128_S128x64_S50000x64_1_0_0_1_n_n]; rfl)
  | ⟨1, _⟩ => exact Fin.ext (by simp [DotDims.lhsIdx, dot_S50000x128_S128x64_S50000x64_1_0_0_1_n_n, contrEquiv1]; rfl)
theorem D64_rhs (i : Fin 50000) (j : Fin 64) (k : Fin 128) :
    (dot_S50000x128_S128x64_S50000x64_1_0_0_1_n_n).rhsIdx (ix2 i j)
      ((contrEquiv1 _ 128 D64_rank D64_size).symm k) = ix2 k j := by
  funext a
  match a with
  | ⟨0, _⟩ => exact Fin.ext (by simp [DotDims.rhsIdx, dot_S50000x128_S128x64_S50000x64_1_0_0_1_n_n, contrEquiv1]; rfl)
  | ⟨1, _⟩ => exact Fin.ext (by simp [DotDims.rhsIdx, dot_S50000x128_S128x64_S50000x64_1_0_0_1_n_n]; rfl)

/-! ## The concatenation of three 128-column blocks, read in each block -/

section Concat
variable {α : Type} (X0 X1 X2 : S50000x128.Idx → α)

theorem concat_first (i : Fin 50000) (k : Fin 128) :
    concatenate S50000x384 1 [⟨S50000x128, X0⟩, ⟨S50000x128, X1⟩, ⟨S50000x128, X2⟩]
        concatenates_S50000x128_S50000x128_S50000x128_S50000x384_d1 (ix2 i ⟨k.val, by have := k.isLt; omega⟩)
      = X0 (ix2 i k) :=
by
  refine concatenate_apply_piece (t := S50000x384) 1 [⟨S50000x128, X0⟩, ⟨S50000x128, X1⟩, ⟨S50000x128, X2⟩]
    concatenates_S50000x128_S50000x128_S50000x128_S50000x384_d1 (ix2 i ⟨k.val, by have := k.isLt; omega⟩) 0 (by simp)
    S50000x128 X0 rfl rfl 0 rfl (ix2 i k) ?_ ?_
  · intro b hb
    match b with
    | ⟨0, _⟩ => rfl
    | ⟨1, _⟩ => exact absurd rfl hb
  · exact Nat.zero_add _
theorem concat_second (i : Fin 50000) (k : Fin 128) :
    concatenate S50000x384 1 [⟨S50000x128, X0⟩, ⟨S50000x128, X1⟩, ⟨S50000x128, X2⟩]
        concatenates_S50000x128_S50000x128_S50000x128_S50000x384_d1 (ix2 i ⟨128 + k.val, by have := k.isLt; omega⟩)
      = X1 (ix2 i k) :=
by
  refine concatenate_apply_piece (t := S50000x384) 1 [⟨S50000x128, X0⟩, ⟨S50000x128, X1⟩, ⟨S50000x128, X2⟩]
    concatenates_S50000x128_S50000x128_S50000x128_S50000x384_d1 (ix2 i ⟨128 + k.val, by have := k.isLt; omega⟩) 1 (by simp)
    S50000x128 X1 rfl rfl 128 rfl (ix2 i k) ?_ ?_
  · intro b hb
    match b with
    | ⟨0, _⟩ => rfl
    | ⟨1, _⟩ => exact absurd rfl hb
  · rfl
theorem concat_third (i : Fin 50000) (k : Fin 128) :
    concatenate S50000x384 1 [⟨S50000x128, X0⟩, ⟨S50000x128, X1⟩, ⟨S50000x128, X2⟩]
        concatenates_S50000x128_S50000x128_S50000x128_S50000x384_d1 (ix2 i ⟨256 + k.val, by have := k.isLt; omega⟩)
      = X2 (ix2 i k) :=
by
  refine concatenate_apply_piece (t := S50000x384) 1 [⟨S50000x128, X0⟩, ⟨S50000x128, X1⟩, ⟨S50000x128, X2⟩]
    concatenates_S50000x128_S50000x128_S50000x128_S50000x384_d1 (ix2 i ⟨256 + k.val, by have := k.isLt; omega⟩) 2 (by simp)
    S50000x128 X2 rfl rfl 256 rfl (ix2 i k) ?_ ?_
  · intro b hb
    match b with
    | ⟨0, _⟩ => rfl
    | ⟨1, _⟩ => exact absurd rfl hb
  · rfl

end Concat

/-! ## The three matrix products at an index -/

/-- The first layer's product: row `i` of `[X0 | X1 | X2]` with row `j` of `W` (column `j` of its
    transpose) is the three 128-term contractions with the three column blocks of `W`'s row `j`,
    accumulated from `0`. -/
theorem lin384_apply (X0 X1 X2 : FVec Ideal S50000x128 .f32) (W : FVec Ideal S128x384 .f32) (i : Fin 50000) (j : Fin 128) :
    Host.dotGeneral dot_S50000x384_S384x128_S50000x128_1_0_0_1_n_n none
        (concatenate S50000x384 1 [⟨S50000x128, X0⟩, ⟨S50000x128, X1⟩, ⟨S50000x128, X2⟩]
          concatenates_S50000x128_S50000x128_S50000x128_S50000x384_d1)
        (transpose S384x128 [1, 0] W transposes_S128x384_S384x128_1_0) (ix2 i j)
      = ((0 + ∑ k : Fin 128, X0 (ix2 i k) * W (ix2 j ⟨k.val, by have := k.isLt; omega⟩))
            + ∑ k : Fin 128, X1 (ix2 i k) * W (ix2 j ⟨128 + k.val, by have := k.isLt; omega⟩))
          + ∑ k : Fin 128, X2 (ix2 i k) * W (ix2 j ⟨256 + k.val, by have := k.isLt; omega⟩) := by
  show FloatOps.dotGeneral _ none .single _ _ (ix2 i j) = _
  rw [Ideal.dotGeneral_apply, sum_contr1 _ 384 D384_rank D384_size]
  simp only [D384_lhs, D384_rhs]
  exact dot384_split_of_eq
    (fun k => concatenate S50000x384 1 [⟨S50000x128, X0⟩, ⟨S50000x128, X1⟩, ⟨S50000x128, X2⟩]
      concatenates_S50000x128_S50000x128_S50000x128_S50000x384_d1 (ix2 i k))
    (fun k => transpose S384x128 [1, 0] W transposes_S128x384_S384x128_1_0 (ix2 k j))
    _ _ _ _ _ _
    (concat_first X0 X1 X2 i) (concat_second X0 X1 X2 i) (concat_third X0 X1 X2 i)
    (fun k => transpose_ix2_apply W transposes_S128x384_S384x128_1_0 _ j)
    (fun k => transpose_ix2_apply W transposes_S128x384_S384x128_1_0 _ j)
    (fun k => transpose_ix2_apply W transposes_S128x384_S384x128_1_0 _ j)

/-- The second product: row `i` of `X` with row `j` of `Wm`. -/
theorem lin128_apply (X : FVec Ideal S50000x128 .f32) (Wm : FVec Ideal S128x128 .f32) (i : Fin 50000) (j : Fin 128) :
    Host.dotGeneral dot_S50000x128_S128x128_S50000x128_1_0_0_1_n_n none X
        (transpose S128x128 [1, 0] Wm transposes_S128x128_S128x128_1_0) (ix2 i j)
      = ∑ k : Fin 128, X (ix2 i k) * Wm (ix2 j k) := by
  show FloatOps.dotGeneral _ none .single _ _ (ix2 i j) = _
  rw [Ideal.dotGeneral_apply, sum_contr1 _ 128 D128_rank D128_size]
  simp only [D128_lhs, D128_rhs]
  exact Finset.sum_congr rfl fun k _ =>
    congrArg (X (ix2 i k) * ·) (transpose_ix2_apply Wm transposes_S128x128_S128x128_1_0 k j)

/-- The third product: row `i` of `X` with row `j` of the 64-row `Wm`. -/
theorem lin64_apply (X : FVec Ideal S50000x128 .f32) (Wm : FVec Ideal S64x128 .f32) (i : Fin 50000) (j : Fin 64) :
    Host.dotGeneral dot_S50000x128_S128x64_S50000x64_1_0_0_1_n_n none X
        (transpose S128x64 [1, 0] Wm transposes_S64x128_S128x64_1_0) (ix2 i j)
      = ∑ k : Fin 128, X (ix2 i k) * Wm (ix2 j k) := by
  show FloatOps.dotGeneral _ none .single _ _ (ix2 i j) = _
  rw [Ideal.dotGeneral_apply, sum_contr1 _ 128 D64_rank D64_size]
  simp only [D64_lhs, D64_rhs]
  exact Finset.sum_congr rfl fun k _ =>
    congrArg (X (ix2 i k) * ·) (transpose_ix2_apply Wm transposes_S64x128_S128x64_1_0 k j)

/-! ## Row vectors and column vectors broadcast over a matrix -/

section Bcast
variable {α : Type}

/-- A 128-vector laid along every one of the 50000 rows. -/
theorem bias_row128_apply (b : S128.Idx → α) (i : Fin 50000) (j : Fin 128) :
    broadcastInDim S50000x128 ![0, 1] bcast_S1x128_S50000x128_0_1 (broadcastInDim S1x128 ![1] bcast_S128_S1x128_1 b) (ix2 i j)
      = b (ix1 j) :=
  (broadcastInDim_apply (s := S1x128) (t := S50000x128) ![0, 1] bcast_S1x128_S50000x128_0_1 _ (ix2 i j) (ix2 (0 : Fin 1) j)
      (fun a => match a with | ⟨0, _⟩ => rfl | ⟨1, _⟩ => rfl)).trans
    (broadcastInDim_apply (s := S128) (t := S1x128) ![1] bcast_S128_S1x128_1 b (ix2 (0 : Fin 1) j) (ix1 j)
      (fun a => match a with | ⟨0, _⟩ => rfl))

/-- A one-row matrix laid along every one of the 50000 rows. -/
theorem row1x128_apply (b : S1x128.Idx → α) (i : Fin 50000) (j : Fin 128) :
    broadcastInDim S50000x128 ![0, 1] bcast_S1x128_S50000x128_0_1 b (ix2 i j) = b (ix2 (0 : Fin 1) j) :=
  broadcastInDim_apply (s := S1x128) (t := S50000x128) ![0, 1] bcast_S1x128_S50000x128_0_1 _ (ix2 i j) (ix2 (0 : Fin 1) j)
      (fun a => match a with | ⟨0, _⟩ => rfl | ⟨1, _⟩ => rfl)

/-- A 128-vector as a one-row matrix. -/
theorem vec128_row_apply (b : S128.Idx → α) (u : Fin 1) (j : Fin 128) :
    broadcastInDim S1x128 ![1] bcast_S128_S1x128_1 b (ix2 u j) = b (ix1 j) :=
  broadcastInDim_apply (s := S128) (t := S1x128) ![1] bcast_S128_S1x128_1 b (ix2 u j) (ix1 j)
      (fun a => match a with | ⟨0, _⟩ => rfl)

/-- A 64-vector laid along every one of the 50000 rows. -/
theorem bias_row64_apply (b : S64.Idx → α) (i : Fin 50000) (j : Fin 64) :
    broadcastInDim S50000x64 ![0, 1] bcast_S1x64_S50000x64_0_1 (broadcastInDim S1x64 ![1] bcast_S64_S1x64_1 b) (ix2 i j)
      = b (ix1 j) :=
  (broadcastInDim_apply (s := S1x64) (t := S50000x64) ![0, 1] bcast_S1x64_S50000x64_0_1 _ (ix2 i j) (ix2 (0 : Fin 1) j)
      (fun a => match a with | ⟨0, _⟩ => rfl | ⟨1, _⟩ => rfl)).trans
    (broadcastInDim_apply (s := S64) (t := S1x64) ![1] bcast_S64_S1x64_1 b (ix2 (0 : Fin 1) j) (ix1 j)
      (fun a => match a with | ⟨0, _⟩ => rfl))

/-- A 50000-vector laid along every one of the 128 columns. -/
theorem col_apply (d : S50000.Idx → α) (i : Fin 50000) (j : Fin 128) :
    broadcastInDim S50000x128 ![0, 1] bcast_S50000x1_S50000x128_0_1 (broadcastInDim S50000x1 ![0] bcast_S50000_S50000x1_0 d) (ix2 i j)
      = d (ix1 i) :=
  (broadcastInDim_apply (s := S50000x1) (t := S50000x128) ![0, 1] bcast_S50000x1_S50000x128_0_1 _ (ix2 i j) (ix2 i (0 : Fin 1))
      (fun a => match a with | ⟨0, _⟩ => rfl | ⟨1, _⟩ => rfl)).trans
    (broadcastInDim_apply (s := S50000) (t := S50000x1) ![0] bcast_S50000_S50000x1_0 d (ix2 i (0 : Fin 1)) (ix1 i)
      (fun a => match a with | ⟨0, _⟩ => rfl))

/-- A one-column matrix laid along every one of the 128 columns. -/
theorem col50000x1_apply (d : S50000x1.Idx → α) (i : Fin 50000) (j : Fin 128) :
    broadcastInDim S50000x128 ![0, 1] bcast_S50000x1_S50000x128_0_1 d (ix2 i j) = d (ix2 i (0 : Fin 1)) :=
  broadcastInDim_apply (s := S50000x1) (t := S50000x128) ![0, 1] bcast_S50000x1_S50000x128_0_1 _ (ix2 i j) (ix2 i (0 : Fin 1))
      (fun a => match a with | ⟨0, _⟩ => rfl | ⟨1, _⟩ => rfl)

end Bcast

/-! ## A column's sum, mean and variance -/

/-- The sum over the rows, as a relation on the two shapes. -/
theorem reduces_d0 : S50000x128.Reduces [0] S128 := by decide

/-- Column `j` with the row coordinate `k` put back is `(k, j)`. -/
theorem lift_d0 (j : Fin 128) (k : Fin 50000) : reduces_d0.lift (ix1 j) k = ix2 k j := by
  funext a
  match a with
  | ⟨0, _⟩ => rfl
  | ⟨1, _⟩ => rfl

/-- The host's sum over the rows at column `j`: the initial value plus the 50000 entries of the column. -/
theorem colsum_apply (X : FVec Ideal S50000x128 .f32) (init : FVec Ideal S_ .f32) (j : Fin 128) :
    Host.reduceAdd X init reducesTo_S50000x128_S128_d0 h_S_ (ix1 j) = init ix0 + ∑ i : Fin 50000, X (ix2 i j) := by
  rw [hostReduceAdd_apply, Ideal.hostReduceAdd_single _ reduces_d0, eq_ix0 (Shape.Idx.first h_S_)]
  exact congrArg (init ix0 + ·) (Finset.sum_congr rfl fun k _ => congrArg X (lift_d0 j k))

/-- The column mean @main computes: the column's sum from zero, over fifty thousand. -/
theorem mean_apply (X : FVec Ideal S50000x128 .f32) (j : Fin 128) :
    Host.divf (Host.reduceAdd X (constant S_ .f32 0x00000000#32) reducesTo_S50000x128_S128_d0 h_S_)
        (broadcastInDim S128 ![] bcast_S_S128 (constant S_ .f32 0x47435000#32)) (ix1 j)
      = Ideal.div (0 + ∑ i : Fin 50000, X (ix2 i j)) ((50000 : ℝ) : EReal) := by
  rw [hostDivf_apply, colsum_apply, broadcastInDim_scalar_apply, constant_apply, constant_apply,
    Ideal.ofBits_zero_f32, ofBits_50000_f32]

/-- The variance function's text, over its argument `X` (its second argument the integer constant zero):
    the row of column means … -/
noncomputable abbrev varMean (X : FVec Ideal S50000x128 .f32) : FVec Ideal S1x128 .f32 :=
  Host.divf
    (broadcastInDim S1x128 ![1] bcast_S128_S1x128_1
      (Host.reduceAdd X (constant S_ .f32 0x00000000#32) reducesTo_S50000x128_S128_d0 h_S_))
    (broadcastInDim S1x128 ![] bcast_S_S1x128 (constant S_ .f32 0x47435000#32))
/-- … the deviations from them … -/
noncomputable abbrev varDev (X : FVec Ideal S50000x128 .f32) : FVec Ideal S50000x128 .f32 :=
  subf X (broadcastInDim S50000x128 ![0, 1] bcast_S1x128_S50000x128_0_1 (varMean X))
/-- … the count, fifty thousand minus the integer zero read as a float … -/
noncomputable abbrev varCount : FVec Ideal S_ .f32 :=
  subf (constant S_ .f32 0x47435000#32) (sitofp .f32 (constantI S_ 32 0#32))
/-- … the sum of squared deviations over the count … -/
noncomputable abbrev varQuot (X : FVec Ideal S50000x128 .f32) : FVec Ideal S128 .f32 :=
  Host.divf
    (Host.reduceAdd (mulf (varDev X) (varDev X)) (constant S_ .f32 0x00000000#32) reducesTo_S50000x128_S128_d0 h_S_)
    (broadcastInDim S128 ![] bcast_S_S128 varCount)
/-- … kept where the count is positive. -/
noncomputable abbrev varTerm (X : FVec Ideal S50000x128 .f32) : FVec Ideal S128 .f32 :=
  select (broadcastInDim S128 ![] bcast_S_S128 (cmpf .ogt varCount (constant S_ .f32 0x00000000#32)))
    (varQuot X) (broadcastInDim S128 ![] bcast_S_S128 (id (constant S_ .f32 0x7FC00000#32)))

/-- The mean inside the variance function is the same quotient. -/
theorem varMean_apply (X : FVec Ideal S50000x128 .f32) (u : Fin 1) (j : Fin 128) :
    varMean X (ix2 u j) = Ideal.div (0 + ∑ i : Fin 50000, X (ix2 i j)) ((50000 : ℝ) : EReal) := by
  show Host.divf _ _ (ix2 u j) = _
  rw [hostDivf_apply, vec128_row_apply, colsum_apply, broadcastInDim_scalar_apply, constant_apply, constant_apply,
    Ideal.ofBits_zero_f32, ofBits_50000_f32]

theorem varDev_apply (X : FVec Ideal S50000x128 .f32) (i : Fin 50000) (j : Fin 128) :
    varDev X (ix2 i j) = X (ix2 i j) - Ideal.div (0 + ∑ i' : Fin 50000, X (ix2 i' j)) ((50000 : ℝ) : EReal) := by
  show subf _ _ (ix2 i j) = _
  rw [subf_apply, row1x128_apply, varMean_apply]

/-- The count is fifty thousand. -/
theorem varCount_apply : varCount ix0 = ((50000 : ℝ) : EReal) := by
  show Ideal.ofBits .f32 0x47435000#32 - (((0#32 : BitVec 32).toInt : ℝ) : EReal) = _
  rw [ofBits_50000_f32, show ((0#32 : BitVec 32).toInt : ℝ) = 0 by norm_num, EReal.coe_zero, sub_zero]

theorem varQuot_apply (X : FVec Ideal S50000x128 .f32) (j : Fin 128) :
    varQuot X (ix1 j)
      = Ideal.div (0 + ∑ i : Fin 50000,
            (X (ix2 i j) - Ideal.div (0 + ∑ i' : Fin 50000, X (ix2 i' j)) ((50000 : ℝ) : EReal))
              * (X (ix2 i j) - Ideal.div (0 + ∑ i' : Fin 50000, X (ix2 i' j)) ((50000 : ℝ) : EReal)))
          ((50000 : ℝ) : EReal) := by
  show Host.divf _ _ (ix1 j) = _
  rw [hostDivf_apply, colsum_apply, broadcastInDim_scalar_apply, varCount_apply, constant_apply, Ideal.ofBits_zero_f32]
  simp only [mulf_apply, varDev_apply]

/-- THE VARIANCE at column `j`: the count is positive, so the select keeps the quotient. -/
theorem varTerm_apply (X : FVec Ideal S50000x128 .f32) (j : Fin 128) :
    varTerm X (ix1 j)
      = Ideal.div (0 + ∑ i : Fin 50000,
            (X (ix2 i j) - Ideal.div (0 + ∑ i' : Fin 50000, X (ix2 i' j)) ((50000 : ℝ) : EReal))
              * (X (ix2 i j) - Ideal.div (0 + ∑ i' : Fin 50000, X (ix2 i' j)) ((50000 : ℝ) : EReal)))
          ((50000 : ℝ) : EReal) := by
  show select _ _ _ (ix1 j) = _
  rw [select_apply, broadcastInDim_scalar_apply, cmpf_apply, varCount_apply, constant_apply, Ideal.ofBits_zero_f32]
  have hc : FloatOps.cmpf (F := Ideal) (φ := .f32) .ogt ((50000 : ℝ) : EReal) 0 = 1#1 := by
    show BitVec.ofBool (decide ((0 : EReal) < ((50000 : ℝ) : EReal))) = 1#1
    rw [decide_eq_true (EReal.coe_pos.mpr (by norm_num))]; rfl
  rw [hc, select_one, varQuot_apply]

end Cert.ReferenceIdeal.HandRead
-- ==== Proof.RefValue.lean ====
/- The reference's values are real numbers.  Along the reference's chain of steps, every step takes arrays whose
   entries are all real numbers to arrays whose entries are all real numbers: sums, products, differences, maxima,
   gathers, scatters, matrix products and broadcasts of reals are real; a power of reals is real; the quotient
   by the count 50000 is real; the variance is a real number that is not negative, so that the reciprocal square
   root of the variance plus the positive constant is real.  The precondition — every float argument compares
   below plus infinity in absolute value, everywhere — says exactly that every entry of every float argument is a
   real number. -/
import proofs.«181888_j53283364274269_2_alg».proof.Proof.RefRun
import proofs.«181888_j53283364274269_2_alg».proof.Proof.LibFinite
import proofs.«181888_j53283364274269_2_alg».proof.Proof.LibVar
import proofs.«181888_j53283364274269_2_alg».proof.Proof.ReadRef
import proofs.«181888_j53283364274269_2_alg».proof.Pre_finite_inputs
import Idealize.ShloMosaic.Lib.ReduceAll

noncomputable section

open scoped BigOperators

namespace Cert.ReferenceIdeal.RefValue

open Idealize.ShloMosaic Idealize.ShloMosaic.ValueIdx Cert.ReferenceIdeal Cert.ReferenceIdeal.Gen Cert.ReferenceIdeal.RefRun Cert.Math

/-! ## The steps keep arrays of real numbers arrays of real numbers -/

theorem allReal_fill {w : BitVec 32} (h : IsReal (Ideal.ofBits .f32 w)) : AllReal (fill (F := Ideal) w) := by
  unfold fill
  exact allReal_broadcastInDim _ _ (allReal_constant _ h)

theorem allReal_colB {d : FVec Ideal S50000x1 .f32} (hd : AllReal d) : AllReal (colB (F := Ideal) d) := by
  unfold colB
  exact allReal_broadcastInDim _ _ hd

theorem allReal_row {v : FVec Ideal S128 .f32} (hv : AllReal v) : AllReal (row (F := Ideal) v) := by
  unfold row
  exact allReal_broadcastInDim _ _ (allReal_broadcastInDim _ _ hv)

/-- The in-degree is a finite sum of ones. -/
theorem allReal_deg (dst : IVec S800000 32) : AllReal (deg (F := Ideal) dst) := by
  unfold deg
  exact allReal_scatterAdd _ _ (allReal_broadcastInDim _ _ (allReal_constant _ isReal_ofBits_zero_f32))
    (allReal_broadcastInDim _ _ (allReal_constant _ isReal_ofBits_one_f32))

theorem allReal_clipLo {x : FVec Ideal S50000 .f32} {lo : FVec Ideal S_ .f32} (hx : AllReal x) (hlo : AllReal lo) :
    AllReal (clipLo (F := Ideal) x lo) := by
  unfold clipLo
  exact allReal_maximumf (allReal_broadcastInDim _ _ hlo) hx

/-- The degree normalisation is a power of reals. -/
theorem allReal_dinv (dst : IVec S800000 32) : AllReal (dinv (F := Ideal) dst) := by
  unfold dinv
  exact allReal_broadcastInDim _ _
    (allReal_hostPowf (allReal_clipLo (allReal_deg dst) (allReal_constant _ isReal_ofBits_one_f32))
      (allReal_broadcastInDim _ _ (allReal_constant _ isReal_ofBits_neg_half_f32)))

section Chain

variable {d : FVec Ideal S50000x1 .f32} {x x0 x1 x2 : FVec Ideal S50000x128 .f32} (src dst : IVec S800000 32)

theorem allReal_spmv (hd : AllReal d) (hx : AllReal x) : AllReal (spmv (F := Ideal) d src dst x) := by
  unfold spmv
  exact allReal_mulf
    (allReal_scatterAdd _ _ (allReal_fill isReal_ofBits_zero_f32)
      (allReal_gather _ _ (allReal_mulf hx (allReal_colB hd))))
    (allReal_colB hd)

theorem allReal_cheb1 (hd : AllReal d) (hx : AllReal x) : AllReal (cheb1 (F := Ideal) d src dst x) := by
  unfold cheb1
  exact allReal_addf (allReal_mulf (allReal_fill isReal_ofBits_neg_one_f32) (allReal_spmv src dst hd hx))
    (allReal_mulf hx (allReal_fill isReal_ofBits_zero_f32))

theorem allReal_cheb2 (hd : AllReal d) (hx0 : AllReal x0) (hx1 : AllReal x1) : AllReal (cheb2 (F := Ideal) d src dst x0 x1) := by
  unfold cheb2
  exact allReal_subf
    (allReal_addf (allReal_mulf (allReal_fill isReal_ofBits_neg_two_f32) (allReal_spmv src dst hd hx1))
      (allReal_mulf hx1 (allReal_fill isReal_ofBits_zero_f32)))
    hx0

theorem allReal_lin384 {w : FVec Ideal S128x384 .f32} {b : FVec Ideal S128 .f32} (h0 : AllReal x0) (h1 : AllReal x1)
    (h2 : AllReal x2) (hw : AllReal w) (hb : AllReal b) : AllReal (lin384 (F := Ideal) x0 x1 x2 w b) := by
  unfold lin384
  refine allReal_addf (allReal_dotGeneral _ _ (allReal_concatenate _ _ _ ?_) (allReal_transpose _ _ hw)) (allReal_row hb)
  intro p hp
  simp only [List.mem_cons, List.not_mem_nil, or_false] at hp
  rcases hp with rfl | rfl | rfl
  exacts [h0, h1, h2]

theorem allReal_relu (hx : AllReal x) : AllReal (relu (F := Ideal) x) := by
  unfold relu
  exact allReal_maximumf hx (allReal_fill isReal_ofBits_zero_f32)

theorem allReal_chebLin {w : FVec Ideal S128x384 .f32} {b : FVec Ideal S128 .f32} (hd : AllReal d) (hx : AllReal x)
    (hw : AllReal w) (hb : AllReal b) : AllReal (chebLin (F := Ideal) d src dst x w b) := by
  unfold chebLin
  exact allReal_lin384 hx (allReal_cheb1 src dst hd hx) (allReal_cheb2 src dst hd hx (allReal_cheb1 src dst hd hx)) hw hb

/-- The column means: finite sums of reals over the count 50000. -/
theorem allReal_mean (hx : AllReal x) : AllReal (mean (F := Ideal) x) := by
  unfold mean
  exact allReal_hostDivf (allReal_hostReduceAdd _ _ hx (allReal_constant _ isReal_ofBits_zero_f32))
    (fun _ => ⟨50000, by norm_num, ofBits_50000_f32⟩)

/-- The variance at column `j`: the squared deviations from the column mean, summed from zero, over 50000 (the
    count is positive, so the select keeps the quotient). -/
theorem var_apply (x : FVec Ideal S50000x128 .f32) (j : Fin 128) :
    var (F := Ideal) x (ix1 j)
      = Ideal.div (0 + ∑ i : Fin 50000,
            (x (ix2 i j) - Ideal.div (0 + ∑ i' : Fin 50000, x (ix2 i' j)) ((50000 : ℝ) : EReal))
              * (x (ix2 i j) - Ideal.div (0 + ∑ i' : Fin 50000, x (ix2 i' j)) ((50000 : ℝ) : EReal)))
          ((50000 : ℝ) : EReal) :=
  Cert.ReferenceIdeal.HandRead.varTerm_apply x j

/-- A variance is not negative. -/
theorem var_nonneg_apply (x : FVec Ideal S50000x128 .f32) (i : S128.Idx) : 0 ≤ var (F := Ideal) x i := by
  obtain ⟨j, rfl⟩ : ∃ j : Fin 128, i = ix1 j := ⟨i 0, eq_ix1 i⟩
  rw [var_apply]
  exact var_nonneg Finset.univ _ (by norm_num)

/-- The variance of an array of reals is real. -/
theorem allReal_var (hx : AllReal x) : AllReal (var (F := Ideal) x) := fun i => by
  obtain ⟨j, rfl⟩ : ∃ j : Fin 128, i = ix1 j := ⟨i 0, eq_ix1 i⟩
  rw [var_apply]
  have hm : ∀ j : Fin 128, IsReal (Ideal.div (0 + ∑ i' : Fin 50000, x (ix2 i' j)) ((50000 : ℝ) : EReal)) :=
    fun j => (isReal_zero.add (isReal_sum _ _ fun i _ => hx _)).div_coe (by norm_num)
  exact (isReal_zero.add (isReal_sum _ _ fun i _ => ((hx _).sub (hm _)).mul ((hx _).sub (hm _)))).div_coe (by norm_num)

/-- The variance plus the constant is a positive real, entrywise. -/
theorem var_add_eps_pos (hx : AllReal x) (i : S128.Idx) :
    IsReal (var (F := Ideal) x i + Ideal.ofBits .f32 0x3727C5AC#32) ∧ 0 < var (F := Ideal) x i + Ideal.ofBits .f32 0x3727C5AC#32 :=
  add_pos_real (allReal_var hx i) (var_nonneg_apply x i) ofBits_eps_f32_pos

/-- The reciprocal square root of the variance plus the constant is real. -/
theorem allReal_rsqrt_var (hx : AllReal x) :
    AllReal (Host.rsqrt (addf (var (F := Ideal) x) (broadcastInDim S128 ![] bcast_S_S128 (constant (F := Ideal) S_ .f32 0x3727C5AC#32)))) :=
  allReal_hostRsqrt (allReal_addf (allReal_var hx) (allReal_broadcastInDim _ _ (allReal_constant _ isReal_ofBits_eps_f32)))
    (fun i => (var_add_eps_pos hx i).2)

/-- The normalisation of an array of reals, with real gains and offsets, is real. -/
theorem allReal_bn {g b : FVec Ideal S128 .f32} (hx : AllReal x) (hg : AllReal g) (hb : AllReal b) : AllReal (bn (F := Ideal) x g b) := by
  unfold bn bnApply
  exact allReal_addf
    (allReal_mulf (allReal_mulf (allReal_subf hx (allReal_row (allReal_mean hx))) (allReal_row (allReal_rsqrt_var hx)))
      (allReal_row hg))
    (allReal_row hb)

end Chain

section Layers

variable {a0 : FVec Ideal S50000x128 .f32} (a1 a2 : IVec S800000 32) {a3 a5 : FVec Ideal S128x384 .f32}
  {a4 a6 a7 a8 : FVec Ideal S128 .f32}

theorem allReal_layer1 (h0 : AllReal a0) (h3 : AllReal a3) (h4 : AllReal a4) (h7 : AllReal a7) (h8 : AllReal a8) :
    AllReal (layer1 (F := Ideal) a0 a1 a2 a3 a4 a7 a8) := by
  unfold layer1
  exact allReal_bn (allReal_relu (allReal_chebLin a1 a2 (allReal_dinv a2) h0 h3 h4)) h7 h8

theorem allReal_layer2 {h : FVec Ideal S50000x128 .f32} (hh : AllReal h) (h5 : AllReal a5) (h6 : AllReal a6) :
    AllReal (layer2 (F := Ideal) h a1 a2 a5 a6) := by
  unfold layer2
  exact allReal_addf (allReal_relu (allReal_chebLin a1 a2 (allReal_dinv a2) hh h5 h6)) hh

end Layers

/-! ## The precondition: every float argument is an array of real numbers -/

instance : Subsingleton (Cert.Pre_finite_inputs.S_).Idx := ⟨fun a b => funext fun d => d.elim0⟩

/-- The word of plus infinity denotes the top element. -/
theorem ofBits_inf_f32 : Ideal.ofBits .f32 0x7F800000#32 = ⊤ := by simp [Ideal.ofBits, Ideal.ieee]

/-- An extended real whose absolute value is below the top element is a real number. -/
theorem isReal_of_abs_lt_top {x : EReal} (h : max x (-x) < ⊤) : IsReal x := by
  induction x using EReal.rec with
  | bot => simp at h
  | coe r => exact ⟨r, rfl⟩
  | top => simp at h

/-- One `all(|a| < +inf)` of the precondition, read back at every entry. -/
theorem allReal_of_all {s : Shape} (a : FVec Ideal s .f32)
    (hb : (Cert.Pre_finite_inputs.S_).BroadcastsInDim s (![] : Fin 0 → Fin s.rank)) {axes : List (Fin s.rank)}
    (hr : s.ReducesTo axes Cert.Pre_finite_inputs.S_) (hu : 0 < (Cert.Pre_finite_inputs.S_).numel)
    (e : Host.reduce IntOp.andi
          (cmpf .olt (Host.absf a) (broadcastInDim s ![] hb (constant Cert.Pre_finite_inputs.S_ .f32 0x7F800000#32)))
          (constantI Cert.Pre_finite_inputs.S_ 1 1#1) hr hu ix0 = 1#1) :
    AllReal a := fun i => by
  have h1 := Host.reduce_andi_all _ _ hr hu ix0 e i
  have h2 : BitVec.ofBool (decide (max (a i) (-(a i)) < Ideal.ofBits .f32 0x7F800000#32)) = 1#1 := h1
  rw [ofBits_inf_f32] at h2
  refine isReal_of_abs_lt_top ?_
  by_contra hlt
  rw [decide_eq_false hlt] at h2
  exact absurd h2 (by decide)

/-- The precondition holds exactly when each of its eleven conjuncts does; each says its argument is real. -/
theorem allReal_of_pre [Cert.Pre_finite_inputs.Facts]
    (a0 : FVec Ideal S50000x128 .f32) (a1 a2 : IVec S800000 32) (a3 : FVec Ideal S128x384 .f32) (a4 : FVec Ideal S128 .f32)
    (a5 : FVec Ideal S128x384 .f32) (a6 a7 a8 : FVec Ideal S128 .f32) (a9 : FVec Ideal S128x128 .f32)
    (a10 : FVec Ideal S128 .f32) (a11 : FVec Ideal S64x128 .f32) (a12 : FVec Ideal S64 .f32)
    (h : Cert.Pre_finite_inputs.fn (F := Ideal) a0 a1 a2 a3 a4 a5 a6 a7 a8 a9 a10 a11 a12 = fun _ => 1#1) :
    AllReal a0 ∧ AllReal a3 ∧ AllReal a4 ∧ AllReal a5 ∧ AllReal a6 ∧ AllReal a7 ∧ AllReal a8 ∧ AllReal a9 ∧ AllReal a10 ∧ AllReal a11 ∧ AllReal a12 := by
  have h0 := congrFun h ix0
  dsimp only [Cert.Pre_finite_inputs.fn, Cert.Pre_finite_inputs.fn_part1, Cert.Pre_finite_inputs.fn_part2,
    Cert.Pre_finite_inputs.fn_part3] at h0
  obtain ⟨h0, e12⟩ := IntOp.andi_eq_one.mp h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨e0, e3⟩ := IntOp.andi_eq_one.mp h0
  exact ⟨allReal_of_all a0 _ _ _ e0, allReal_of_all a3 _ _ _ e3, allReal_of_all a4 _ _ _ e4, allReal_of_all a5 _ _ _ e5, allReal_of_all a6 _ _ _ e6, allReal_of_all a7 _ _ _ e7, allReal_of_all a8 _ _ _ e8, allReal_of_all a9 _ _ _ e9, allReal_of_all a10 _ _ _ e10, allReal_of_all a11 _ _ _ e11, allReal_of_all a12 _ _ _ e12⟩

end Cert.ReferenceIdeal.RefValue

end
-- ==== Proof.KIHostEq.lean ====
/- The kernel program's host steps and the reference's steps are the same functions.  Both programs print the
   degree normalisation, the index wrap, the normalised adjacency product, the two recurrence steps, the column
   mean and the column variance as the same operations in the same order, each program over its own shape and
   dimension records; the records have equal contents, so each pair of functions is one function. -/
import proofs.«181888_j53283364274269_2_alg».proof.Proof.KIHost
import proofs.«181888_j53283364274269_2_alg».proof.Proof.RefRun

noncomputable section

namespace Cert.Bridge.Eq

open Idealize.ShloMosaic

variable {F : FTy → Type} [FloatOps F]

/-- The two programs' `deg` are one function: the same operations over shape and dimension records of equal contents. -/
theorem deg_eq (dst : BufTy.Contents (Elt F) ⟨Cert.ReferenceIdeal.S800000, .i32⟩) :
    Cert.KernelIdeal.HandHost.deg (F := F) dst = Cert.ReferenceIdeal.RefRun.deg (F := F) dst := rfl

/-- The two programs' `clipLo` are one function: the same operations over shape and dimension records of equal contents. -/
theorem clipLo_eq (x : BufTy.Contents (Elt F) ⟨Cert.ReferenceIdeal.S50000, .f32⟩) (lo : BufTy.Contents (Elt F) ⟨Cert.ReferenceIdeal.S_, .f32⟩) :
    Cert.KernelIdeal.HandHost.clipLo (F := F) x lo = Cert.ReferenceIdeal.RefRun.clipLo (F := F) x lo := rfl

/-- The two programs' `dinv` are one function: the same operations over shape and dimension records of equal contents. -/
theorem dinv_eq (dst : BufTy.Contents (Elt F) ⟨Cert.ReferenceIdeal.S800000, .i32⟩) :
    Cert.KernelIdeal.HandHost.dinv (F := F) dst = Cert.ReferenceIdeal.RefRun.dinv (F := F) dst := rfl

/-- The two programs' `wrapIdx` are one function: the same operations over shape and dimension records of equal contents. -/
theorem wrapIdx_eq (src : BufTy.Contents (Elt F) ⟨Cert.ReferenceIdeal.S800000, .i32⟩) :
    Cert.KernelIdeal.HandHost.wrapIdx (F := F) src = Cert.ReferenceIdeal.RefRun.wrapIdx (F := F) src := rfl

/-- The two programs' `colB` are one function: the same operations over shape and dimension records of equal contents. -/
theorem colB_eq (d : BufTy.Contents (Elt F) ⟨Cert.ReferenceIdeal.S50000x1, .f32⟩) :
    Cert.KernelIdeal.HandHost.colB (F := F) d = Cert.ReferenceIdeal.RefRun.colB (F := F) d := rfl

/-- The two programs' `fill` are one function: the same operations over shape and dimension records of equal contents. -/
theorem fill_eq (w : BitVec 32) :
    Cert.KernelIdeal.HandHost.fill (F := F) w = Cert.ReferenceIdeal.RefRun.fill (F := F) w := rfl

/-- The two programs' `spmv` are one function: the same operations over shape and dimension records of equal contents. -/
theorem spmv_eq (d : BufTy.Contents (Elt F) ⟨Cert.ReferenceIdeal.S50000x1, .f32⟩) (src : BufTy.Contents (Elt F) ⟨Cert.ReferenceIdeal.S800000, .i32⟩) (dst : BufTy.Contents (Elt F) ⟨Cert.ReferenceIdeal.S800000, .i32⟩) (x : BufTy.Contents (Elt F) ⟨Cert.ReferenceIdeal.S50000x128, .f32⟩) :
    Cert.KernelIdeal.HandHost.spmv (F := F) d src dst x = Cert.ReferenceIdeal.RefRun.spmv (F := F) d src dst x := rfl

/-- The two programs' `cheb1` are one function: the same operations over shape and dimension records of equal contents. -/
theorem cheb1_eq (d : BufTy.Contents (Elt F) ⟨Cert.ReferenceIdeal.S50000x1, .f32⟩) (src : BufTy.Contents (Elt F) ⟨Cert.ReferenceIdeal.S800000, .i32⟩) (dst : BufTy.Contents (Elt F) ⟨Cert.ReferenceIdeal.S800000, .i32⟩) (x : BufTy.Contents (Elt F) ⟨Cert.ReferenceIdeal.S50000x128, .f32⟩) :
    Cert.KernelIdeal.HandHost.cheb1 (F := F) d src dst x = Cert.ReferenceIdeal.RefRun.cheb1 (F := F) d src dst x := rfl

/-- The two programs' `cheb2` are one function: the same operations over shape and dimension records of equal contents. -/
theorem cheb2_eq (d : BufTy.Contents (Elt F) ⟨Cert.ReferenceIdeal.S50000x1, .f32⟩) (src : BufTy.Contents (Elt F) ⟨Cert.ReferenceIdeal.S800000, .i32⟩) (dst : BufTy.Contents (Elt F) ⟨Cert.ReferenceIdeal.S800000, .i32⟩) (x0 : BufTy.Contents (Elt F) ⟨Cert.ReferenceIdeal.S50000x128, .f32⟩) (x1 : BufTy.Contents (Elt F) ⟨Cert.ReferenceIdeal.S50000x128, .f32⟩) :
    Cert.KernelIdeal.HandHost.cheb2 (F := F) d src dst x0 x1 = Cert.ReferenceIdeal.RefRun.cheb2 (F := F) d src dst x0 x1 := rfl

/-- The two programs' `mean` are one function: the same operations over shape and dimension records of equal contents. -/
theorem mean_eq (x : BufTy.Contents (Elt F) ⟨Cert.ReferenceIdeal.S50000x128, .f32⟩) :
    Cert.KernelIdeal.HandHost.mean (F := F) x = Cert.ReferenceIdeal.RefRun.mean (F := F) x := rfl

/-- The two programs' `nMinusDdof` are one function: the same operations over shape and dimension records of equal contents. -/
theorem nMinusDdof_eq  :
    Cert.KernelIdeal.HandHost.nMinusDdof (F := F)  = Cert.ReferenceIdeal.RefRun.nMinusDdof (F := F)  := rfl

/-- The two programs' `varMean` are one function: the same operations over shape and dimension records of equal contents. -/
theorem varMean_eq (x : BufTy.Contents (Elt F) ⟨Cert.ReferenceIdeal.S50000x128, .f32⟩) :
    Cert.KernelIdeal.HandHost.varMean (F := F) x = Cert.ReferenceIdeal.RefRun.varMean (F := F) x := rfl

/-- The two programs' `centered` are one function: the same operations over shape and dimension records of equal contents. -/
theorem centered_eq (x : BufTy.Contents (Elt F) ⟨Cert.ReferenceIdeal.S50000x128, .f32⟩) :
    Cert.KernelIdeal.HandHost.centered (F := F) x = Cert.ReferenceIdeal.RefRun.centered (F := F) x := rfl

/-- The two programs' `var` are one function: the same operations over shape and dimension records of equal contents. -/
theorem var_eq (x : BufTy.Contents (Elt F) ⟨Cert.ReferenceIdeal.S50000x128, .f32⟩) :
    Cert.KernelIdeal.HandHost.var (F := F) x = Cert.ReferenceIdeal.RefRun.var (F := F) x := rfl

end Cert.Bridge.Eq

end
-- ==== Proof.ReadKer.lean ====
/-
  The kernel side's slices, reshapes, transposes, block products and column statistics read at
  one index.

  Each lemma reads one array operation of the program around the kernels at an index given by
  its coordinates: a 128-row block of the transposed 128×384 weight matrix as the matching
  column block of a row of the matrix; a vector reshaped to one row as the vector; a transposed
  matrix as the matrix with its coordinates swapped; a 5000-row block product as a 128-term
  sum; a column's mean and variance as in the reference.
-/
import proofs.«181888_j53283364274269_2_alg».proof.KernelIdeal
import proofs.«181888_j53283364274269_2_alg».proof.Proof.LibSplitDot
import proofs.«181888_j53283364274269_2_alg».proof.Proof.LibFinite
import Idealize.ShloMosaic.Lib.Pipeline.Value
import Idealize.ShloMosaic.Lib.ValueLayout
import Idealize.ShloMosaic.Lib.IdealHost
import Idealize.ShloMosaic.PureOps.Ideal.Laws

open scoped BigOperators

namespace Cert.KernelIdeal.HandRead
open Idealize.ShloMosaic Idealize.ShloMosaic.ValueIdx Cert.KernelIdeal Cert.Math
variable [Facts₀]
open Facts₀

/-! ## The three row blocks of the transposed weight matrix -/

section Slices
variable {α : Type} (W : S128x384.Idx → α)

/-- Rows 0..127 of the transpose: entry `(k, j)` is `W (j, k)`. -/
theorem wslice0_apply (k : Fin 128) (j : Fin 128) :
    extractStridedSlice S128x128 ![0, 0] (transpose S384x128 [1, 0] W transposes_S128x384_S384x128_1_0)
        slices_S384x128_S128x128_0_0 (ix2 k j)
      = W (ix2 j ⟨k.val, by have := k.isLt; omega⟩) :=
  (slice2_axis0_apply 0 _ slices_S384x128_S128x128_0_0 k j ⟨k.val, by have := k.isLt; omega⟩ (Nat.zero_add _).symm).trans
    (transpose_ix2_apply W transposes_S128x384_S384x128_1_0 _ j)
/-- Rows 128..255 of the transpose: entry `(k, j)` is `W (j, 128 + k)`. -/
theorem wslice1_apply (k : Fin 128) (j : Fin 128) :
    extractStridedSlice S128x128 ![128, 0] (transpose S384x128 [1, 0] W transposes_S128x384_S384x128_1_0)
        slices_S384x128_S128x128_128_0 (ix2 k j)
      = W (ix2 j ⟨128 + k.val, by have := k.isLt; omega⟩) :=
  (slice2_axis0_apply 128 _ slices_S384x128_S128x128_128_0 k j ⟨128 + k.val, by have := k.isLt; omega⟩ rfl).trans
    (transpose_ix2_apply W transposes_S128x384_S384x128_1_0 _ j)
/-- Rows 256..383 of the transpose: entry `(k, j)` is `W (j, 256 + k)`. -/
theorem wslice2_apply (k : Fin 128) (j : Fin 128) :
    extractStridedSlice S128x128 ![256, 0] (transpose S384x128 [1, 0] W transposes_S128x384_S384x128_1_0)
        slices_S384x128_S128x128_256_0 (ix2 k j)
      = W (ix2 j ⟨256 + k.val, by have := k.isLt; omega⟩) :=
  (slice2_axis0_apply 256 _ slices_S384x128_S128x128_256_0 k j ⟨256 + k.val, by have := k.isLt; omega⟩ rfl).trans
    (transpose_ix2_apply W transposes_S128x384_S384x128_1_0 _ j)

end Slices

/-! ## Reshapes to one row, transposes, broadcasts -/

section Layout
variable {α : Type}

/-- A 128-vector reshaped to one row. -/
theorem reshape128_apply (b : S128.Idx → α) (u : Fin 1) (j : Fin 128) :
    shapeCast S1x128 b shapeCasts_S128_S1x128 (ix2 u j) = b (ix1 j) :=
  shapeCast_a_1a_apply b shapeCasts_S128_S1x128 u j
/-- A 64-vector reshaped to one row. -/
theorem reshape64_apply (b : S64.Idx → α) (u : Fin 1) (j : Fin 64) :
    shapeCast S1x64 b shapeCasts_S64_S1x64 (ix2 u j) = b (ix1 j) :=
  shapeCast_a_1a_apply b shapeCasts_S64_S1x64 u j
/-- The 128×128 matrix transposed. -/
theorem transpose128_apply (Wm : S128x128.Idx → α) (k : Fin 128) (j : Fin 128) :
    transpose S128x128 [1, 0] Wm transposes_S128x128_S128x128_1_0 (ix2 k j) = Wm (ix2 j k) :=
  transpose_ix2_apply Wm transposes_S128x128_S128x128_1_0 k j
/-- The 64×128 matrix transposed. -/
theorem transpose64_apply (Wm : S64x128.Idx → α) (k : Fin 128) (j : Fin 64) :
    transpose S128x64 [1, 0] Wm transposes_S64x128_S128x64_1_0 (ix2 k j) = Wm (ix2 j k) :=
  transpose_ix2_apply Wm transposes_S64x128_S128x64_1_0 k j
/-- The 128×384 matrix transposed. -/
theorem transpose384_apply (W : S128x384.Idx → α) (k : Fin 384) (j : Fin 128) :
    transpose S384x128 [1, 0] W transposes_S128x384_S384x128_1_0 (ix2 k j) = W (ix2 j k) :=
  transpose_ix2_apply W transposes_S128x384_S384x128_1_0 k j

/-- A one-row matrix laid along every one of the 50000 rows. -/
theorem row1x128_apply (b : S1x128.Idx → α) (i : Fin 50000) (j : Fin 128) :
    broadcastInDim S50000x128 ![0, 1] bcast_S1x128_S50000x128_0_1 b (ix2 i j) = b (ix2 (0 : Fin 1) j) :=
  broadcastInDim_apply (s := S1x128) (t := S50000x128) ![0, 1] bcast_S1x128_S50000x128_0_1 _ (ix2 i j) (ix2 (0 : Fin 1) j)
      (fun a => match a with | ⟨0, _⟩ => rfl | ⟨1, _⟩ => rfl)
/-- A 128-vector as a one-row matrix. -/
theorem vec128_row_apply (b : S128.Idx → α) (u : Fin 1) (j : Fin 128) :
    broadcastInDim S1x128 ![1] bcast_S128_S1x128_1 b (ix2 u j) = b (ix1 j) :=
  broadcastInDim_apply (s := S128) (t := S1x128) ![1] bcast_S128_S1x128_1 b (ix2 u j) (ix1 j)
      (fun a => match a with | ⟨0, _⟩ => rfl)
/-- A 50000-vector laid along every one of the 128 columns. -/
theorem col_apply (d : S50000.Idx → α) (i : Fin 50000) (j : Fin 128) :
    broadcastInDim S50000x128 ![0, 1] bcast_S50000x1_S50000x128_0_1 (broadcastInDim S50000x1 ![0] bcast_S50000_S50000x1_0 d) (ix2 i j)
      = d (ix1 i) :=
  (broadcastInDim_apply (s := S50000x1) (t := S50000x128) ![0, 1] bcast_S50000x1_S50000x128_0_1 _ (ix2 i j) (ix2 i (0 : Fin 1))
      (fun a => match a with | ⟨0, _⟩ => rfl | ⟨1, _⟩ => rfl)).trans
    (broadcastInDim_apply (s := S50000) (t := S50000x1) ![0] bcast_S50000_S50000x1_0 d (ix2 i (0 : Fin 1)) (ix1 i)
      (fun a => match a with | ⟨0, _⟩ => rfl))
/-- A one-column matrix laid along every one of the 128 columns. -/
theorem col50000x1_apply (d : S50000x1.Idx → α) (i : Fin 50000) (j : Fin 128) :
    broadcastInDim S50000x128 ![0, 1] bcast_S50000x1_S50000x128_0_1 d (ix2 i j) = d (ix2 i (0 : Fin 1)) :=
  broadcastInDim_apply (s := S50000x1) (t := S50000x128) ![0, 1] bcast_S50000x1_S50000x128_0_1 _ (ix2 i j) (ix2 i (0 : Fin 1))
      (fun a => match a with | ⟨0, _⟩ => rfl | ⟨1, _⟩ => rfl)

end Layout

/-! ## The block products' index maps -/

theorem K128_rank : (dot_S5000x128_S128x128_S5000x128_1_0_0_1_n_n).contr.rank = 1 := rfl
theorem K128_size : (dot_S5000x128_S128x128_S5000x128_1_0_0_1_n_n).contr.size ⟨0, by rw [K128_rank]; omega⟩ = 128 := rfl
theorem K128_lhs (r : Fin 5000) (j : Fin 128) (k : Fin 128) :
    (dot_S5000x128_S128x128_S5000x128_1_0_0_1_n_n).lhsIdx (ix2 r j)
      ((contrEquiv1 _ 128 K128_rank K128_size).symm k) = ix2 r k := by
  funext a
  match a with
  | ⟨0, _⟩ => exact Fin.ext (by simp [DotDims.lhsIdx, dot_S5000x128_S128x128_S5000x128_1_0_0_1_n_n]; rfl)
  | ⟨1, _⟩ => exact Fin.ext (by simp [DotDims.lhsIdx, dot_S5000x128_S128x128_S5000x128_1_0_0_1_n_n, contrEquiv1]; rfl)
theorem K128_rhs (r : Fin 5000) (j : Fin 128) (k : Fin 128) :
    (dot_S5000x128_S128x128_S5000x128_1_0_0_1_n_n).rhsIdx (ix2 r j)
      ((contrEquiv1 _ 128 K128_rank K128_size).symm k) = ix2 k j := by
  funext a
  match a with
  | ⟨0, _⟩ => exact Fin.ext (by simp [DotDims.rhsIdx, dot_S5000x128_S128x128_S5000x128_1_0_0_1_n_n, contrEquiv1]; rfl)
  | ⟨1, _⟩ => exact Fin.ext (by simp [DotDims.rhsIdx, dot_S5000x128_S128x128_S5000x128_1_0_0_1_n_n]; rfl)

theorem K64_rank : (dot_S5000x128_S128x64_S5000x64_1_0_0_1_n_n).contr.rank = 1 := rfl
theorem K64_size : (dot_S5000x128_S128x64_S5000x64_1_0_0_1_n_n).contr.size ⟨0, by rw [K64_rank]; omega⟩ = 128 := rfl
theorem K64_lhs (r : Fin 5000) (j : Fin 64) (k : Fin 128) :
    (dot_S5000x128_S128x64_S5000x64_1_0_0_1_n_n).lhsIdx (ix2 r j)
      ((contrEquiv1 _ 128 K64_rank K64_size).symm k) = ix2 r k := by
  funext a
  match a with
  | ⟨0, _⟩ => exact Fin.ext (by simp [DotDims.lhsIdx, dot_S5000x128_S128x64_S5000x64_1_0_0_1_n_n]; rfl)
  | ⟨1, _⟩ => exact Fin.ext (by simp [DotDims.lhsIdx, dot_S5000x128_S128x64_S5000x64_1_0_0_1_n_n, contrEquiv1]; rfl)
theorem K64_rhs (r : Fin 5000) (j : Fin 64) (k : Fin 128) :
    (dot_S5000x128_S128x64_S5000x64_1_0_0_1_n_n).rhsIdx (ix2 r j)
      ((contrEquiv1 _ 128 K64_rank K64_size).symm k) = ix2 k j := by
  funext a
  match a with
  | ⟨0, _⟩ => exact Fin.ext (by simp [DotDims.rhsIdx, dot_S5000x128_S128x64_S5000x64_1_0_0_1_n_n, contrEquiv1]; rfl)
  | ⟨1, _⟩ => exact Fin.ext (by simp [DotDims.rhsIdx, dot_S5000x128_S128x64_S5000x64_1_0_0_1_n_n]; rfl)

/-- A 5000-row block product onto an accumulator, at `(r, j)`: the accumulator's entry plus the
    128-term contraction of the left block's row `r` with the right block's column `j`. -/
theorem matmul128_apply {φ₁ φ₂ : FTy} (L : FVec Ideal S5000x128 φ₁) (R : FVec Ideal S128x128 φ₂) (acc : FVec Ideal S5000x128 .f32)
    (r : Fin 5000) (j : Fin 128) :
    matmul dot_S5000x128_S128x128_S5000x128_1_0_0_1_n_n none L R acc (ix2 r j)
      = acc (ix2 r j) + ∑ k : Fin 128, L (ix2 r k) * R (ix2 k j) := by
  show FloatOps.matmul _ none L R acc (ix2 r j) = _
  rw [Ideal.matmul_apply, sum_contr1 _ 128 K128_rank K128_size]
  simp only [K128_lhs, K128_rhs]
theorem matmul64_apply {φ₁ φ₂ : FTy} (L : FVec Ideal S5000x128 φ₁) (R : FVec Ideal S128x64 φ₂) (acc : FVec Ideal S5000x64 .f32)
    (r : Fin 5000) (j : Fin 64) :
    matmul dot_S5000x128_S128x64_S5000x64_1_0_0_1_n_n none L R acc (ix2 r j)
      = acc (ix2 r j) + ∑ k : Fin 128, L (ix2 r k) * R (ix2 k j) := by
  show FloatOps.matmul _ none L R acc (ix2 r j) = _
  rw [Ideal.matmul_apply, sum_contr1 _ 128 K64_rank K64_size]
  simp only [K64_lhs, K64_rhs]

/-! ## A column's sum, mean and variance -/

/-- The sum over the rows, as a relation on the two shapes. -/
theorem reduces_d0 : S50000x128.Reduces [0] S128 := by decide

/-- Column `j` with the row coordinate `k` put back is `(k, j)`. -/
theorem lift_d0 (j : Fin 128) (k : Fin 50000) : reduces_d0.lift (ix1 j) k = ix2 k j := by
  funext a
  match a with
  | ⟨0, _⟩ => rfl
  | ⟨1, _⟩ => rfl

/-- The host's sum over the rows at column `j`: the initial value plus the 50000 entries of the column. -/
theorem colsum_apply (X : FVec Ideal S50000x128 .f32) (init : FVec Ideal S_ .f32) (j : Fin 128) :
    Host.reduceAdd X init reducesTo_S50000x128_S128_d0 h_S_ (ix1 j) = init ix0 + ∑ i : Fin 50000, X (ix2 i j) := by
  rw [hostReduceAdd_apply, Ideal.hostReduceAdd_single _ reduces_d0, eq_ix0 (Shape.Idx.first h_S_)]
  exact congrArg (init ix0 + ·) (Finset.sum_congr rfl fun k _ => congrArg X (lift_d0 j k))

/-- The column mean @main computes: the column's sum from zero, over fifty thousand. -/
theorem mean_apply (X : FVec Ideal S50000x128 .f32) (j : Fin 128) :
    Host.divf (Host.reduceAdd X (constant S_ .f32 0x00000000#32) reducesTo_S50000x128_S128_d0 h_S_)
        (broadcastInDim S128 ![] bcast_S_S128 (constant S_ .f32 0x47435000#32)) (ix1 j)
      = Ideal.div (0 + ∑ i : Fin 50000, X (ix2 i j)) ((50000 : ℝ) : EReal) := by
  rw [hostDivf_apply, colsum_apply, broadcastInDim_scalar_apply, constant_apply, constant_apply,
    Ideal.ofBits_zero_f32, ofBits_50000_f32]

/-- The variance function's text, over its argument `X` (its second argument the integer constant zero):
    the row of column means … -/
noncomputable abbrev varMean (X : FVec Ideal S50000x128 .f32) : FVec Ideal S1x128 .f32 :=
  Host.divf
    (broadcastInDim S1x128 ![1] bcast_S128_S1x128_1
      (Host.reduceAdd X (constant S_ .f32 0x00000000#32) reducesTo_S50000x128_S128_d0 h_S_))
    (broadcastInDim S1x128 ![] bcast_S_S1x128 (constant S_ .f32 0x47435000#32))
/-- … the deviations from them … -/
noncomputable abbrev varDev (X : FVec Ideal S50000x128 .f32) : FVec Ideal S50000x128 .f32 :=
  subf X (broadcastInDim S50000x128 ![0, 1] bcast_S1x128_S50000x128_0_1 (varMean X))
/-- … the count, fifty thousand minus the integer zero read as a float … -/
noncomputable abbrev varCount : FVec Ideal S_ .f32 :=
  subf (constant S_ .f32 0x47435000#32) (sitofp .f32 (constantI S_ 32 0#32))
/-- … the sum of squared deviations over the count … -/
noncomputable abbrev varQuot (X : FVec Ideal S50000x128 .f32) : FVec Ideal S128 .f32 :=
  Host.divf
    (Host.reduceAdd (mulf (varDev X) (varDev X)) (constant S_ .f32 0x00000000#32) reducesTo_S50000x128_S128_d0 h_S_)
    (broadcastInDim S128 ![] bcast_S_S128 varCount)
/-- … kept where the count is positive. -/
noncomputable abbrev varTerm (X : FVec Ideal S50000x128 .f32) : FVec Ideal S128 .f32 :=
  select (broadcastInDim S128 ![] bcast_S_S128 (cmpf .ogt varCount (constant S_ .f32 0x00000000#32)))
    (varQuot X) (broadcastInDim S128 ![] bcast_S_S128 (id (constant S_ .f32 0x7FC00000#32)))

/-- The mean inside the variance function is the same quotient. -/
theorem varMean_apply (X : FVec Ideal S50000x128 .f32) (u : Fin 1) (j : Fin 128) :
    varMean X (ix2 u j) = Ideal.div (0 + ∑ i : Fin 50000, X (ix2 i j)) ((50000 : ℝ) : EReal) := by
  show Host.divf _ _ (ix2 u j) = _
  rw [hostDivf_apply, vec128_row_apply, colsum_apply, broadcastInDim_scalar_apply, constant_apply, constant_apply,
    Ideal.ofBits_zero_f32, ofBits_50000_f32]

theorem varDev_apply (X : FVec Ideal S50000x128 .f32) (i : Fin 50000) (j : Fin 128) :
    varDev X (ix2 i j) = X (ix2 i j) - Ideal.div (0 + ∑ i' : Fin 50000, X (ix2 i' j)) ((50000 : ℝ) : EReal) := by
  show subf _ _ (ix2 i j) = _
  rw [subf_apply, row1x128_apply, varMean_apply]

/-- The count is fifty thousand. -/
theorem varCount_apply : varCount ix0 = ((50000 : ℝ) : EReal) := by
  show Ideal.ofBits .f32 0x47435000#32 - (((0#32 : BitVec 32).toInt : ℝ) : EReal) = _
  rw [ofBits_50000_f32, show ((0#32 : BitVec 32).toInt : ℝ) = 0 by norm_num, EReal.coe_zero, sub_zero]

theorem varQuot_apply (X : FVec Ideal S50000x128 .f32) (j : Fin 128) :
    varQuot X (ix1 j)
      = Ideal.div (0 + ∑ i : Fin 50000,
            (X (ix2 i j) - Ideal.div (0 + ∑ i' : Fin 50000, X (ix2 i' j)) ((50000 : ℝ) : EReal))
              * (X (ix2 i j) - Ideal.div (0 + ∑ i' : Fin 50000, X (ix2 i' j)) ((50000 : ℝ) : EReal)))
          ((50000 : ℝ) : EReal) := by
  show Host.divf _ _ (ix1 j) = _
  rw [hostDivf_apply, colsum_apply, broadcastInDim_scalar_apply, varCount_apply, constant_apply, Ideal.ofBits_zero_f32]
  simp only [mulf_apply, varDev_apply]

/-- THE VARIANCE at column `j`: the count is positive, so the select keeps the quotient. -/
theorem varTerm_apply (X : FVec Ideal S50000x128 .f32) (j : Fin 128) :
    varTerm X (ix1 j)
      = Ideal.div (0 + ∑ i : Fin 50000,
            (X (ix2 i j) - Ideal.div (0 + ∑ i' : Fin 50000, X (ix2 i' j)) ((50000 : ℝ) : EReal))
              * (X (ix2 i j) - Ideal.div (0 + ∑ i' : Fin 50000, X (ix2 i' j)) ((50000 : ℝ) : EReal)))
          ((50000 : ℝ) : EReal) := by
  show select _ _ _ (ix1 j) = _
  rw [select_apply, broadcastInDim_scalar_apply, cmpf_apply, varCount_apply, constant_apply, Ideal.ofBits_zero_f32]
  have hc : FloatOps.cmpf (F := Ideal) (φ := .f32) .ogt ((50000 : ℝ) : EReal) 0 = 1#1 := by
    show BitVec.ofBool (decide ((0 : EReal) < ((50000 : ℝ) : EReal))) = 1#1
    rw [decide_eq_true (EReal.coe_pos.mpr (by norm_num))]; rfl
  rw [hc, select_one, varQuot_apply]

end Cert.KernelIdeal.HandRead
-- ==== Proof.Bridge.lean ====
/- The kernel's three regions and the reference's dense layers, at the ideal values: each region's whole-array result,
   read at the weights as the kernel's host operations prepare them (the transposed weight matrix cut into its three row
   blocks, a bias vector as one row), is the reference's layer. -/
import proofs.«181888_j53283364274269_2_alg».proof.Proof.KIValue0
import proofs.«181888_j53283364274269_2_alg».proof.Proof.KIValue1
import proofs.«181888_j53283364274269_2_alg».proof.Proof.KIValue2
import proofs.«181888_j53283364274269_2_alg».proof.Proof.RefRun
import proofs.«181888_j53283364274269_2_alg».proof.Proof.ReadRef
import proofs.«181888_j53283364274269_2_alg».proof.Proof.ReadKer
import proofs.«181888_j53283364274269_2_alg».proof.Proof.KIHost
import proofs.«181888_j53283364274269_2_alg».proof.Proof.LibVar

noncomputable section

namespace Cert.Bridge

open Idealize.ShloMosaic Idealize.ShloMosaic.ValueIdx
open Cert.ReferenceIdeal Cert.ReferenceIdeal.RefRun
open Cert.KernelIdeal.HandValue
open Cert.Math
open scoped BigOperators

/-! ## The first dense layer -/

/-- Region 0 at the three row blocks of the transposed weights and the bias as a row is `relu` of the reference's dense
    layer over the three terms side by side. -/
theorem B1 (X0 X1 X2 : FVec Ideal S50000x128 .f32) (W : FVec Ideal S128x384 .f32) (b : FVec Ideal S128 .f32) :
    G0 X0 X1 X2 (extractStridedSlice Cert.KernelIdeal.S128x128 ![0, 0] (transpose Cert.KernelIdeal.S384x128 [1, 0] W Cert.KernelIdeal.Facts₀.transposes_S128x384_S384x128_1_0) Cert.KernelIdeal.Facts₀.slices_S384x128_S128x128_0_0)
        (extractStridedSlice Cert.KernelIdeal.S128x128 ![128, 0] (transpose Cert.KernelIdeal.S384x128 [1, 0] W Cert.KernelIdeal.Facts₀.transposes_S128x384_S384x128_1_0) Cert.KernelIdeal.Facts₀.slices_S384x128_S128x128_128_0)
        (extractStridedSlice Cert.KernelIdeal.S128x128 ![256, 0] (transpose Cert.KernelIdeal.S384x128 [1, 0] W Cert.KernelIdeal.Facts₀.transposes_S128x384_S384x128_1_0) Cert.KernelIdeal.Facts₀.slices_S384x128_S128x128_256_0)
        (shapeCast Cert.KernelIdeal.S1x128 b Cert.KernelIdeal.Facts₀.shapeCasts_S128_S1x128)
      = RefRun.relu (F := Ideal) (RefRun.lin384 (F := Ideal) X0 X1 X2 W b) := by
  funext i
  obtain ⟨p, q, rfl⟩ : ∃ (p : Fin 50000) (q : Fin 128), i = ix2 p q := ⟨i 0, i 1, eq_ix2 i⟩
  rw [G0_apply]
  unfold RefRun.relu RefRun.lin384 RefRun.row RefRun.fill
  rw [maximumf_apply, addf_apply, Cert.ReferenceIdeal.HandRead.lin384_apply, Cert.ReferenceIdeal.HandRead.bias_row128_apply, broadcastInDim_scalar_apply, constant_apply,
    Cert.KernelIdeal.HandRead.reshape128_apply, zero_add]
  have e0 : ∀ k : Fin 128, (extractStridedSlice Cert.KernelIdeal.S128x128 ![0, 0] (transpose Cert.KernelIdeal.S384x128 [1, 0] W Cert.KernelIdeal.Facts₀.transposes_S128x384_S384x128_1_0) Cert.KernelIdeal.Facts₀.slices_S384x128_S128x128_0_0) (ix2 k q) = W (ix2 q ⟨k.val, by have := k.isLt; omega⟩) :=
    fun k => Cert.KernelIdeal.HandRead.wslice0_apply W k q
  have e1 : ∀ k : Fin 128, (extractStridedSlice Cert.KernelIdeal.S128x128 ![128, 0] (transpose Cert.KernelIdeal.S384x128 [1, 0] W Cert.KernelIdeal.Facts₀.transposes_S128x384_S384x128_1_0) Cert.KernelIdeal.Facts₀.slices_S384x128_S128x128_128_0) (ix2 k q) = W (ix2 q ⟨128 + k.val, by have := k.isLt; omega⟩) :=
    fun k => Cert.KernelIdeal.HandRead.wslice1_apply W k q
  have e2 : ∀ k : Fin 128, (extractStridedSlice Cert.KernelIdeal.S128x128 ![256, 0] (transpose Cert.KernelIdeal.S384x128 [1, 0] W Cert.KernelIdeal.Facts₀.transposes_S128x384_S384x128_1_0) Cert.KernelIdeal.Facts₀.slices_S384x128_S128x128_256_0) (ix2 k q) = W (ix2 q ⟨256 + k.val, by have := k.isLt; omega⟩) :=
    fun k => Cert.KernelIdeal.HandRead.wslice2_apply W k q
  simp only [e0, e1, e2]

/-! ## The second graph layer's dense part with its residual -/

/-- Region 2's first stage at the same preparation of the second layer's weights is `relu` of the reference's dense layer
    plus the residual. -/
theorem B3 (H T1 T2 : FVec Ideal S50000x128 .f32) (W3 : FVec Ideal S128x384 .f32) (b3 : FVec Ideal S128 .f32) :
    L1 H T1 T2 (extractStridedSlice Cert.KernelIdeal.S128x128 ![0, 0] (transpose Cert.KernelIdeal.S384x128 [1, 0] W3 Cert.KernelIdeal.Facts₀.transposes_S128x384_S384x128_1_0) Cert.KernelIdeal.Facts₀.slices_S384x128_S128x128_0_0)
        (extractStridedSlice Cert.KernelIdeal.S128x128 ![128, 0] (transpose Cert.KernelIdeal.S384x128 [1, 0] W3 Cert.KernelIdeal.Facts₀.transposes_S128x384_S384x128_1_0) Cert.KernelIdeal.Facts₀.slices_S384x128_S128x128_128_0)
        (extractStridedSlice Cert.KernelIdeal.S128x128 ![256, 0] (transpose Cert.KernelIdeal.S384x128 [1, 0] W3 Cert.KernelIdeal.Facts₀.transposes_S128x384_S384x128_1_0) Cert.KernelIdeal.Facts₀.slices_S384x128_S128x128_256_0)
        (shapeCast Cert.KernelIdeal.S1x128 b3 Cert.KernelIdeal.Facts₀.shapeCasts_S128_S1x128) H
      = addf (RefRun.relu (F := Ideal) (RefRun.lin384 (F := Ideal) H T1 T2 W3 b3)) H := by
  funext i
  obtain ⟨p, q, rfl⟩ : ∃ (p : Fin 50000) (q : Fin 128), i = ix2 p q := ⟨i 0, i 1, eq_ix2 i⟩
  rw [L1_apply, addf_apply]
  unfold RefRun.relu RefRun.lin384 RefRun.row RefRun.fill
  rw [maximumf_apply, addf_apply, Cert.ReferenceIdeal.HandRead.lin384_apply, Cert.ReferenceIdeal.HandRead.bias_row128_apply, broadcastInDim_scalar_apply, constant_apply,
    Cert.KernelIdeal.HandRead.reshape128_apply, zero_add]
  have e0 : ∀ k : Fin 128, (extractStridedSlice Cert.KernelIdeal.S128x128 ![0, 0] (transpose Cert.KernelIdeal.S384x128 [1, 0] W3 Cert.KernelIdeal.Facts₀.transposes_S128x384_S384x128_1_0) Cert.KernelIdeal.Facts₀.slices_S384x128_S128x128_0_0) (ix2 k q) = W3 (ix2 q ⟨k.val, by have := k.isLt; omega⟩) :=
    fun k => Cert.KernelIdeal.HandRead.wslice0_apply W3 k q
  have e1 : ∀ k : Fin 128, (extractStridedSlice Cert.KernelIdeal.S128x128 ![128, 0] (transpose Cert.KernelIdeal.S384x128 [1, 0] W3 Cert.KernelIdeal.Facts₀.transposes_S128x384_S384x128_1_0) Cert.KernelIdeal.Facts₀.slices_S384x128_S128x128_128_0) (ix2 k q) = W3 (ix2 q ⟨128 + k.val, by have := k.isLt; omega⟩) :=
    fun k => Cert.KernelIdeal.HandRead.wslice1_apply W3 k q
  have e2 : ∀ k : Fin 128, (extractStridedSlice Cert.KernelIdeal.S128x128 ![256, 0] (transpose Cert.KernelIdeal.S384x128 [1, 0] W3 Cert.KernelIdeal.Facts₀.transposes_S128x384_S384x128_1_0) Cert.KernelIdeal.Facts₀.slices_S384x128_S128x128_256_0) (ix2 k q) = W3 (ix2 q ⟨256 + k.val, by have := k.isLt; omega⟩) :=
    fun k => Cert.KernelIdeal.HandRead.wslice2_apply W3 k q
  simp only [e0, e1, e2]

/-! ## The two layers of the head -/

/-- Region 2's second stage at the transposed square weights is `relu` of the reference's square dense layer. -/
theorem B4 (h : FVec Ideal S50000x128 .f32) (Wm1 : FVec Ideal S128x128 .f32) (bm1 : FVec Ideal S128 .f32) :
    L2 h (transpose Cert.KernelIdeal.S128x128 [1, 0] Wm1 Cert.KernelIdeal.Facts₀.transposes_S128x128_S128x128_1_0) (shapeCast Cert.KernelIdeal.S1x128 bm1 Cert.KernelIdeal.Facts₀.shapeCasts_S128_S1x128)
      = RefRun.relu (F := Ideal) (RefRun.lin128 (F := Ideal) h Wm1 bm1) := by
  funext i
  obtain ⟨p, q, rfl⟩ : ∃ (p : Fin 50000) (q : Fin 128), i = ix2 p q := ⟨i 0, i 1, eq_ix2 i⟩
  rw [L2_apply]
  unfold RefRun.relu RefRun.lin128 RefRun.row RefRun.fill
  rw [maximumf_apply, addf_apply, Cert.ReferenceIdeal.HandRead.lin128_apply, Cert.ReferenceIdeal.HandRead.bias_row128_apply, broadcastInDim_scalar_apply, constant_apply,
    Cert.KernelIdeal.HandRead.reshape128_apply]
  have e : ∀ k : Fin 128, transpose Cert.KernelIdeal.S128x128 [1, 0] Wm1 Cert.KernelIdeal.Facts₀.transposes_S128x128_S128x128_1_0 (ix2 k q) = Wm1 (ix2 q k) :=
    fun k => Cert.KernelIdeal.HandRead.transpose128_apply Wm1 k q
  simp only [e]

/-- Region 2's result at the transposed output weights is the reference's output layer of the second stage. -/
theorem B5 (x0 x1 x2 : FVec Ideal S50000x128 .f32) (w3 w4 w5 : FVec Ideal S128x128 .f32) (b6 : FVec Ideal S1x128 .f32)
    (x7 : FVec Ideal S50000x128 .f32) (w8 : FVec Ideal S128x128 .f32) (b9 : FVec Ideal S1x128 .f32)
    (Wm2 : FVec Ideal S64x128 .f32) (bm2 : FVec Ideal S64 .f32) :
    G2 x0 x1 x2 w3 w4 w5 b6 x7 w8 b9 (transpose Cert.KernelIdeal.S128x64 [1, 0] Wm2 Cert.KernelIdeal.Facts₀.transposes_S64x128_S128x64_1_0) (shapeCast Cert.KernelIdeal.S1x64 bm2 Cert.KernelIdeal.Facts₀.shapeCasts_S64_S1x64)
      = RefRun.lin64 (F := Ideal) (L2 (L1 x0 x1 x2 w3 w4 w5 b6 x7) w8 b9) Wm2 bm2 := by
  funext i
  obtain ⟨p, q, rfl⟩ : ∃ (p : Fin 50000) (q : Fin 64), i = ix2 p q := ⟨i 0, i 1, eq_ix2 i⟩
  rw [G2_apply]
  unfold RefRun.lin64
  rw [addf_apply, Cert.ReferenceIdeal.HandRead.lin64_apply, Cert.ReferenceIdeal.HandRead.bias_row64_apply, Cert.KernelIdeal.HandRead.reshape64_apply]
  have e : ∀ k : Fin 128, transpose Cert.KernelIdeal.S128x64 [1, 0] Wm2 Cert.KernelIdeal.Facts₀.transposes_S64x128_S128x64_1_0 (ix2 k q) = Wm2 (ix2 q k) :=
    fun k => Cert.KernelIdeal.HandRead.transpose64_apply Wm2 k q
  simp only [e]

/-! ## The same, at the names of the kernel's host steps -/

theorem B1' (X0 X1 X2 : FVec Ideal S50000x128 .f32) (W : FVec Ideal S128x384 .f32) (b : FVec Ideal S128 .f32) :
    G0 X0 X1 X2 (Cert.KernelIdeal.HandHost.wBlk0 (F := Ideal) W) (Cert.KernelIdeal.HandHost.wBlk1 (F := Ideal) W) (Cert.KernelIdeal.HandHost.wBlk2 (F := Ideal) W) (Cert.KernelIdeal.HandHost.asRow (F := Ideal) b)
      = RefRun.relu (F := Ideal) (RefRun.lin384 (F := Ideal) X0 X1 X2 W b) := B1 X0 X1 X2 W b

theorem B3' (H T1 T2 : FVec Ideal S50000x128 .f32) (W3 : FVec Ideal S128x384 .f32) (b3 : FVec Ideal S128 .f32) :
    L1 H T1 T2 (Cert.KernelIdeal.HandHost.wBlk0 (F := Ideal) W3) (Cert.KernelIdeal.HandHost.wBlk1 (F := Ideal) W3) (Cert.KernelIdeal.HandHost.wBlk2 (F := Ideal) W3) (Cert.KernelIdeal.HandHost.asRow (F := Ideal) b3) H
      = addf (RefRun.relu (F := Ideal) (RefRun.lin384 (F := Ideal) H T1 T2 W3 b3)) H := B3 H T1 T2 W3 b3

theorem B4' (h : FVec Ideal S50000x128 .f32) (Wm1 : FVec Ideal S128x128 .f32) (bm1 : FVec Ideal S128 .f32) :
    L2 h (transpose Cert.KernelIdeal.S128x128 [1, 0] Wm1 Cert.KernelIdeal.Facts₀.transposes_S128x128_S128x128_1_0) (Cert.KernelIdeal.HandHost.asRow (F := Ideal) bm1)
      = RefRun.relu (F := Ideal) (RefRun.lin128 (F := Ideal) h Wm1 bm1) := B4 h Wm1 bm1

theorem B5' (x0 x1 x2 : FVec Ideal S50000x128 .f32) (w3 w4 w5 : FVec Ideal S128x128 .f32) (b6 : FVec Ideal S1x128 .f32)
    (x7 : FVec Ideal S50000x128 .f32) (w8 : FVec Ideal S128x128 .f32) (b9 : FVec Ideal S1x128 .f32)
    (Wm2 : FVec Ideal S64x128 .f32) (bm2 : FVec Ideal S64 .f32) :
    G2 x0 x1 x2 w3 w4 w5 b6 x7 w8 b9 (transpose Cert.KernelIdeal.S128x64 [1, 0] Wm2 Cert.KernelIdeal.Facts₀.transposes_S64x128_S128x64_1_0) (Cert.KernelIdeal.HandHost.asRow64 (F := Ideal) bm2)
      = RefRun.lin64 (F := Ideal) (L2 (L1 x0 x1 x2 w3 w4 w5 b6 x7) w8 b9) Wm2 bm2 := B5 x0 x1 x2 w3 w4 w5 b6 x7 w8 b9 Wm2 bm2

/-! ## The normalisation -/

theorem hostRsqrt_apply {s : Shape} {φ : FTy} (a : FVec Ideal s φ) (i : s.Idx) : Host.rsqrt a i = Ideal.rsqrt (a i) := rfl

/-- Region 1 at the folded scale and shift rows is the reference's batch normalisation, when the tensor, the gain and the
    offset are all real: then the column means and variances are real, the variances are not negative, and
    `x · (s γ) + (β - μ (s γ)) = ((x - μ) s) γ + β` with `s` the reciprocal root of the variance plus the small constant. -/
theorem B2 (Y : FVec Ideal S50000x128 .f32) (g b : FVec Ideal S128 .f32) (hY : AllReal Y) (hg : AllReal g) (hb : AllReal b) :
    G1 Y (Cert.KernelIdeal.HandHost.asRow (F := Ideal) (Cert.KernelIdeal.HandHost.scaleOf (F := Ideal) (Cert.KernelIdeal.HandHost.var (F := Ideal) Y) g))
        (Cert.KernelIdeal.HandHost.asRow (F := Ideal) (Cert.KernelIdeal.HandHost.shiftOf (F := Ideal) (Cert.KernelIdeal.HandHost.mean (F := Ideal) Y) (Cert.KernelIdeal.HandHost.scaleOf (F := Ideal) (Cert.KernelIdeal.HandHost.var (F := Ideal) Y) g) b))
      = RefRun.bn (F := Ideal) Y g b := by
  funext i
  obtain ⟨p, q, rfl⟩ : ∃ (p : Fin 50000) (q : Fin 128), i = ix2 p q := ⟨i 0, i 1, eq_ix2 i⟩
  have hmK : Cert.KernelIdeal.HandHost.mean (F := Ideal) Y (ix1 q) = Ideal.div (0 + ∑ i : Fin 50000, Y (ix2 i q)) ((50000 : ℝ) : EReal) := Cert.KernelIdeal.HandRead.mean_apply Y q
  have hvK : Cert.KernelIdeal.HandHost.var (F := Ideal) Y (ix1 q) = Ideal.div (0 + ∑ i : Fin 50000, (Y (ix2 i q) - Ideal.div (0 + ∑ i : Fin 50000, Y (ix2 i q)) ((50000 : ℝ) : EReal)) * (Y (ix2 i q) - Ideal.div (0 + ∑ i : Fin 50000, Y (ix2 i q)) ((50000 : ℝ) : EReal))) ((50000 : ℝ) : EReal) := Cert.KernelIdeal.HandRead.varTerm_apply Y q
  have hmR : RefRun.mean (F := Ideal) Y (ix1 q) = Ideal.div (0 + ∑ i : Fin 50000, Y (ix2 i q)) ((50000 : ℝ) : EReal) := Cert.ReferenceIdeal.HandRead.mean_apply Y q
  have hvR : RefRun.var (F := Ideal) Y (ix1 q) = Ideal.div (0 + ∑ i : Fin 50000, (Y (ix2 i q) - Ideal.div (0 + ∑ i : Fin 50000, Y (ix2 i q)) ((50000 : ℝ) : EReal)) * (Y (ix2 i q) - Ideal.div (0 + ∑ i : Fin 50000, Y (ix2 i q)) ((50000 : ℝ) : EReal))) ((50000 : ℝ) : EReal) := Cert.ReferenceIdeal.HandRead.varTerm_apply Y q
  have hM : IsReal (Ideal.div (0 + ∑ i : Fin 50000, Y (ix2 i q)) ((50000 : ℝ) : EReal)) :=
    (isReal_zero.add (isReal_sum Finset.univ _ fun i _ => hY (ix2 i q))).div_coe (by norm_num)
  have hV : IsReal (Ideal.div (0 + ∑ i : Fin 50000, (Y (ix2 i q) - Ideal.div (0 + ∑ i : Fin 50000, Y (ix2 i q)) ((50000 : ℝ) : EReal)) * (Y (ix2 i q) - Ideal.div (0 + ∑ i : Fin 50000, Y (ix2 i q)) ((50000 : ℝ) : EReal))) ((50000 : ℝ) : EReal)) :=
    (isReal_zero.add (isReal_sum Finset.univ _ fun i _ => ((hY (ix2 i q)).sub hM).mul ((hY (ix2 i q)).sub hM))).div_coe (by norm_num)
  have h0 : 0 ≤ Ideal.div (0 + ∑ i : Fin 50000, (Y (ix2 i q) - Ideal.div (0 + ∑ i : Fin 50000, Y (ix2 i q)) ((50000 : ℝ) : EReal)) * (Y (ix2 i q) - Ideal.div (0 + ∑ i : Fin 50000, Y (ix2 i q)) ((50000 : ℝ) : EReal))) ((50000 : ℝ) : EReal) :=
    var_nonneg Finset.univ (fun i : Fin 50000 => Y (ix2 i q) - Ideal.div (0 + ∑ i : Fin 50000, Y (ix2 i q)) ((50000 : ℝ) : EReal)) (c := 50000) (by norm_num)
  rw [G1_apply]
  unfold Cert.KernelIdeal.HandHost.asRow
  rw [Cert.KernelIdeal.HandRead.reshape128_apply, Cert.KernelIdeal.HandRead.reshape128_apply]
  simp only [Cert.KernelIdeal.HandHost.shiftOf, Cert.KernelIdeal.HandHost.scaleOf, RefRun.bn, RefRun.bnApply, RefRun.row, subf_apply, mulf_apply, addf_apply, maximumf_apply,
    hostRsqrt_apply, hmK, hvK]
  rw [Cert.ReferenceIdeal.HandRead.bias_row128_apply, Cert.ReferenceIdeal.HandRead.bias_row128_apply, Cert.ReferenceIdeal.HandRead.bias_row128_apply, Cert.ReferenceIdeal.HandRead.bias_row128_apply]
  simp only [hostRsqrt_apply, addf_apply, hmR, hvR]
  repeat rw [broadcastInDim_scalar_apply]
  repeat rw [constant_apply]
  rw [Ideal.ofBits_zero_f32]
  exact batchnorm_eq (hY (ix2 p q)) hM hV h0 (hg (ix1 q)) (hb (ix1 q)) ofBits_eps_f32_pos

end Cert.Bridge

end
-- ==== Proof.Algebraic.lean ====
/-
  The algebraic claim: at the exact instance the kernel program's result array and the reference's are one function of
  the argument arrays. The three regions compute the reference's layers block by block (a contraction over the three
  recurrence terms side by side is the sum of the three contractions; the folded scale and shift of the normalisation
  give the reference's centred form when every entry is a real number, which the precondition provides through every
  step of the graph recurrence).
-/
import proofs.«181888_j53283364274269_2_alg».proof.Defs
import proofs.«181888_j53283364274269_2_alg».proof.Proof.Gen.Kernel
import proofs.«181888_j53283364274269_2_alg».proof.Proof.Gen.KernelIdeal
import proofs.«181888_j53283364274269_2_alg».proof.Proof.Gen.ReferenceIdeal
import proofs.«181888_j53283364274269_2_alg».proof.Proof.Gen.Pre_finite_inputs
import proofs.«181888_j53283364274269_2_alg».proof.Proof.KRun
import proofs.«181888_j53283364274269_2_alg».proof.Proof.KIRun
import proofs.«181888_j53283364274269_2_alg».proof.Proof.KIOut
import proofs.«181888_j53283364274269_2_alg».proof.Proof.RefRun
import proofs.«181888_j53283364274269_2_alg».proof.Proof.RefValue
import proofs.«181888_j53283364274269_2_alg».proof.Proof.KIHostEq
import proofs.«181888_j53283364274269_2_alg».proof.Proof.Bridge

set_option maxRecDepth 16384

noncomputable section

namespace Cert.Proof.Claims

open Idealize.ShloMosaic Idealize.ShloMosaic.TcCoe Idealize.SL.Sem
open Cert.KernelIdeal.Hand Cert.KernelIdeal.HandOut Cert.KernelIdeal.HandValue
open Cert.ReferenceIdeal.RefRun Cert.ReferenceIdeal.RefValue Cert.Math Cert.Bridge

/-! ## The frames -/

theorem frame_k : Cert.frame_Kernel := fun m ρ _ =>
  (θ_run Cert.Kernel.defs _ _).mono (fun _ h c => (h c).2) (Cert.Kernel.Hand.run_main (F := Bits) m ρ)
theorem frame_ki : Cert.frame_KernelIdeal := fun m ρ _ =>
  (θ_run Cert.KernelIdeal.defs _ _).mono (fun _ h c => (h c).2) (Cert.KernelIdeal.Hand.run_main (F := Ideal) m ρ)
theorem frame_ri : Cert.frame_ReferenceIdeal := fun m ρ _ =>
  (θ_run Cert.ReferenceIdeal.defs _ _).mono (fun _ h c => (h c).2) (Cert.ReferenceIdeal.RefRun.run (F := Ideal) m ρ)
/-- The ideal pass rewrote nothing. -/
theorem preserves : Cert.preserves_Kernel_KernelIdeal := trivial

/-! ## The two results are one function of the arguments -/

section Value

variable (m : (ℓ : Loc Cert.KernelIdeal.nD Cert.KernelIdeal.τ Cert.KernelIdeal.sig) → Buf (Elt Ideal) ℓ) (c : Dev Cert.KernelIdeal.nD)

/-- Under the precondition the kernel program's result is the reference's function of the argument arrays. -/
theorem result_eq
    (hpre : Cert.Pre_finite_inputs.fn (F := Ideal) (ag m c Cert.KernelIdeal.main_arg0) (ag m c Cert.KernelIdeal.main_arg1) (ag m c Cert.KernelIdeal.main_arg2) (ag m c Cert.KernelIdeal.main_arg3) (ag m c Cert.KernelIdeal.main_arg4) (ag m c Cert.KernelIdeal.main_arg5) (ag m c Cert.KernelIdeal.main_arg6) (ag m c Cert.KernelIdeal.main_arg7) (ag m c Cert.KernelIdeal.main_arg8) (ag m c Cert.KernelIdeal.main_arg9) (ag m c Cert.KernelIdeal.main_arg10) (ag m c Cert.KernelIdeal.main_arg11) (ag m c Cert.KernelIdeal.main_arg12) = fun _ => 1#1) :
    o116 (F := Ideal) m c = refOut (F := Ideal) (ag m c Cert.KernelIdeal.main_arg0) (ag m c Cert.KernelIdeal.main_arg1) (ag m c Cert.KernelIdeal.main_arg2) (ag m c Cert.KernelIdeal.main_arg3) (ag m c Cert.KernelIdeal.main_arg4) (ag m c Cert.KernelIdeal.main_arg5) (ag m c Cert.KernelIdeal.main_arg6) (ag m c Cert.KernelIdeal.main_arg7) (ag m c Cert.KernelIdeal.main_arg8) (ag m c Cert.KernelIdeal.main_arg9) (ag m c Cert.KernelIdeal.main_arg10) (ag m c Cert.KernelIdeal.main_arg11) (ag m c Cert.KernelIdeal.main_arg12) := by
  obtain ⟨h0, h3, h4, h5, h6, h7, h8, h9, h10, h11, h12⟩ := allReal_of_pre _ _ _ _ _ _ _ _ _ _ _ _ _ hpre
  -- the first layer before normalisation
  have hY : o52 (F := Ideal) m c = relu (F := Ideal) (chebLin (F := Ideal) (dinv (F := Ideal) (ag m c Cert.KernelIdeal.main_arg2))
      (ag m c Cert.KernelIdeal.main_arg1) (ag m c Cert.KernelIdeal.main_arg2) (ag m c Cert.KernelIdeal.main_arg0)
      (ag m c Cert.KernelIdeal.main_arg3) (ag m c Cert.KernelIdeal.main_arg4)) := by
    rw [o52_eq, B1']; rfl
  have hYreal : AllReal (o52 (F := Ideal) m c) := by
    rw [hY]; exact allReal_relu (allReal_chebLin _ _ (allReal_dinv _) h0 h3 h4)
  -- the normalised layer
  have hH : o67 (F := Ideal) m c = layer1 (F := Ideal) (ag m c Cert.KernelIdeal.main_arg0) (ag m c Cert.KernelIdeal.main_arg1)
      (ag m c Cert.KernelIdeal.main_arg2) (ag m c Cert.KernelIdeal.main_arg3) (ag m c Cert.KernelIdeal.main_arg4)
      (ag m c Cert.KernelIdeal.main_arg7) (ag m c Cert.KernelIdeal.main_arg8) := by
    rw [o67_eq, B2 _ _ _ hYreal h7 h8, hY]; rfl
  -- the second layer and the two dense layers
  rw [o116_eq, B5', B3', B4', hH]; rfl

end Value

/-! ## The claim -/

theorem algebraic : Cert.algebraic_KernelIdeal_ReferenceIdeal := by
  intro m ρ m' ρ' hpre hagree
  refine ⟨fun c => o116 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12⟩ := hagree c
  rw [e0, e1, e2, e3, e4, e5, e6, e7, e8, e9, e10, e11, e12]
  exact (result_eq m c (hpre c)).symm

end Cert.Proof.Claims

end
-- ==== Proof.lean ====
/- A Chebyshev graph-convolution network (two graph layers of order three with a batch normalisation between them, a
   residual connection and a two-layer dense head) computed by three pipelined kernels over row blocks of 5000 nodes,
   against its plain array reference. Every program runs to the end without a fault and leaves its arguments unchanged
   (the kernel program: ten items, seven stretches of host operations around three regions whose bodies load whole
   blocks, compute and store whole blocks); read at the exact instance both programs end with the same result array:
   a contraction over the three recurrence terms laid side by side is the sum of the three contractions, and the
   normalisation's folded scale and shift give the centred form when every entry is a real number. -/
import proofs.«181888_j53283364274269_2_alg».proof.Defs
import proofs.«181888_j53283364274269_2_alg».proof.Proof.Gen.Kernel
import proofs.«181888_j53283364274269_2_alg».proof.Proof.Gen.Kernel.Skeleton
import proofs.«181888_j53283364274269_2_alg».proof.Proof.Gen.Kernel.Launch
import proofs.«181888_j53283364274269_2_alg».proof.Proof.Gen.Kernel.Regions
import proofs.«181888_j53283364274269_2_alg».proof.Proof.Gen.Kernel.Points
import proofs.«181888_j53283364274269_2_alg».proof.Proof.Gen.KernelIdeal
import proofs.«181888_j53283364274269_2_alg».proof.Proof.Gen.KernelIdeal.Skeleton
import proofs.«181888_j53283364274269_2_alg».proof.Proof.Gen.KernelIdeal.Launch
import proofs.«181888_j53283364274269_2_alg».proof.Proof.Gen.KernelIdeal.Regions
import proofs.«181888_j53283364274269_2_alg».proof.Proof.Gen.KernelIdeal.Points
import proofs.«181888_j53283364274269_2_alg».proof.Proof.Gen.ReferenceIdeal
import proofs.«181888_j53283364274269_2_alg».proof.Proof.Gen.Pre_finite_inputs
import proofs.«181888_j53283364274269_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
